-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128 : Shape := ⟨2, ![3, 128]⟩
abbrev S256x1 : Shape := ⟨2, ![256, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg18
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S1 .f32) (main_arg14 : FVec F S256x128 .f32) (main_arg15 : FVec F S128 .f32) (main_arg16 : FVec F S128x64 .f32) (main_arg17 : FVec F S64 .f32) (main_arg18 : FVec F S64x1 .f32) (main_arg19 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128 .f32) (main_arg12 : FVec F S256x1 .f32) (main_arg13 : FVec F S1 .f32) (main_arg14 : FVec F S256x128 .f32) (main_arg15 : FVec F S128 .f32) (main_arg16 : FVec F S128x64 .f32) (main_arg17 : FVec F S64 .f32) (main_arg18 : FVec F S64x1 .f32) (main_arg19 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x1 .f32 := Host.absf main_arg12
  let main_cst_18 : FVec F S_ .f32 := constant S_ .f32 0x7F800000#32
  let main_v50 : FVec F S256x1 .f32 := broadcastInDim S256x1 ![] bcast_S_S256x1 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S3x128 .f32) (main_arg9 : FVec F S128 .f32) (main_arg10 : FVec F S128x128 .f32) (main_arg11 : FVec F S128 .f32) (main_arg12 : FVec F S256x1 .f32) (main_arg13 : FVec F S1 .f32) (main_arg14 : FVec F S256x128 .f32) (main_arg15 : FVec F S128 .f32) (main_arg16 : FVec F S128x64 .f32) (main_arg17 : FVec F S64 .f32) (main_arg18 : FVec F S64x1 .f32) (main_arg19 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S50000x3 .f32) (main_arg2 : IVec S2x800000 32) (main_arg3 : IVec S50000 32) (main_arg4 : FVec F S128x128 .f32) (main_arg5 : FVec F S128 .f32) (main_arg6 : FVec F S128x128 .f32) (main_arg7 : FVec F S128 .f32) (main_arg8 : FVec F S3x128 .f32) (main_arg9 : FVec F S128 .f32) (main_arg10 : FVec F S128x128 .f32) (main_arg11 : FVec F S128 .f32) (main_arg12 : FVec F S256x1 .f32) (main_arg13 : FVec F S1 .f32) (main_arg14 : FVec F S256x128 .f32) (main_arg15 : FVec F S128 .f32) (main_arg16 : FVec F S128x64 .f32) (main_arg17 : FVec F S64 .f32) (main_arg18 : FVec F S64x1 .f32) (main_arg19 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128 : Shape := ⟨2, ![3, 128]⟩
abbrev S256x1 : Shape := ⟨2, ![256, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1x800000 : Shape := ⟨2, ![1, 800000]⟩
abbrev S800000 : Shape := ⟨1, ![800000]⟩
abbrev S128x256 : Shape := ⟨2, ![128, 256]⟩
abbrev S_ : Shape := ⟨0, ![]⟩
abbrev S256 : Shape := ⟨1, ![256]⟩
abbrev S1x256 : Shape := ⟨2, ![1, 256]⟩
abbrev S128x1 : Shape := ⟨2, ![128, 1]⟩
abbrev S128x2 : Shape := ⟨2, ![128, 2]⟩
abbrev S1x1 : Shape := ⟨2, ![1, 1]⟩
abbrev S1x2 : Shape := ⟨2, ![1, 2]⟩
abbrev S50000x2 : Shape := ⟨2, ![50000, 2]⟩
abbrev S5000x128 : Shape := ⟨2, ![5000, 128]⟩
abbrev S5000x2 : Shape := ⟨2, ![5000, 2]⟩
abbrev S5000x256 : Shape := ⟨2, ![5000, 256]⟩
abbrev S850000 : Shape := ⟨1, ![850000]⟩
abbrev S850000x1 : Shape := ⟨2, ![850000, 1]⟩
abbrev S50000x1 : Shape := ⟨2, ![50000, 1]⟩
abbrev S850000x128 : Shape := ⟨2, ![850000, 128]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S4000x128 : Shape := ⟨2, ![4000, 128]⟩
abbrev S4000x3 : Shape := ⟨2, ![4000, 3]⟩
abbrev S4000x1 : Shape := ⟨2, ![4000, 1]⟩
abbrev S1x64 : Shape := ⟨2, ![1, 64]⟩
abbrev S256x64 : Shape := ⟨2, ![256, 64]⟩

abbrev nBuf : Space → Nat
  | .hbm => 157
  | .vmem => 39
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S3x128, .f32⟩
  | 9 => ⟨S128, .f32⟩
  | 10 => ⟨S128x128, .f32⟩
  | 11 => ⟨S128, .f32⟩
  | 12 => ⟨S256x1, .f32⟩
  | 13 => ⟨S1, .f32⟩
  | 14 => ⟨S256x128, .f32⟩
  | 15 => ⟨S128, .f32⟩
  | 16 => ⟨S128x64, .f32⟩
  | 17 => ⟨S64, .f32⟩
  | 18 => ⟨S64x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S128x256, .f32⟩
  | 25 => ⟨S_, .f32⟩
  | 26 => ⟨S128, .f32⟩
  | 27 => ⟨S256, .f32⟩
  | 28 => ⟨S1x256, .f32⟩
  | 29 => ⟨S128x1, .f32⟩
  | 30 => ⟨S128x1, .f32⟩
  | 31 => ⟨S128x2, .f32⟩
  | 32 => ⟨S1x1, .f32⟩
  | 33 => ⟨S_, .f32⟩
  | 34 => ⟨S1x1, .f32⟩
  | 35 => ⟨S1x2, .f32⟩
  | 36 => ⟨S50000x128, .f32⟩
  | 37 => ⟨S50000x128, .f32⟩
  | 38 => ⟨S50000x2, .f32⟩
  | 39 => ⟨S50000, .i32⟩
  | 40 => ⟨S850000, .i32⟩
  | 41 => ⟨S850000, .i32⟩
  | 42 => ⟨S_, .f32⟩
  | 43 => ⟨S850000, .f32⟩
  | 44 => ⟨S_, .f32⟩
  | 45 => ⟨S50000, .f32⟩
  | 46 => ⟨S850000x1, .i32⟩
  | 47 => ⟨S50000, .f32⟩
  | 48 => ⟨S_, .f32⟩
  | 49 => ⟨S50000, .f32⟩
  | 50 => ⟨S50000, .i1⟩
  | 51 => ⟨S_, .f32⟩
  | 52 => ⟨S50000, .f32⟩
  | 53 => ⟨S50000, .f32⟩
  | 54 => ⟨S_, .f32⟩
  | 55 => ⟨S_, .f32⟩
  | 56 => ⟨S50000, .f32⟩
  | 57 => ⟨S50000, .f32⟩
  | 58 => ⟨S50000x1, .f32⟩
  | 59 => ⟨S50000x128, .f32⟩
  | 60 => ⟨S50000x128, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S50000x1, .f32⟩
  | 75 => ⟨S50000x128, .f32⟩
  | 76 => ⟨S50000x128, .f32⟩
  | 77 => ⟨S50000x128, .bf16⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x3, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x3, .f32⟩
  | 105 => ⟨S800000x3, .f32⟩
  | 106 => ⟨S50000x1, .f32⟩
  | 107 => ⟨S50000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x1, .f32⟩
  | 126 => ⟨S800000x1, .f32⟩
  | 127 => ⟨S1x128, .f32⟩
  | _ => ⟨S50000x128, .f32⟩

abbrev hbmTy0_1 (i : Nat) : BufTy := match i % 128 with
  | 0 => ⟨S1x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S1x128, .f32⟩
  | 7 => ⟨S1x128, .f32⟩
  | 8 => ⟨S50000x128, .f32⟩
  | 9 => ⟨S_, .f32⟩
  | 10 => ⟨S50000, .f32⟩
  | 11 => ⟨S_, .f32⟩
  | 12 => ⟨S256, .f32⟩
  | 13 => ⟨S50000x1, .i32⟩
  | 14 => ⟨S256, .f32⟩
  | 15 => ⟨S_, .f32⟩
  | 16 => ⟨S256x128, .f32⟩
  | 17 => ⟨S50000x1, .i32⟩
  | 18 => ⟨S256x128, .f32⟩
  | 19 => ⟨S_, .f32⟩
  | 20 => ⟨S_, .f32⟩
  | 21 => ⟨S256, .f32⟩
  | 22 => ⟨S256, .f32⟩
  | 23 => ⟨S256x1, .f32⟩
  | 24 => ⟨S256x128, .f32⟩
  | 25 => ⟨S256x128, .f32⟩
  | 26 => ⟨S1x64, .f32⟩
  | 27 => ⟨S1x1, .f32⟩
  | 28 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S128x2, .f32⟩
  | .local _ .vmem, ⟨5, _⟩ => ⟨S1x2, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S4000x128, .bf16⟩
  | .local _ .vmem, ⟨13, _⟩ => ⟨S4000x128, .bf16⟩
  | .local _ .vmem, ⟨14, _⟩ => ⟨S4000x3, .f32⟩
  | .local _ .vmem, ⟨15, _⟩ => ⟨S4000x3, .f32⟩
  | .local _ .vmem, ⟨16, _⟩ => ⟨S4000x1, .f32⟩
  | .local _ .vmem, ⟨17, _⟩ => ⟨S4000x1, .f32⟩
  | .local _ .vmem, ⟨18, _⟩ => ⟨S3x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S256x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S256x128, .f32⟩
  | .local _ .vmem, ⟨34, _⟩ => ⟨S128x64, .f32⟩
  | .local _ .vmem, ⟨35, _⟩ => ⟨S1x64, .f32⟩
  | .local _ .vmem, ⟨36, _⟩ => ⟨S64x1, .f32⟩
  | .local _ .vmem, ⟨37, _⟩ => ⟨S1x1, .f32⟩
  | .local _ .vmem, ⟨38, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_8 : Ref sig .tc := ⟨.hbm, 78, rfl⟩
abbrev main_v44 : Ref sig .tc := ⟨.hbm, 79, rfl⟩
abbrev main_v45 : Ref sig .tc := ⟨.hbm, 80, rfl⟩
abbrev main_c_9 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_16 : Ref sig .tc := ⟨.hbm, 117, rfl⟩
abbrev main_v75 : Ref sig .tc := ⟨.hbm, 118, rfl⟩
abbrev main_v76 : Ref sig .tc := ⟨.hbm, 119, rfl⟩
abbrev main_c_17 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_18 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_cst_20 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_21 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_22 : Ref sig .tc := ⟨.hbm, 147, rfl⟩
abbrev main_call1_v0 : Ref sig .tc := ⟨.hbm, 148, rfl⟩
abbrev main_call1_v1 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x256_d1 : Shape.Concatenates [S128x128, S128x128] S128x256 1
  bcast_S_S128 : S_.BroadcastsInDim S128 (![] : Fin 0 → Fin S128.rank)
  concatenates_S128_S128_S256_d0 : Shape.Concatenates [S128, S128] S256 0
  bcast_S256_S1x256_1 : S256.BroadcastsInDim S1x256 (![1] : Fin 1 → Fin S1x256.rank)
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S1_S1x1 : S1.ShapeCasts S1x1
  bcast_S_S1x1 : S_.BroadcastsInDim S1x1 (![] : Fin 0 → Fin S1x1.rank)
  concatenates_S1x1_S1x1_S1x2_d1 : Shape.Concatenates [S1x1, S1x1] S1x2 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S50000x2_S50000x1_0_0 : S50000x2.Slices ![0, 0] S50000x1
  slices_S50000x2_S50000x1_0_1 : S50000x2.Slices ![0, 1] S50000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  shapeCasts_S5000x128_S5000x128 : S5000x128.ShapeCasts S5000x128
  broadcasts_S1x128_S5000x128 : S1x128.Broadcasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S5000x128_S128x256_S5000x256_1_0_0_1_n_n_wf : DotDims.WF S5000x128 S128x256 S5000x256 [1] [0] [0] [1] [] []
  dot_S5000x128_S128x2_S5000x2_1_0_0_1_n_n_wf : DotDims.WF S5000x128 S128x2 S5000x2 [1] [0] [0] [1] [] []
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  gather_S50000x1_S800000x1_S800000x1_1_0_n_n_0_1_11_wf : GatherDims.WF S50000x1 S800000x1 S800000x1 [1] [0] [] [0] [] 1 ![1, 1]
  dot_S4000x3_S3x128_S4000x128_1_0_0_1_n_n_wf : DotDims.WF S4000x3 S3x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S128x2.size a
  hwx0_3 : ∀ i : grid0.Coords, EltTy.bits .f32 = 32 ∨ (Rect.block (s := S128x2) S128x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x2.size a ≤ S50000x2.size a
  hwx0_7 : ∀ i : grid0.Coords, EltTy.bits .f32 = 32 ∨ (Rect.block (s := S50000x2) S5000x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .bf16 = 32 ∨ (Rect.block (s := S800000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S800000x3.size a
  hwx1_1 : ∀ i : grid1.Coords, EltTy.bits .f32 = 32 ∨ (Rect.block (s := S800000x3) S4000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S256x1.size a
  hwx3_5 : ∀ i : grid3.Coords, EltTy.bits .f32 = 32 ∨ (Rect.block (s := S256x1) S256x1.size (cc3_transform_5 i) (hinb3_5 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_2) S5000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v50) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v82) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v83) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v84) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v102) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v104) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105) S256x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128 : Shape := ⟨2, ![3, 128]⟩
abbrev S256x1 : Shape := ⟨2, ![256, 1]⟩
abbrev S1 : Shape := ⟨1, ![1]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x3 : Shape := ⟨2, ![800000, 3]⟩
abbrev S800000x256 : Shape := ⟨2, ![800000, 256]⟩
abbrev S1x1 : Shape := ⟨2, ![1, 1]⟩
abbrev S50000x256 : Shape := ⟨2, ![50000, 256]⟩
abbrev S256 : Shape := ⟨1, ![256]⟩
abbrev S50000x1 : Shape := ⟨2, ![50000, 1]⟩
abbrev S256x64 : Shape := ⟨2, ![256, 64]⟩
abbrev S1x64 : Shape := ⟨2, ![1, 64]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S3x128, .f32⟩
  | 9 => ⟨S128, .f32⟩
  | 10 => ⟨S128x128, .f32⟩
  | 11 => ⟨S128, .f32⟩
  | 12 => ⟨S256x1, .f32⟩
  | 13 => ⟨S1, .f32⟩
  | 14 => ⟨S256x128, .f32⟩
  | 15 => ⟨S128, .f32⟩
  | 16 => ⟨S128x64, .f32⟩
  | 17 => ⟨S64, .f32⟩
  | 18 => ⟨S64x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S50000x128, .f32⟩
  | 25 => ⟨S50000, .i32⟩
  | 26 => ⟨S850000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x3, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x3, .f32⟩
  | 125 => ⟨S800000x3, .f32⟩
  | 126 => ⟨S800000x128, .f32⟩
  | 127 => ⟨S1x128, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S800000x128, .f32⟩
  | 4 => ⟨S800000x128, .f32⟩
  | 5 => ⟨S800000x128, .f32⟩
  | 6 => ⟨S1x128, .f32⟩
  | 7 => ⟨S800000x128, .f32⟩
  | 8 => ⟨S800000x128, .f32⟩
  | 9 => ⟨S800000x256, .f32⟩
  | 10 => ⟨S800000x1, .f32⟩
  | 11 => ⟨S1x1, .f32⟩
  | 12 => ⟨S800000x1, .f32⟩
  | 13 => ⟨S800000x1, .f32⟩
  | 14 => ⟨S800000x1, .f32⟩
  | 15 => ⟨S800000x1, .f32⟩
  | 16 => ⟨S_, .f32⟩
  | 17 => ⟨S800000x1, .f32⟩
  | 18 => ⟨S800000x1, .f32⟩
  | 19 => ⟨S_, .f32⟩
  | 20 => ⟨S800000x1, .f32⟩
  | 21 => ⟨S800000x1, .f32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x256, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000, .f32⟩
  | 42 => ⟨S_, .f32⟩
  | 43 => ⟨S256, .f32⟩
  | 44 => ⟨S50000x1, .i32⟩
  | 45 => ⟨S256, .f32⟩
  | 46 => ⟨S_, .f32⟩
  | 47 => ⟨S256x128, .f32⟩
  | 48 => ⟨S50000x1, .i32⟩
  | 49 => ⟨S256x128, .f32⟩
  | 50 => ⟨S_, .f32⟩
  | 51 => ⟨S_, .f32⟩
  | 52 => ⟨S256, .f32⟩
  | 53 => ⟨S256, .f32⟩
  | 54 => ⟨S256x1, .f32⟩
  | 55 => ⟨S256x128, .f32⟩
  | 56 => ⟨S256x128, .f32⟩
  | 57 => ⟨S256x64, .f32⟩
  | 58 => ⟨S1x64, .f32⟩
  | 59 => ⟨S256x64, .f32⟩
  | 60 => ⟨S256x64, .f32⟩
  | 61 => ⟨S_, .f32⟩
  | 62 => ⟨S256x64, .f32⟩
  | 63 => ⟨S256x64, .f32⟩
  | 64 => ⟨S256x1, .f32⟩
  | 65 => ⟨S1x1, .f32⟩
  | 66 => ⟨S256x1, .f32⟩
  | 67 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_9 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call1_cst : Ref sig .tc := ⟨.hbm, 82, rfl⟩
abbrev main_call1_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_c_11 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_12 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_c_15 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_16 : Ref sig .tc := ⟨.hbm, 116, rfl⟩
abbrev main_v74 : Ref sig .tc := ⟨.hbm, 117, rfl⟩
abbrev main_v75 : Ref sig .tc := ⟨.hbm, 118, rfl⟩
abbrev main_c_17 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_call2_cst : Ref sig .tc := ⟨.hbm, 130, rfl⟩
abbrev main_call2_v0 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_18 : Ref sig .tc := ⟨.hbm, 144, rfl⟩
abbrev main_v98 : Ref sig .tc := ⟨.hbm, 145, rfl⟩
abbrev main_v99 : Ref sig .tc := ⟨.hbm, 146, rfl⟩
abbrev main_cst_19 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_20 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_call3_cst : Ref sig .tc := ⟨.hbm, 157, rfl⟩
abbrev main_call3_v0 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call4_cst : Ref sig .tc := ⟨.hbm, 165, rfl⟩
abbrev main_call4_v0 : Ref sig .tc := ⟨.hbm, 166, rfl⟩
abbrev main_v114 : Ref sig .tc := ⟨.hbm, 167, rfl⟩
abbrev main_cst_21 : Ref sig .tc := ⟨.hbm, 168, rfl⟩
abbrev main_v115 : Ref sig .tc := ⟨.hbm, 169, rfl⟩
abbrev main_cst_22 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_23 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_24 : Ref sig .tc := ⟨.hbm, 178, rfl⟩
abbrev main_call5_v0 : Ref sig .tc := ⟨.hbm, 179, rfl⟩
abbrev main_call5_v1 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_call6_cst : Ref sig .tc := ⟨.hbm, 189, rfl⟩
abbrev main_call6_v0 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  concatenates_S50000x128_S50000x128_S50000x256_d1 : Shape.Concatenates [S50000x128, S50000x128] S50000x256 1
  bcast_S_S256 : S_.BroadcastsInDim S256 (![] : Fin 0 → Fin S256.rank)
  bcast_S50000_S50000x1_0 : S50000.BroadcastsInDim S50000x1 (![0] : Fin 1 → Fin S50000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1x1_S256x1_0_1 : S1x1.BroadcastsInDim S256x1 (![0, 1] : Fin 2 → Fin S256x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S800000x3_S3x128_S800000x128_1_0_0_1_n_n_wf : DotDims.WF S800000x3 S3x128 S800000x128 [1] [0] [0] [1] [] []
  dot_S800000x128_S128x128_S800000x128_1_0_0_1_n_n_wf : DotDims.WF S800000x128 S128x128 S800000x128 [1] [0] [0] [1] [] []
  dot_S800000x256_S256x1_S800000x1_1_0_0_1_n_n_wf : DotDims.WF S800000x256 S256x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x3_S3x128_S800000x128_1_0_0_1_n_n : DotDims S800000x3 S3x128 S800000x128 where
  lhsContracting := [1]
  rhsContracting := [0]
  lhsNonContracting := [0]
  rhsNonContracting := [1]
  lhsBatch := []
  rhsBatch := []
  wf := dot_S800000x3_S3x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KRun.lean ====
/-
  The idealized kernel's run with its RESULT named: from any launch memory every weakly fair execution of @main
  terminates without a fault, the result buffer ends at the last segment boundary's contents (the fold of the four
  regions' write-backs and the host stretches between them), and the argument arrays end as launched.
-/
import proofs.«126740_j33818572488720_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.RunValue

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.KHost.lean ====
/-
  What each kernel's operands hold when the kernel is entered: the host operations between the kernels, read back.

  The idealized kernel program runs four kernels among stretches of host operations.  The buffer contents at a
  segment boundary are a fold of the stretch's operations over the contents at the previous boundary; read at one
  buffer the fold is the composition of the operations that feed it.  Where the kernel program's host operations are
  the reference's own (the edge endpoints and their wrapped index columns, the node degrees and their inverse square
  roots, the coordinate differences, the pooling), the composition is named by the reference's stage of the same
  value; where they differ (the normalisation folded into node space, the attention logit from two per-node scalars)
  it is written out over the first kernel's outputs.
-/
import proofs.«126740_j33818572488720_2_alg».proof.Proof.Gen.KernelIdeal.Frame
import proofs.«126740_j33818572488720_2_alg».proof.Proof.RefRead
import proofs.«126740_j33818572488720_2_alg».proof.Proof.LibTypedRef
import Idealize.ShloMosaic.Lib.StableHlo.Run

set_option maxRecDepth 16384

noncomputable section

namespace Cert.Bridge.KHost

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- An argument array as launched, on core `c`. -/
abbrev arg (c : Dev nD) (b : Ref sig .tc) : Buf (Elt F) ((c : Thread nD τ).loc b) := m ((c : Thread nD τ).loc b)

/-! ## Before the first kernel -/

theorem W1_arg0 (c : Dev nD) : W1 m ρ c (Proc.devRef .tc main_arg0) = arg m c main_arg0 := by
  dsimp only [W1, hostOps0]; after_results
theorem W1_v1 (c : Dev nD) : W1 m ρ c (Proc.devRef .tc main_v1) = val_main_v1 (F := F) (arg m c main_arg2) := by
  dsimp only [W1, hostOps0]; after_results; rfl
theorem W1_v3 (c : Dev nD) : W1 m ρ c (Proc.devRef .tc main_v3) = val_main_v3 (F := F) (arg m c main_arg2) := by
  dsimp only [W1, hostOps0]; after_results; rfl
theorem W1_v4 (c : Dev nD) : W1 m ρ c (Proc.devRef .tc main_v4)
    = concatenate S128x256 1 [⟨S128x128, arg m c main_arg4⟩, ⟨S128x128, arg m c main_arg6⟩] concatenates_S128x128_S128x128_S128x256_d1 := by
  dsimp only [W1, hostOps0]; after_results
theorem W1_v7 (c : Dev nD) : W1 m ρ c (Proc.devRef .tc main_v7)
    = broadcastInDim S1x256 ![1] bcast_S256_S1x256_1 (concatenate S256 0 [⟨S128, broadcastInDim S128 ![] bcast_S_S128 (constant (F := F) S_ .f32 0x00000000#32)⟩, ⟨S128, arg m c main_arg7⟩] concatenates_S128_S128_S256_d0) := by
  dsimp only [W1, hostOps0]; after_results
theorem W1_v10 (c : Dev nD) : W1 m ρ c (Proc.devRef .tc main_v10)
    = concatenate S128x2 1 [⟨S128x1, extractStridedSlice S128x1 ![0, 0] (arg m c main_arg12) slices_S256x1_S128x1_0_0⟩, ⟨S128x1, extractStridedSlice S128x1 ![128, 0] (arg m c main_arg12) slices_S256x1_S128x1_128_0⟩] concatenates_S128x1_S128x1_S128x2_d1 := by
  dsimp only [W1, hostOps0]; after_results
theorem W1_v13 (c : Dev nD) : W1 m ρ c (Proc.devRef .tc main_v13)
    = concatenate S1x2 1 [⟨S1x1, shapeCast S1x1 (arg m c main_arg13) shapeCasts_S1_S1x1⟩, ⟨S1x1, broadcastInDim S1x1 ![] bcast_S_S1x1 (constant (F := F) S_ .f32 0x00000000#32)⟩] concatenates_S1x1_S1x1_S1x2_d1 := by
  dsimp only [W1, hostOps0]; after_results; rfl

/-! ## After the first kernel: what it did not write is as before -/

theorem W2_v1 (c : Dev nD) : W2 m ρ c (Proc.devRef .tc main_v1) = val_main_v1 (F := F) (arg m c main_arg2) :=
  (W2_of_ne m ρ c main_v1 (by decide)).trans (W1_v1 m ρ c)
theorem W2_v3 (c : Dev nD) : W2 m ρ c (Proc.devRef .tc main_v3) = val_main_v3 (F := F) (arg m c main_arg2) :=
  (W2_of_ne m ρ c main_v3 (by decide)).trans (W1_v3 m ρ c)
theorem W2_arg1 (c : Dev nD) : W2 m ρ c (Proc.devRef .tc main_arg1) = arg m c main_arg1 :=
  (W2_of_ne m ρ c main_arg1 (by decide)).trans (by dsimp only [W1, hostOps0]; after_results)
theorem W2_arg3 (c : Dev nD) : W2 m ρ c (Proc.devRef .tc main_arg3) = arg m c main_arg3 :=
  (W2_of_ne m ρ c main_arg3 (by decide)).trans (by dsimp only [W1, hostOps0]; after_results)
theorem W2_arg5 (c : Dev nD) : W2 m ρ c (Proc.devRef .tc main_arg5) = arg m c main_arg5 :=
  (W2_of_ne m ρ c main_arg5 (by decide)).trans (by dsimp only [W1, hostOps0]; after_results)
theorem W2_arg8 (c : Dev nD) : W2 m ρ c (Proc.devRef .tc main_arg8) = arg m c main_arg8 :=
  (W2_of_ne m ρ c main_arg8 (by decide)).trans (by dsimp only [W1, hostOps0]; after_results)
theorem W2_arg9 (c : Dev nD) : W2 m ρ c (Proc.devRef .tc main_arg9) = arg m c main_arg9 :=
  (W2_of_ne m ρ c main_arg9 (by decide)).trans (by dsimp only [W1, hostOps0]; after_results)
theorem W2_arg10 (c : Dev nD) : W2 m ρ c (Proc.devRef .tc main_arg10) = arg m c main_arg10 :=
  (W2_of_ne m ρ c main_arg10 (by decide)).trans (by dsimp only [W1, hostOps0]; after_results)
theorem W2_arg11 (c : Dev nD) : W2 m ρ c (Proc.devRef .tc main_arg11) = arg m c main_arg11 :=
  (W2_of_ne m ρ c main_arg11 (by decide)).trans (by dsimp only [W1, hostOps0]; after_results)
theorem W2_arg14 (c : Dev nD) : W2 m ρ c (Proc.devRef .tc main_arg14) = arg m c main_arg14 :=
  (W2_of_ne m ρ c main_arg14 (by decide)).trans (by dsimp only [W1, hostOps0]; after_results)
theorem W2_arg15 (c : Dev nD) : W2 m ρ c (Proc.devRef .tc main_arg15) = arg m c main_arg15 :=
  (W2_of_ne m ρ c main_arg15 (by decide)).trans (by dsimp only [W1, hostOps0]; after_results)
theorem W2_arg16 (c : Dev nD) : W2 m ρ c (Proc.devRef .tc main_arg16) = arg m c main_arg16 :=
  (W2_of_ne m ρ c main_arg16 (by decide)).trans (by dsimp only [W1, hostOps0]; after_results)
theorem W2_arg17 (c : Dev nD) : W2 m ρ c (Proc.devRef .tc main_arg17) = arg m c main_arg17 :=
  (W2_of_ne m ρ c main_arg17 (by decide)).trans (by dsimp only [W1, hostOps0]; after_results)
theorem W2_arg18 (c : Dev nD) : W2 m ρ c (Proc.devRef .tc main_arg18) = arg m c main_arg18 :=
  (W2_of_ne m ρ c main_arg18 (by decide)).trans (by dsimp only [W1, hostOps0]; after_results)
theorem W2_arg19 (c : Dev nD) : W2 m ρ c (Proc.devRef .tc main_arg19) = arg m c main_arg19 :=
  (W2_of_ne m ρ c main_arg19 (by decide)).trans (by dsimp only [W1, hostOps0]; after_results)

/-- The first kernel's three outputs, as the second boundary holds them. -/
abbrev xwK (c : Dev nD) := W2 m ρ c (Proc.devRef .tc main_v14_0)
abbrev xlK (c : Dev nD) := W2 m ρ c (Proc.devRef .tc main_v14_1)
abbrev abK (c : Dev nD) := W2 m ρ c (Proc.devRef .tc main_v14_2)

/-- A per-node scalar laid along the 128 channels. -/
abbrev perNode (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 d)

/-! ## Before the second kernel -/

/-- The inverse square root of the degree, zero on an isolated node: the reference's own stage. -/
theorem W5_v26 (c : Dev nD) : W5 m ρ c (Proc.devRef .tc main_v26) = val_main_v16 (F := F) (arg m c main_arg2) := by
  dsimp only [W5, W4, W3, hostOps1_2, hostOps1_1, hostOps1]
  after_results_simp
  simp only [TRef.ofBuf_toBuf, TRef.toBuf_ofBuf, W2_v1 m ρ c, W2_v3 m ρ c]
  rfl

/-- The normalised aggregate: the normaliser times the sum, over the edges landing on a node, of the source rows
    of the pre-scaled projection. -/
theorem W5_v42 (c : Dev nD) : W5 m ρ c (Proc.devRef .tc main_v42)
    = mulf (perNode (val_main_v16 (F := F) (arg m c main_arg2)))
        (Host.scatterAdd scatter_S50000x128_S850000x1_S850000x128_1_0_0_1 (val_main_v42 (F := F)) (val_main_v43 (F := F) (arg m c main_arg2))
          (Host.gather gather_S50000x128_S850000x1_S850000x128_1_0_n_n_0_1_1128
            (mulf (perNode (val_main_v16 (F := F) (arg m c main_arg2))) (xwK m ρ c)) (val_main_v38 (F := F) (arg m c main_arg2)))) := by
  dsimp only [W5, W4, W3, hostOps1_2, hostOps1_1, hostOps1]
  after_results_simp
  simp only [TRef.ofBuf_toBuf, TRef.toBuf_ofBuf, W2_v1 m ρ c, W2_v3 m ρ c]
  rfl

/-- The gathered source rows of the second projection (narrowed to sixteen bits, which is the identity on the
    extended reals). -/
theorem W5_v50 (c : Dev nD) : W5 m ρ c (Proc.devRef .tc main_v50)
    = Host.gather gather_S50000x128_S800000x1_S800000x128_1_0_n_n_0_1_1128 (truncf .bf16 (xlK m ρ c) bitsLt_bf16_f32) (val_main_v65 (F := F) (arg m c main_arg2)) := by
  dsimp only [W5, W4, W3, hostOps1_2, hostOps1_1, hostOps1]
  after_results_simp
  simp only [TRef.ofBuf_toBuf, TRef.toBuf_ofBuf, W2_v1 m ρ c, W2_v3 m ρ c]
  rfl

/-- The coordinate differences target minus source: the reference's own stage. -/
theorem W5_v65 (c : Dev nD) : W5 m ρ c (Proc.devRef .tc main_v65) = val_main_v81 (F := F) (arg m c main_arg1) (arg m c main_arg2) := by
  dsimp only [W5, W4, W3, hostOps1_2, hostOps1_1, hostOps1]
  after_results_simp
  simp only [TRef.ofBuf_toBuf, TRef.toBuf_ofBuf, W2_v1 m ρ c, W2_v3 m ρ c, W2_arg1 m ρ c]
  rfl

/-- The attention logit: the target's first scalar plus the source's second. -/
theorem W5_v82 (c : Dev nD) : W5 m ρ c (Proc.devRef .tc main_v82)
    = addf (Host.gather gather_S50000x1_S800000x1_S800000x1_1_0_n_n_0_1_11 (extractStridedSlice S50000x1 ![0, 0] (abK m ρ c) slices_S50000x2_S50000x1_0_0) (val_main_v58 (F := F) (arg m c main_arg2)))
        (Host.gather gather_S50000x1_S800000x1_S800000x1_1_0_n_n_0_1_11 (extractStridedSlice S50000x1 ![0, 1] (abK m ρ c) slices_S50000x2_S50000x1_0_1) (val_main_v65 (F := F) (arg m c main_arg2))) := by
  dsimp only [W5, W4, W3, hostOps1_2, hostOps1_1, hostOps1]
  after_results_simp
  simp only [TRef.ofBuf_toBuf, TRef.toBuf_ofBuf, W2_v1 m ρ c, W2_v3 m ρ c]
  rfl

theorem W5_v83 (c : Dev nD) : W5 m ρ c (Proc.devRef .tc main_v83) = shapeCast S1x128 (arg m c main_arg9) shapeCasts_S128_S1x128 := by
  dsimp only [W5, W4, W3, hostOps1_2, hostOps1_1, hostOps1]
  after_results_simp
  simp only [W2_arg9 m ρ c]
  rfl
theorem W5_v84 (c : Dev nD) : W5 m ρ c (Proc.devRef .tc main_v84) = shapeCast S1x128 (arg m c main_arg11) shapeCasts_S128_S1x128 := by
  dsimp only [W5, W4, W3, hostOps1_2, hostOps1_1, hostOps1]
  after_results_simp
  simp only [W2_arg11 m ρ c]
  rfl
theorem W5_arg8 (c : Dev nD) : W5 m ρ c (Proc.devRef .tc main_arg8) = arg m c main_arg8 := by
  dsimp only [W5, W4, W3, hostOps1_2, hostOps1_1, hostOps1]
  after_results_simp
  exact W2_arg8 m ρ c
theorem W5_arg10 (c : Dev nD) : W5 m ρ c (Proc.devRef .tc main_arg10) = arg m c main_arg10 := by
  dsimp only [W5, W4, W3, hostOps1_2, hostOps1_1, hostOps1]
  after_results_simp
  exact W2_arg10 m ρ c
theorem W5_arg3 (c : Dev nD) : W5 m ρ c (Proc.devRef .tc main_arg3) = arg m c main_arg3 := by
  dsimp only [W5, W4, W3, hostOps1_2, hostOps1_1, hostOps1]
  after_results_simp
  exact W2_arg3 m ρ c
theorem W5_arg5 (c : Dev nD) : W5 m ρ c (Proc.devRef .tc main_arg5) = arg m c main_arg5 := by
  dsimp only [W5, W4, W3, hostOps1_2, hostOps1_1, hostOps1]
  after_results_simp
  exact W2_arg5 m ρ c
theorem W5_arg14 (c : Dev nD) : W5 m ρ c (Proc.devRef .tc main_arg14) = arg m c main_arg14 := by
  dsimp only [W5, W4, W3, hostOps1_2, hostOps1_1, hostOps1]
  after_results_simp
  exact W2_arg14 m ρ c
theorem W5_arg15 (c : Dev nD) : W5 m ρ c (Proc.devRef .tc main_arg15) = arg m c main_arg15 := by
  dsimp only [W5, W4, W3, hostOps1_2, hostOps1_1, hostOps1]
  after_results_simp
  exact W2_arg15 m ρ c
theorem W5_arg16 (c : Dev nD) : W5 m ρ c (Proc.devRef .tc main_arg16) = arg m c main_arg16 := by
  dsimp only [W5, W4, W3, hostOps1_2, hostOps1_1, hostOps1]
  after_results_simp
  exact W2_arg16 m ρ c
theorem W5_arg17 (c : Dev nD) : W5 m ρ c (Proc.devRef .tc main_arg17) = arg m c main_arg17 := by
  dsimp only [W5, W4, W3, hostOps1_2, hostOps1_1, hostOps1]
  after_results_simp
  exact W2_arg17 m ρ c
theorem W5_arg18 (c : Dev nD) : W5 m ρ c (Proc.devRef .tc main_arg18) = arg m c main_arg18 := by
  dsimp only [W5, W4, W3, hostOps1_2, hostOps1_1, hostOps1]
  after_results_simp
  exact W2_arg18 m ρ c
theorem W5_arg19 (c : Dev nD) : W5 m ρ c (Proc.devRef .tc main_arg19) = arg m c main_arg19 := by
  dsimp only [W5, W4, W3, hostOps1_2, hostOps1_1, hostOps1]
  after_results_simp
  exact W2_arg19 m ρ c
theorem W5_v3 (c : Dev nD) : W5 m ρ c (Proc.devRef .tc main_v3) = val_main_v3 (F := F) (arg m c main_arg2) := by
  dsimp only [W5, W4, W3, hostOps1_2, hostOps1_1, hostOps1]
  after_results_simp
  exact W2_v3 m ρ c

end Cert.Bridge.KHost

end
-- ==== Proof.KHostB.lean ====
/-
  What the third and the fourth kernel's operands hold when they are entered.

  After the edge kernel its messages are added into their target nodes; the fusion kernel reads that sum beside the
  normalised aggregate.  After the fusion kernel its rows are summed per graph and divided by the graph's node count
  (at least one); the read-out kernel reads that quotient.  The scatters' index columns, their zero operands, and the
  clipped counts are the reference's own stages.
-/
import proofs.«126740_j33818572488720_2_alg».proof.Proof.KHost

set_option maxRecDepth 16384

noncomputable section

namespace Cert.Bridge.KHost

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the second kernel -/

/-- The edge kernel's output, as the boundary after it holds it. -/
abbrev msgK (c : Dev nD) := W6 m ρ c (Proc.devRef .tc main_v85)

theorem W6_v3 (c : Dev nD) : W6 m ρ c (Proc.devRef .tc main_v3) = val_main_v3 (F := F) (arg m c main_arg2) :=
  (W6_of_ne m ρ c main_v3 (by decide)).trans (W5_v3 m ρ c)
theorem W6_arg3 (c : Dev nD) : W6 m ρ c (Proc.devRef .tc main_arg3) = arg m c main_arg3 :=
  (W6_of_ne m ρ c main_arg3 (by decide)).trans (W5_arg3 m ρ c)
theorem W6_arg5 (c : Dev nD) : W6 m ρ c (Proc.devRef .tc main_arg5) = arg m c main_arg5 :=
  (W6_of_ne m ρ c main_arg5 (by decide)).trans (W5_arg5 m ρ c)
theorem W6_arg14 (c : Dev nD) : W6 m ρ c (Proc.devRef .tc main_arg14) = arg m c main_arg14 :=
  (W6_of_ne m ρ c main_arg14 (by decide)).trans (W5_arg14 m ρ c)
theorem W6_arg15 (c : Dev nD) : W6 m ρ c (Proc.devRef .tc main_arg15) = arg m c main_arg15 :=
  (W6_of_ne m ρ c main_arg15 (by decide)).trans (W5_arg15 m ρ c)
theorem W6_arg16 (c : Dev nD) : W6 m ρ c (Proc.devRef .tc main_arg16) = arg m c main_arg16 :=
  (W6_of_ne m ρ c main_arg16 (by decide)).trans (W5_arg16 m ρ c)
theorem W6_arg17 (c : Dev nD) : W6 m ρ c (Proc.devRef .tc main_arg17) = arg m c main_arg17 :=
  (W6_of_ne m ρ c main_arg17 (by decide)).trans (W5_arg17 m ρ c)
theorem W6_arg18 (c : Dev nD) : W6 m ρ c (Proc.devRef .tc main_arg18) = arg m c main_arg18 :=
  (W6_of_ne m ρ c main_arg18 (by decide)).trans (W5_arg18 m ρ c)
theorem W6_arg19 (c : Dev nD) : W6 m ρ c (Proc.devRef .tc main_arg19) = arg m c main_arg19 :=
  (W6_of_ne m ρ c main_arg19 (by decide)).trans (W5_arg19 m ρ c)

/-! ## Before the third kernel -/

/-- The normalised aggregate is still what the stretch before the edge kernel left. -/
theorem W7_v42 (c : Dev nD) : W7 m ρ c (Proc.devRef .tc main_v42) = W5 m ρ c (Proc.devRef .tc main_v42) :=
  (show W7 m ρ c (Proc.devRef .tc main_v42) = W6 m ρ c (Proc.devRef .tc main_v42) by
    dsimp only [W7, hostOps2]; after_results).trans (W6_of_ne m ρ c main_v42 (by decide))

/-- The messages summed into their target nodes. -/
theorem W7_v88 (c : Dev nD) : W7 m ρ c (Proc.devRef .tc main_v88)
    = Host.scatterAdd scatter_S50000x128_S800000x1_S800000x128_1_0_0_1 (val_main_v105 (F := F)) (val_main_v106 (F := F) (arg m c main_arg2)) (msgK m ρ c) := by
  dsimp only [W7, hostOps2]
  after_results
  rw [W6_v3 m ρ c]
  rfl

theorem W7_v89 (c : Dev nD) : W7 m ρ c (Proc.devRef .tc main_v89) = shapeCast S1x128 (arg m c main_arg5) shapeCasts_S128_S1x128 := by
  dsimp only [W7, hostOps2]
  after_results
  simp only [W6_arg5 m ρ c]
  rfl
theorem W7_v90 (c : Dev nD) : W7 m ρ c (Proc.devRef .tc main_v90) = shapeCast S1x128 (arg m c main_arg15) shapeCasts_S128_S1x128 := by
  dsimp only [W7, hostOps2]
  after_results
  simp only [W6_arg15 m ρ c]
  rfl
theorem W7_arg3 (c : Dev nD) : W7 m ρ c (Proc.devRef .tc main_arg3) = arg m c main_arg3 := by
  dsimp only [W7, hostOps2]
  after_results
  exact W6_arg3 m ρ c
theorem W7_arg14 (c : Dev nD) : W7 m ρ c (Proc.devRef .tc main_arg14) = arg m c main_arg14 := by
  dsimp only [W7, hostOps2]
  after_results
  exact W6_arg14 m ρ c
theorem W7_arg16 (c : Dev nD) : W7 m ρ c (Proc.devRef .tc main_arg16) = arg m c main_arg16 := by
  dsimp only [W7, hostOps2]
  after_results
  exact W6_arg16 m ρ c
theorem W7_arg17 (c : Dev nD) : W7 m ρ c (Proc.devRef .tc main_arg17) = arg m c main_arg17 := by
  dsimp only [W7, hostOps2]
  after_results
  exact W6_arg17 m ρ c
theorem W7_arg18 (c : Dev nD) : W7 m ρ c (Proc.devRef .tc main_arg18) = arg m c main_arg18 := by
  dsimp only [W7, hostOps2]
  after_results
  exact W6_arg18 m ρ c
theorem W7_arg19 (c : Dev nD) : W7 m ρ c (Proc.devRef .tc main_arg19) = arg m c main_arg19 := by
  dsimp only [W7, hostOps2]
  after_results
  exact W6_arg19 m ρ c

/-! ## After the third kernel, before the fourth -/

/-- The fusion kernel's output, as the boundary after it holds it. -/
abbrev fusedK (c : Dev nD) := W8 m ρ c (Proc.devRef .tc main_v91)
theorem W8_arg3 (c : Dev nD) : W8 m ρ c (Proc.devRef .tc main_arg3) = arg m c main_arg3 :=
  (W8_of_ne m ρ c main_arg3 (by decide)).trans (W7_arg3 m ρ c)
theorem W8_arg16 (c : Dev nD) : W8 m ρ c (Proc.devRef .tc main_arg16) = arg m c main_arg16 :=
  (W8_of_ne m ρ c main_arg16 (by decide)).trans (W7_arg16 m ρ c)
theorem W8_arg17 (c : Dev nD) : W8 m ρ c (Proc.devRef .tc main_arg17) = arg m c main_arg17 :=
  (W8_of_ne m ρ c main_arg17 (by decide)).trans (W7_arg17 m ρ c)
theorem W8_arg18 (c : Dev nD) : W8 m ρ c (Proc.devRef .tc main_arg18) = arg m c main_arg18 :=
  (W8_of_ne m ρ c main_arg18 (by decide)).trans (W7_arg18 m ρ c)
theorem W8_arg19 (c : Dev nD) : W8 m ρ c (Proc.devRef .tc main_arg19) = arg m c main_arg19 :=
  (W8_of_ne m ρ c main_arg19 (by decide)).trans (W7_arg19 m ρ c)

/-- The per-graph mean: the rows summed per graph over the node count clipped at one. -/
theorem W11_v102 (c : Dev nD) : W11 m ρ c (Proc.devRef .tc main_v102)
    = Host.divf (Host.scatterAdd scatter_S256x128_S50000x1_S50000x128_1_0_0_1 (val_main_v119 (F := F)) (val_main_v120 (F := F) (arg m c main_arg3)) (fusedK m ρ c))
        (val_main_v124 (F := F) (arg m c main_arg3)) := by
  dsimp only [W11, W10, W9, hostOps3_2, hostOps3_1, hostOps3]
  after_results_simp
  simp only [TRef.ofBuf_toBuf, TRef.toBuf_ofBuf, W8_arg3 m ρ c]
  rfl

theorem W11_v103 (c : Dev nD) : W11 m ρ c (Proc.devRef .tc main_v103) = shapeCast S1x64 (arg m c main_arg17) shapeCasts_S64_S1x64 := by
  dsimp only [W11, W10, W9, hostOps3_2, hostOps3_1, hostOps3]
  after_results_simp
  simp only [W8_arg17 m ρ c]
  rfl
theorem W11_v104 (c : Dev nD) : W11 m ρ c (Proc.devRef .tc main_v104) = shapeCast S1x1 (arg m c main_arg19) shapeCasts_S1_S1x1 := by
  dsimp only [W11, W10, W9, hostOps3_2, hostOps3_1, hostOps3]
  after_results_simp
  simp only [W8_arg19 m ρ c]
  rfl
theorem W11_arg16 (c : Dev nD) : W11 m ρ c (Proc.devRef .tc main_arg16) = arg m c main_arg16 := by
  dsimp only [W11, W10, W9, hostOps3_2, hostOps3_1, hostOps3]
  after_results_simp
  exact W8_arg16 m ρ c
theorem W11_arg18 (c : Dev nD) : W11 m ρ c (Proc.devRef .tc main_arg18) = arg m c main_arg18 := by
  dsimp only [W11, W10, W9, hostOps3_2, hostOps3_1, hostOps3]
  after_results_simp
  exact W8_arg18 m ρ c

end Cert.Bridge.KHost

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Readout.lean ====
/-
  The readout region, read entry by entry over the extended reals. The region has one point and every window is its
  whole array: the pooled graph features [256, 128] times the first weight [128, 64] plus its bias row, cut at zero,
  times the second weight [64, 1] plus its bias. Here: each input window's block read at coordinates, the body's
  arithmetic at coordinates over arbitrary blocks, what the one point writes back as one whole-array function, the
  cover of the output array by that point's block, and the array after the region at `(g, u)`.
-/
import proofs.«126740_j33818572488720_2_alg».proof.Proof.Gen.KernelIdeal.Frame
import Idealize.ShloMosaic.Lib.Pipeline.Value
import Idealize.ShloMosaic.Lib.ValueIdx
import Idealize.ShloMosaic.PureOps.Ideal.Laws
import proofs.«126740_j33818572488720_2_alg».proof.Proof.LibPlainDot

noncomputable section

open Idealize.ShloMosaic Idealize.ShloMosaic.TcCoe Idealize.ShloMosaic.ValueIdx
open Idealize.ShloMosaic.Pipeline (Dat)
open Cert.KernelIdeal Cert.KernelIdeal.Gen

namespace Cert.Bridge.Readout

variable (V : (c : Dev nD) → (b : Ref sig .tc) → Buf (Elt Ideal) ((c : Thread nD τ).loc b))

/-- The pooled graph features and the readout's two layers on core `c`, as the region finds them. -/
abbrev P (c : Dev nD) : S256x128.Idx → EReal := V c main_v102
abbrev W1 (c : Dev nD) : S128x64.Idx → EReal := V c main_arg16
abbrev B1 (c : Dev nD) : S1x64.Idx → EReal := V c main_v103
abbrev W2 (c : Dev nD) : S64x1.Idx → EReal := V c main_arg18
abbrev B2 (c : Dev nD) : S1x1.Idx → EReal := V c main_v104

theorem hz : (![0, 0] : Fin 2 → Nat) = fun _ => 0 := funext fun a => by fin_cases a <;> rfl

/-- The index maps, decided over the one-point grid: every window sits at its whole array. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-! ## The input windows' blocks, read at coordinates: each is its whole array -/

theorem p_blk (c : Dev nD) (t : Fin cfg3.N) (g : Fin 256) (q : Fin 128) :
    (Gen.iblk3 (F := Ideal) V c 0 t : S256x128.Idx → EReal) (ix2 g q) = P V c (ix2 g q) := by
  obtain ⟨e0, e1, -⟩ := idx_facts t
  unfold Gen.iblk3
  rw [View.read_apply]
  show V c main_v102 _ = V c main_v102 _
  refine congrArg (V c main_v102) ?_
  funext a
  apply Fin.ext
  match a with
  | ⟨0, _⟩ => show win3_0.index t (0 : Fin 2) * 256 + 1 * g.val = g.val; omega
  | ⟨1, _⟩ => show win3_0.index t (1 : Fin 2) * 128 + 1 * q.val = q.val; omega

theorem w1_blk (c : Dev nD) (t : Fin cfg3.N) (q : Fin 128) (k : Fin 64) :
    (Gen.iblk3 (F := Ideal) V c 1 t : S128x64.Idx → EReal) (ix2 q k) = W1 V c (ix2 q k) := by
  obtain ⟨-, -, e0, e1, -⟩ := idx_facts t
  unfold Gen.iblk3
  rw [View.read_apply]
  show V c main_arg16 _ = V c main_arg16 _
  refine congrArg (V c main_arg16) ?_
  funext a
  apply Fin.ext
  match a with
  | ⟨0, _⟩ => show win3_1.index t (0 : Fin 2) * 128 + 1 * q.val = q.val; omega
  | ⟨1, _⟩ => show win3_1.index t (1 : Fin 2) * 64 + 1 * k.val = k.val; omega

theorem b1_blk (c : Dev nD) (t : Fin cfg3.N) (z : Fin 1) (k : Fin 64) :
    (Gen.iblk3 (F := Ideal) V c 2 t : S1x64.Idx → EReal) (ix2 z k) = B1 V c (ix2 z k) := by
  obtain ⟨-, -, -, -, e0, e1, -⟩ := idx_facts t
  unfold Gen.iblk3
  rw [View.read_apply]
  show V c main_v103 _ = V c main_v103 _
  refine congrArg (V c main_v103) ?_
  funext a
  apply Fin.ext
  match a with
  | ⟨0, _⟩ => show win3_2.index t (0 : Fin 2) * 1 + 1 * z.val = z.val; omega
  | ⟨1, _⟩ => show win3_2.index t (1 : Fin 2) * 64 + 1 * k.val = k.val; omega

theorem w2_blk (c : Dev nD) (t : Fin cfg3.N) (k : Fin 64) (u : Fin 1) :
    (Gen.iblk3 (F := Ideal) V c 3 t : S64x1.Idx → EReal) (ix2 k u) = W2 V c (ix2 k u) := by
  obtain ⟨-, -, -, -, -, -, e0, e1, -⟩ := idx_facts t
  unfold Gen.iblk3
  rw [View.read_apply]
  show V c main_arg18 _ = V c main_arg18 _
  refine congrArg (V c main_arg18) ?_
  funext a
  apply Fin.ext
  match a with
  | ⟨0, _⟩ => show win3_3.index t (0 : Fin 2) * 64 + 1 * k.val = k.val; omega
  | ⟨1, _⟩ => show win3_3.index t (1 : Fin 2) * 1 + 1 * u.val = u.val; omega

theorem b2_blk (c : Dev nD) (t : Fin cfg3.N) (z : Fin 1) (u : Fin 1) :
    (Gen.iblk3 (F := Ideal) V c 4 t : S1x1.Idx → EReal) (ix2 z u) = B2 V c (ix2 z u) := by
  obtain ⟨-, -, -, -, -, -, -, -, e0, e1, -⟩ := idx_facts t
  unfold Gen.iblk3
  rw [View.read_apply]
  show V c main_v104 _ = V c main_v104 _
  refine congrArg (V c main_v104) ?_
  funext a
  apply Fin.ext
  match a with
  | ⟨0, _⟩ => show win3_4.index t (0 : Fin 2) * 1 + 1 * z.val = z.val; omega
  | ⟨1, _⟩ => show win3_4.index t (1 : Fin 2) * 1 + 1 * u.val = u.val; omega

/-! ## The body's arithmetic at coordinates, over arbitrary blocks -/

/-- The hidden layer: the pooled features times the first weight, plus its bias row, cut at zero. -/
theorem hidden_apply (x0 : Vec Ideal S256x128 .f32) (x1 : Vec Ideal S128x64 .f32) (x2 : Vec Ideal S1x64 .f32)
    (g : Fin 256) (k : Fin 64) :
    maximumf (addf (matmul dot_S256x128_S128x64_S256x64_1_0_0_1_n_n none (truncf .bf16 x0 bitsLt_bf16_f32) (truncf .bf16 x1 bitsLt_bf16_f32)
          (constant (F := Ideal) S256x64 .f32 0x00000000#32))
        (broadcastTo S256x64 x2 broadcasts_S1x64_S256x64))
      (broadcast S256x64 (Scalar.ofBits (F := Ideal) .f32 0x00000000#32)) (ix2 g k)
      = max ((∑ q : Fin 128, x0 (ix2 g q) * x1 (ix2 q k)) + x2 (ix2 0 k)) 0 := by
  refine (maximumf_apply _ _ _).trans (congrArg₂ max ?_ ?_)
  · refine (addf_apply _ _ _).trans (congrArg₂ (· + ·) ?_ ?_)
    · exact Cert.PlainDot.matmul_zero_apply dot_S256x128_S128x64_S256x64_1_0_0_1_n_n rfl none _ _ g k
    · exact broadcastTo_apply x2 _ (ix2 g k) (ix2 0 k) (fun a => by match a with | ⟨0, _⟩ => rfl | ⟨1, _⟩ => rfl)
  · exact Ideal.ofBits_zero_f32

/-- The output layer on the hidden layer. -/
theorem pay_apply (x0 : Vec Ideal S256x128 .f32) (x1 : Vec Ideal S128x64 .f32) (x2 : Vec Ideal S1x64 .f32)
    (x3 : Vec Ideal S64x1 .f32) (x4 : Vec Ideal S1x1 .f32) (g : Fin 256) (u : Fin 1) :
    Gen.k3_pay1 (F := Ideal) x0 x1 x2 x3 x4 (ix2 g u)
      = (∑ k : Fin 64, max ((∑ q : Fin 128, x0 (ix2 g q) * x1 (ix2 q k)) + x2 (ix2 0 k)) 0 * x3 (ix2 k u)) + x4 (ix2 0 u) := by
  unfold Gen.k3_pay1
  simp only [shapeCast_self]
  refine (addf_apply _ _ _).trans (congrArg₂ (· + ·) ?_ ?_)
  · refine (Cert.PlainDot.matmul_zero_apply dot_S256x64_S64x1_S256x1_1_0_0_1_n_n rfl none _ _ g u).trans ?_
    refine Finset.sum_congr rfl fun k _ => ?_
    exact congrArg (· * x3 (ix2 k u)) (hidden_apply x0 x1 x2 g k)
  · refine broadcastTo_apply x4 _ (ix2 g u) (ix2 0 u) (fun a => ?_)
    match a with
    | ⟨0, _⟩ => rfl
    | ⟨1, _⟩ => show u.val = 0; omega

/-! ## The output array as a function of the input arrays -/

/-- Entry `(g, u)` of the readout. -/
def outAt (c : Dev nD) (g : Fin 256) (u : Fin 1) : EReal :=
  (∑ k : Fin 64, max ((∑ q : Fin 128, P V c (ix2 g q) * W1 V c (ix2 q k)) + B1 V c (ix2 0 k)) 0 * W2 V c (ix2 k u))
    + B2 V c (ix2 0 u)

abbrev G5 (c : Dev nD) : S256x1.Idx → EReal := fun i => outAt V c (i 0) (i 1)

/-- Blocks that read the input arrays give the readout's entry. -/
theorem out_blk (c : Dev nD) (x0 : S256x128.Idx → EReal) (x1 : S128x64.Idx → EReal) (x2 : S1x64.Idx → EReal)
    (x3 : S64x1.Idx → EReal) (x4 : S1x1.Idx → EReal) (g : Fin 256) (u : Fin 1)
    (h0 : ∀ q, x0 (ix2 g q) = P V c (ix2 g q)) (h1 : ∀ q k, x1 (ix2 q k) = W1 V c (ix2 q k))
    (h2 : ∀ k, x2 (ix2 0 k) = B1 V c (ix2 0 k)) (h3 : ∀ k, x3 (ix2 k u) = W2 V c (ix2 k u))
    (h4 : x4 (ix2 0 u) = B2 V c (ix2 0 u)) :
    (∑ k : Fin 64, max ((∑ q : Fin 128, x0 (ix2 g q) * x1 (ix2 q k)) + x2 (ix2 0 k)) 0 * x3 (ix2 k u)) + x4 (ix2 0 u)
      = outAt V c g u := by
  unfold outAt
  rw [h4]
  refine congrArg (· + B2 V c (ix2 0 u)) (Finset.sum_congr rfl fun k _ => ?_)
  rw [h3, h2]
  refine congrArg (fun s => max (s + B1 V c (ix2 0 k)) 0 * W2 V c (ix2 k u)) (Finset.sum_congr rfl fun q _ => ?_)
  rw [h0, h1]

/-! ## What the one point writes back, and the array after the region -/

theorem flushed5_eq (c : Dev nD) (t : Fin cfg3.N) :
    (Gen.dat3 (F := Ideal) V c).flushed 5 t = ((cfg3.win 5).blk t).view.read (Elt Ideal) (G5 V c) := by
  obtain ⟨-, -, -, -, -, -, -, -, -, -, e0, e1⟩ := idx_facts t
  show (cfg3.win 5).cut (grid3.coords t) ((Gen.dat3 (F := Ideal) V c).after 5 t) = _
  rw [Gen.after3_5]
  unfold Gen.out3_5
  rw [View.canon_unit_zero hz]
  simp only [View.ld_unit_zero (S := S256x128) hz, View.ld_unit_zero (S := S128x64) hz, View.ld_unit_zero (S := S1x64) hz,
    View.ld_unit_zero (S := S64x1) hz, View.ld_unit_zero (S := S1x1) hz]
  funext y
  obtain ⟨g, u, rfl⟩ : ∃ (g : Fin 256) (u : Fin 1), y = ix2 g u := ⟨y 0, y 1, eq_ix2 y⟩
  show Gen.k3_pay1 (F := Ideal) (Gen.iblk3 V c 0 t) (Gen.iblk3 V c 1 t) (Gen.iblk3 V c 2 t) (Gen.iblk3 V c 3 t) (Gen.iblk3 V c 4 t) (ix2 g u)
    = G5 V c (((cfg3.win 5).blk t).view.emb (ix2 g u))
  have hemb : ((cfg3.win 5).blk t).view.emb (ix2 g u) = ix2 g u := by
    funext a
    apply Fin.ext
    match a with
    | ⟨0, _⟩ => show win3_5.index t (0 : Fin 2) * 256 + 1 * g.val = g.val; omega
    | ⟨1, _⟩ => show win3_5.index t (1 : Fin 2) * 1 + 1 * u.val = u.val; omega
  rw [hemb]
  exact (pay_apply (Gen.iblk3 V c 0 t) (Gen.iblk3 V c 1 t) (Gen.iblk3 V c 2 t) (Gen.iblk3 V c 3 t) (Gen.iblk3 V c 4 t) g u).trans
    (out_blk V c _ _ _ _ _ g u (fun q => p_blk V c t g q) (fun q k => w1_blk V c t q k) (fun k => b1_blk V c t 0 k)
      (fun k => w2_blk V c t k u) (b2_blk V c t 0 u))

theorem mem_blk5 (t : Fin cfg3.N) (i : S256x1.Idx) :
    i ∈ ((cfg3.win 5).blk t).view.set ↔ ∀ a : Fin 2, win3_5.index t a * S256x1.size a ≤ (i a).val
      ∧ (i a).val < win3_5.index t a * S256x1.size a + S256x1.size a := by
  show i ∈ ((View.whole main_v105).slice (win3_5.rect t)).set ↔ _
  rw [View.set_slice_whole, Rect.mem_set_unit]
  exact Iff.rfl

/-- The one point's block is the whole array. -/
theorem cover5 (i : S256x1.Idx) :
    ∃ t : Fin cfg3.N, (cfg3.win 5).flush t = true ∧ i ∈ ((cfg3.win 5).blk t).view.set := by
  have hi0 : (i 0).val < 256 := (i 0).isLt
  have hi1 : (i 1).val < 1 := (i 1).isLt
  obtain ⟨-, -, -, -, -, -, -, -, -, -, e0, e1⟩ := idx_facts Gen.t3_0
  refine ⟨Gen.t3_0, Gen.flush3_5 Gen.t3_0, ?_⟩
  rw [mem_blk5]
  intro a
  match a with
  | ⟨0, _⟩ => show win3_5.index Gen.t3_0 (0 : Fin 2) * 256 ≤ (i 0).val ∧ (i 0).val < win3_5.index Gen.t3_0 (0 : Fin 2) * 256 + 256; omega
  | ⟨1, _⟩ => show win3_5.index Gen.t3_0 (1 : Fin 2) * 1 ≤ (i 1).val ∧ (i 1).val < win3_5.index Gen.t3_0 (1 : Fin 2) * 1 + 1; omega

theorem final5 (c : Dev nD) : (Gen.dat3 (F := Ideal) V c).arrAt 5 cfg3.N = G5 V c :=
  (Gen.dat3 (F := Ideal) V c).arrAt_eq_of_cover 5 (G5 V c) (fun t _ => flushed5_eq V c t) cover5

/-- The readout, entry by entry. -/
theorem out_apply (c : Dev nD) (g : Fin 256) (u : Fin 1) :
    ((Gen.dat3 (F := Ideal) V c).arrAt 5 cfg3.N : S256x1.Idx → EReal) (ix2 g u)
      = (∑ k : Fin 64, max ((∑ q : Fin 128, P V c (ix2 g q) * W1 V c (ix2 q k)) + B1 V c (ix2 0 k)) 0 * W2 V c (ix2 k u))
        + B2 V c (ix2 0 u) :=
  congrFun (final5 V c) (ix2 g u)

end Cert.Bridge.Readout

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.ReadoutPure.lean ====
/-
  The reference's readout, as one function of the pooled features, and the readout formula with the biases reshaped
  to rows. The reference multiplies the pooled features [256, 128] by the first weight, adds the first bias laid as a
  row and then down the rows, cuts at zero, multiplies by the second weight and adds the second bias laid the same way.
  A vector laid as a row and down the rows reads, at `(n, j)`, what the vector reshaped to a row reads at `(0, j)`, so
  the formula with reshaped biases is the reference's, entry by entry.
-/
import proofs.«126740_j33818572488720_2_alg».proof.Proof.RefRead
import proofs.«126740_j33818572488720_2_alg».proof.Proof.LibBroadcasts
import proofs.«126740_j33818572488720_2_alg».proof.Proof.LibPlainDot
import proofs.«126740_j33818572488720_2_alg».proof.Proof.LibRowVector
import Idealize.ShloMosaic.Lib.Pipeline.Value
import Idealize.ShloMosaic.Lib.ValueIdx
import Idealize.ShloMosaic.PureOps.Ideal.Laws

noncomputable section

open Idealize.ShloMosaic Idealize.ShloMosaic.ValueIdx
open Cert.ReferenceIdeal Cert.ReferenceIdeal.ReadP

namespace Cert.Bridge.ReadoutPure

/-- The reference's readout of pooled features `P`: `P` times the first weight plus the first bias laid down the rows, cut
    at zero, times the second weight plus the second bias laid down the rows. -/
def refOut (P : FVec Ideal S256x128 .f32) (x16 : FVec Ideal S128x64 .f32) (x17 : FVec Ideal S64 .f32)
    (x18 : FVec Ideal S64x1 .f32) (x19 : FVec Ideal S1 .f32) : FVec Ideal S256x1 .f32 :=
  addf (F := Ideal) (Host.dotGeneral (F := Ideal) dot_S256x64_S64x1_S256x1_1_0_0_1_n_n none
      (maximumf (F := Ideal) (addf (F := Ideal) (Host.dotGeneral (F := Ideal) dot_S256x128_S128x64_S256x64_1_0_0_1_n_n none P x16) (val_main_v128 (F := Ideal) x17))
        (val_main_call6_v0 (F := Ideal))) x18)
    (val_main_v133 (F := Ideal) x19)

/-- The reference's last stage is `refOut` of its pooled features. -/
theorem v134_eq_refOut (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x1, .f32⟩ : BufTy).Contents (Elt Ideal)) (x13 : (⟨S1, .f32⟩ : BufTy).Contents (Elt Ideal)) (x14 : (⟨S256x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal)) :
    val_main_v134 (F := Ideal) x0 x1 x2 x3 x4 x5 x6 x7 x8 x9 x10 x11 x12 x13 x14 x15 x16 x17 x18 x19
      = refOut (val_main_v125 (F := Ideal) x0 x1 x2 x3 x4 x5 x6 x7 x8 x9 x10 x11 x12 x13 x14 x15) x16 x17 x18 x19 := rfl

/-- The reference's pooled features: the fused features added up per graph, divided by the graph sizes. -/
theorem v125_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x1, .f32⟩ : BufTy).Contents (Elt Ideal)) (x13 : (⟨S1, .f32⟩ : BufTy).Contents (Elt Ideal)) (x14 : (⟨S256x128, .f32⟩ : BufTy).Contents (Elt Ideal)) (x15 : (⟨S128, .f32⟩ : BufTy).Contents (Elt Ideal)) :
    val_main_v125 (F := Ideal) x0 x1 x2 x3 x4 x5 x6 x7 x8 x9 x10 x11 x12 x13 x14 x15
      = Host.divf (F := Ideal) (φ := .f32) (Host.scatterAdd (F := Ideal) (φ := .f32) scatter_S256x128_S50000x1_S50000x128_1_0_0_1 (val_main_v119 (F := Ideal)) (val_main_v120 (F := Ideal) x3)
          (val_main_v114 (F := Ideal) x0 x1 x2 x4 x5 x6 x7 x8 x9 x10 x11 x12 x13 x14 x15)) (val_main_v124 (F := Ideal) x3) := rfl

/-- A vector laid as a row and then down the rows is, at `(n, j)`, the vector reshaped to a row at `(0, j)`. -/
theorem downRows_eq_reshape {a b : ℕ} (x : (⟨1, ![b]⟩ : Shape).Idx → EReal)
    (h0 : (⟨1, ![b]⟩ : Shape).BroadcastsInDim ⟨2, ![1, b]⟩ ![1])
    (h1 : (⟨2, ![1, b]⟩ : Shape).BroadcastsInDim ⟨2, ![a, b]⟩ ![0, 1])
    (hs : (⟨1, ![b]⟩ : Shape).ShapeCasts ⟨2, ![1, b]⟩) (n : Fin a) (j : Fin b) :
    broadcastInDim ⟨2, ![a, b]⟩ ![0, 1] h1 (broadcastInDim ⟨2, ![1, b]⟩ ![1] h0 x) (ix2 n j)
      = shapeCast ⟨2, ![1, b]⟩ x hs (ix2 (0 : Fin 1) j) := by
  refine (Cert.Broadcasts.downRows_apply x h0 h1 n j).trans ?_
  refine ((Cert.RowVector.reshape_apply x hs (ix2 (0 : Fin 1) j)).trans (congrArg x ?_)).symm
  funext q
  match q with
  | ⟨0, _⟩ => rfl

/-- The zero splat of a cut at zero reads `0`. -/
theorem zeroSplat_apply {t : Shape} (dims : Fin (⟨0, ![]⟩ : Shape).rank → Fin t.rank)
    (h : (⟨0, ![]⟩ : Shape).BroadcastsInDim t dims) (j : t.Idx) :
    broadcastInDim t dims h (constant (F := Ideal) ⟨0, ![]⟩ .f32 0x00000000#32) j = (0 : EReal) := by
  refine (Cert.Broadcasts.splat_apply dims h _ j).trans ?_
  exact Ideal.ofBits_zero_f32

/-- The kernel's readout formula — biases reshaped to rows — is the reference's readout, entry by entry. -/
theorem out_pure (P : FVec Ideal S256x128 .f32) (x16 : FVec Ideal S128x64 .f32) (x17 : FVec Ideal S64 .f32)
    (x18 : FVec Ideal S64x1 .f32) (x19 : FVec Ideal S1 .f32) (h17 : S64.ShapeCasts S1x64) (h19 : S1.ShapeCasts S1x1)
    (g : Fin 256) (u : Fin 1) :
    (∑ k : Fin 64, max ((∑ q : Fin 128, P (ix2 g q) * x16 (ix2 q k)) + (shapeCast S1x64 x17 h17 : S1x64.Idx → EReal) (ix2 0 k)) 0
        * x18 (ix2 k u)) + (shapeCast S1x1 x19 h19 : S1x1.Idx → EReal) (ix2 0 u)
      = (refOut P x16 x17 x18 x19 : S256x1.Idx → EReal) (ix2 g u) := by
  symm
  unfold refOut
  refine (addf_apply _ _ _).trans (congrArg₂ (· + ·) ?_ ?_)
  · refine (Cert.PlainDot.dotGeneral_apply dot_S256x64_S64x1_S256x1_1_0_0_1_n_n rfl none .single _ x18 g u).trans ?_
    refine Finset.sum_congr rfl fun k _ => congrArg (· * x18 (ix2 k u)) ?_
    refine (maximumf_apply _ _ _).trans (congrArg₂ max ?_ ?_)
    · refine (addf_apply _ _ _).trans (congrArg₂ (· + ·) ?_ ?_)
      · exact Cert.PlainDot.dotGeneral_apply dot_S256x128_S128x64_S256x64_1_0_0_1_n_n rfl none .single P x16 g k
      · unfold val_main_v128 val_main_v127
        exact downRows_eq_reshape x17 _ _ h17 g k
    · unfold val_main_call6_v0 val_main_call6_cst
      exact zeroSplat_apply _ _ (ix2 g k)
  · unfold val_main_v133 val_main_v132
    exact downRows_eq_reshape x19 _ _ h19 g u

end Cert.Bridge.ReadoutPure

end
-- ==== Proof.Fusion.lean ====
/-
  The fusion layer, region by region of its grid, as one function of the arrays the region reads.

  The layer takes two node-feature arrays of 50000 rows and 128 columns, the graph features `Gr` and the local
  features `Lr`. It adds a bias row to the graph features and rectifies both, lays the two rectified rows side by
  side as one row of 256 entries, multiplies by a 256-by-128 weight, adds a bias row and rectifies again. A product
  of the side-by-side row with the weight is the sum of the product of its first half with the weight's first 128
  rows and the product of its second half with the weight's last 128 rows, which is how the entry is written here.

  The grid has ten points; point `t` computes rows `5000 t … 5000 t + 4999`. The file reads the body's value at an
  entry of a block, identifies each operand block with the rows of its array, and concludes that the array the
  region leaves is the layer of the arrays it found, entry by entry.
-/
import proofs.«126740_j33818572488720_2_alg».proof.Proof.Gen.KernelIdeal.Frame
import proofs.«126740_j33818572488720_2_alg».proof.Proof.LibPlainDot
import Idealize.ShloMosaic.Lib.Pipeline.Value
import Idealize.ShloMosaic.Lib.ValueIdx
import Idealize.ShloMosaic.Lib.ValueLayout

noncomputable section

namespace Cert.Bridge.Fusion

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The fused layer at row `r`, column `j`: the two halves of the concatenated row — the graph half with its bias,
    rectified, and the local half, rectified — each against its half of the weight's rows, the bias added, rectified. -/
def fusedAt (Gr Lr : S50000x128.Idx → EReal) (Gb : S1x128.Idx → EReal) (Fw : S256x128.Idx → EReal)
    (Fb : S1x128.Idx → EReal) (r : Fin 50000) (j : Fin 128) : EReal :=
  max (((∑ k : Fin 128, max (Gr (ix2 r k) + Gb (ix2 (0 : Fin 1) k)) 0 * Fw (ix2 (Fin.castAdd 128 k : Fin 256) j))
        + (∑ k : Fin 128, max (Lr (ix2 r k)) 0 * Fw (ix2 (Fin.natAdd 128 k : Fin 256) j)))
      + Fb (ix2 (0 : Fin 1) j)) 0

theorem fusedAt_def (Gr Lr : S50000x128.Idx → EReal) (Gb : S1x128.Idx → EReal) (Fw : S256x128.Idx → EReal)
    (Fb : S1x128.Idx → EReal) (r : Fin 50000) (j : Fin 128) :
    fusedAt Gr Lr Gb Fw Fb r j
      = max (((∑ k : Fin 128, max (Gr (ix2 r k) + Gb (ix2 (0 : Fin 1) k)) 0 * Fw (ix2 (⟨k.val, by omega⟩ : Fin 256) j))
            + (∑ k : Fin 128, max (Lr (ix2 r k)) 0 * Fw (ix2 (⟨128 + k.val, by omega⟩ : Fin 256) j)))
          + Fb (ix2 (0 : Fin 1) j)) 0 := rfl

theorem hz2 : (![0, 0] : Fin 2 → Nat) = fun _ => 0 := funext fun a => by fin_cases a <;> rfl

/-- The body's value at entry `(p, q)` of its block, over any five operand blocks. -/
theorem payload_apply (x0 x1 : Vec Ideal S5000x128 .f32) (x2 x4 : Vec Ideal S1x128 .f32) (x3 : Vec Ideal S256x128 .f32)
    (p : Fin 5000) (q : Fin 128) :
    Gen.k2_pay1 x0 x2 x1 x3 x4 (ix2 p q)
      = max (((∑ k : Fin 128, max (x0 (ix2 p k) + x2 (ix2 (0 : Fin 1) k)) 0 * x3 (ix2 (Fin.castAdd 128 k : Fin 256) q))
            + (∑ k : Fin 128, max (x1 (ix2 p k)) 0 * x3 (ix2 (Fin.natAdd 128 k : Fin 256) q)))
          + x4 (ix2 (0 : Fin 1) q)) 0 := by
  unfold Gen.k2_pay1
  simp only [shapeCast_self]
  rw [maximumf_apply, addf_apply, broadcast_apply, broadcastTo_1b_ab_apply]
  refine congrArg₂ max (congrArg₂ (· + ·) ?_ rfl) Ideal.ofBits_zero_f32
  refine (Cert.PlainDot.matmul_zero_apply (M := 5000) (K := 256) (N := 128) _ rfl none _ _ p q).trans ?_
  refine (Fin.sum_univ_add (M := EReal) (a := 128) (b := 128) _).trans ?_
  refine congrArg₂ (· + ·) (Finset.sum_congr rfl fun k _ => ?_) (Finset.sum_congr rfl fun k _ => ?_)
  · refine congrArg₂ (· * ·) ?_ rfl
    rw [truncf_apply]
    refine (concatenate_pair_apply_left (t := S5000x256) (s₁ := S5000x128) (s₂ := S5000x128) (1 : Fin 2) _ _ _ (ix2 p (Fin.castAdd 128 k)) rfl (ix2 p k) fun b => ?_).trans ?_
    · match b with
      | ⟨0, _⟩ => rfl
      | ⟨1, _⟩ => rfl
    · rw [maximumf_apply, addf_apply, broadcast_apply, shapeCast_self, shapeCast_self, broadcastTo_1b_ab_apply]
      exact congrArg _ Ideal.ofBits_zero_f32
  · refine congrArg₂ (· * ·) ?_ rfl
    rw [truncf_apply]
    refine (concatenate_pair_apply_right (t := S5000x256) (s₁ := S5000x128) (s₂ := S5000x128) (1 : Fin 2) _ _ _ (ix2 p (Fin.natAdd 128 k)) rfl rfl (ix2 p k) (fun b hb => ?_) ?_).trans ?_
    · match b with
      | ⟨0, _⟩ => rfl
      | ⟨1, _⟩ => exact absurd rfl hb
    · show k.val + 128 = 128 + k.val
      omega
    · rw [maximumf_apply, broadcast_apply, shapeCast_self]
      exact congrArg _ Ideal.ofBits_zero_f32

/-- The layer as one function of the whole arrays. -/
def fusedArr (Gr Lr : S50000x128.Idx → EReal) (Gb : S1x128.Idx → EReal) (Fw : S256x128.Idx → EReal)
    (Fb : S1x128.Idx → EReal) : S50000x128.Idx → EReal := fun i => fusedAt Gr Lr Gb Fw Fb (i 0) (i 1)

/-- The windows' block indices at a grid point: the row windows move with the point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row window's block at point `t` holds rows `5000 t … 5000 t + 4999` of its array. -/
theorem blk0_apply (c : Dev nD) (t : Fin cfg2.N) (p : Fin 5000) (k : Fin 128) (R : Fin 50000)
    (hR : R.val = t.val * 5000 + p.val) :
    (Gen.iblk2 V c 0 t : Vec Ideal S5000x128 .f32) (ix2 p k) = (V c (Pipeline.arrRef spec2 0) : S50000x128.Idx → EReal) (ix2 R k) := by
  obtain ⟨e0, e1, -⟩ := idx_facts t
  unfold Gen.iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = R.val; omega
  | ⟨1, _⟩ => show win2_0.index t (1 : Fin 2) * 128 + 1 * k.val = k.val; omega

theorem blk1_apply (c : Dev nD) (t : Fin cfg2.N) (p : Fin 5000) (k : Fin 128) (R : Fin 50000)
    (hR : R.val = t.val * 5000 + p.val) :
    (Gen.iblk2 V c 1 t : Vec Ideal S5000x128 .f32) (ix2 p k) = (V c (Pipeline.arrRef spec2 1) : S50000x128.Idx → EReal) (ix2 R k) := by
  obtain ⟨-, -, e0, e1, -⟩ := idx_facts t
  unfold Gen.iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = R.val; omega
  | ⟨1, _⟩ => show win2_1.index t (1 : Fin 2) * 128 + 1 * k.val = k.val; omega

/-- The whole windows' blocks are their arrays. -/
theorem blk2_apply (c : Dev nD) (t : Fin cfg2.N) (k : Fin 128) :
    (Gen.iblk2 V c 2 t : Vec Ideal S1x128 .f32) (ix2 (0 : Fin 1) k) = (V c (Pipeline.arrRef spec2 2) : S1x128.Idx → EReal) (ix2 (0 : Fin 1) k) := by
  obtain ⟨-, -, -, -, e0, e1, -⟩ := idx_facts t
  unfold Gen.iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; omega
  | ⟨1, _⟩ => show win2_2.index t (1 : Fin 2) * 128 + 1 * k.val = k.val; omega

theorem blk3_apply (c : Dev nD) (t : Fin cfg2.N) (k : Fin 256) (q : Fin 128) :
    (Gen.iblk2 V c 3 t : Vec Ideal S256x128 .f32) (ix2 k q) = (V c (Pipeline.arrRef spec2 3) : S256x128.Idx → EReal) (ix2 k q) := by
  obtain ⟨-, -, -, -, -, -, e0, e1, -⟩ := idx_facts t
  unfold Gen.iblk2
  rw [View.read_apply]
  show V c (Pipeline.arrRef spec2 3) _ = V c (Pipeline.arrRef spec2 3) _
  congr 1
  funext a
  apply Fin.ext
  match a with
  | ⟨0, _⟩ => show win2_3.index t (0 : Fin 2) * 256 + 1 * k.val = k.val; omega
  | ⟨1, _⟩ => show win2_3.index t (1 : Fin 2) * 128 + 1 * q.val = q.val; omega

theorem blk4_apply (c : Dev nD) (t : Fin cfg2.N) (k : Fin 128) :
    (Gen.iblk2 V c 4 t : Vec Ideal S1x128 .f32) (ix2 (0 : Fin 1) k) = (V c (Pipeline.arrRef spec2 4) : S1x128.Idx → EReal) (ix2 (0 : Fin 1) k) := by
  obtain ⟨-, -, -, -, -, -, -, -, e0, e1, -⟩ := idx_facts t
  unfold Gen.iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * 0 = 0; omega
  | ⟨1, _⟩ => show win2_4.index t (1 : Fin 2) * 128 + 1 * k.val = k.val; omega

/-- What point `t` writes back is block `t` of the layer of the arrays as the region finds them. -/
theorem flushed_eq (c : Dev nD) (t : Fin cfg2.N) :
    (Gen.dat2 (F := Ideal) V c).flushed 5 t = ((cfg2.win 5).blk t).view.read (Elt Ideal)
      (fusedArr (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((Gen.dat2 V c).after 5 t) = _
  rw [Gen.after2_5]
  unfold Gen.out2_5
  rw [View.canon_unit_zero hz2]
  simp only [View.ld_unit_zero (S := S5000x128) hz2, View.ld_unit_zero (S := S1x128) hz2, View.ld_unit_zero (S := S256x128) hz2]
  obtain ⟨-, -, -, -, -, -, -, -, -, -, e0, e1⟩ := idx_facts t
  have hN : cfg2.N = 10 := Gen.N_2
  have ht : t.val < 10 := hN ▸ t.isLt
  funext y
  have hy0 : (y 0).val < 5000 := (y 0).isLt
  have hy1 : (y 1).val < 128 := (y 1).isLt
  have hR : t.val * 5000 + (y 0).val < 50000 := by omega
  have hx : (cfg2.win 5).xinj (grid2.coords t) y = ix2 (⟨(y 0).val, hy0⟩ : Fin 5000) (⟨(y 1).val, hy1⟩ : Fin 128) := by
    funext a; apply Fin.ext
    match a with
    | ⟨0, _⟩ => rfl
    | ⟨1, _⟩ => rfl
  have he : ((cfg2.win 5).blk t).view.emb y
      = ix2 (⟨t.val * 5000 + (y 0).val, hR⟩ : Fin 50000) (⟨(y 1).val, hy1⟩ : Fin 128) := by
    funext a; apply Fin.ext
    match a with
    | ⟨0, _⟩ => show win2_5.index t (0 : Fin 2) * 5000 + 1 * (y 0).val = t.val * 5000 + (y 0).val; omega
    | ⟨1, _⟩ => show win2_5.index t (1 : Fin 2) * 128 + 1 * (y 1).val = (y 1).val; omega
  show Gen.k2_pay1 (F := Ideal) _ _ _ _ _ ((cfg2.win 5).xinj (grid2.coords t) y) = fusedArr _ _ _ _ _ (((cfg2.win 5).blk t).view.emb y)
  rw [hx, he]
  refine (payload_apply _ _ _ _ _ _ _).trans ?_
  show _ = fusedAt _ _ _ _ _ (⟨t.val * 5000 + (y 0).val, hR⟩ : Fin 50000) (⟨(y 1).val, hy1⟩ : Fin 128)
  unfold fusedAt
  refine congrArg₂ max (congrArg₂ (· + ·) (congrArg₂ (· + ·) (Finset.sum_congr rfl fun k _ => ?_)
    (Finset.sum_congr rfl fun k _ => ?_)) ?_) rfl
  · rw [blk0_apply V c t ⟨(y 0).val, hy0⟩ k ⟨t.val * 5000 + (y 0).val, hR⟩ rfl, blk2_apply V c t k, blk3_apply V c t _ _]
  · rw [blk1_apply V c t ⟨(y 0).val, hy0⟩ k ⟨t.val * 5000 + (y 0).val, hR⟩ rfl, blk3_apply V c t _ _]
  · exact blk4_apply V c t _

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v91).slice (win2_5.rect t)).set ↔ _
  rw [View.set_slice_whole, Rect.mem_set_unit]
  exact Iff.rfl

/-- Row `r` lies in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := Gen.N_2
  have hlt : (i 0).val / 5000 < cfg2.N := by rw [hN]; omega
  obtain ⟨-, -, -, -, -, -, -, -, -, -, e0, e1⟩ := idx_facts ⟨(i 0).val / 5000, hlt⟩
  refine ⟨⟨(i 0).val / 5000, hlt⟩, Gen.flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e1]; omega

/-- The array after the region is the layer of the arrays as the region finds them. -/
theorem fused_array (c : Dev nD) :
    (Gen.dat2 (F := Ideal) V c).arrAt 5 cfg2.N
      = fusedArr (V c (Pipeline.arrRef spec2 0)) (V c (Pipeline.arrRef spec2 1)) (V c (Pipeline.arrRef spec2 2))
          (V c (Pipeline.arrRef spec2 3)) (V c (Pipeline.arrRef spec2 4)) :=
  (Gen.dat2 (F := Ideal) V c).arrAt_eq_of_cover 5 _ (fun t _ => flushed_eq V c t) cover

theorem fused_apply (c : Dev nD) (r : Fin 50000) (j : Fin 128) :
    (Gen.dat2 (F := Ideal) V c).arrAt 5 cfg2.N (ix2 r j)
      = fusedAt (V c (Pipeline.arrRef spec2 0)) (V c (Pipeline.arrRef spec2 1)) (V c (Pipeline.arrRef spec2 2))
          (V c (Pipeline.arrRef spec2 3)) (V c (Pipeline.arrRef spec2 4)) r j :=
  congrFun (fused_array V c) (ix2 r j)

end Cert.Bridge.Fusion

end
-- ==== Proof.FusionPure.lean ====
/-
  The reference's fusion of the two branches, as one function of them, and the fusion formula with the joined product
  split in two. The reference cuts each branch [50000, 128] at zero, joins them along the columns to [50000, 256],
  multiplies by the fusion weight [256, 128], adds the fusion bias laid as a row and then down the rows, and cuts at
  zero. A sum over the 256 joined columns is the sum over the first 128 — read in the first branch — plus the sum over
  the last 128 — read in the second —, so the formula with the two half products is the reference's, entry by entry.
-/
import proofs.«126740_j33818572488720_2_alg».proof.Proof.RefRead
import proofs.«126740_j33818572488720_2_alg».proof.Proof.LibBroadcasts
import proofs.«126740_j33818572488720_2_alg».proof.Proof.LibPlainDot
import proofs.«126740_j33818572488720_2_alg».proof.Proof.LibRowVector
import Idealize.ShloMosaic.Lib.Pipeline.Value
import Idealize.ShloMosaic.Lib.ValueIdx
import Idealize.ShloMosaic.PureOps.Ideal.Laws

noncomputable section

open Idealize.ShloMosaic Idealize.ShloMosaic.ValueIdx
open Cert.ReferenceIdeal Cert.ReferenceIdeal.ReadP

namespace Cert.Bridge.FusionPure

/-- The reference's fusion of a graph branch `A` and a local branch `B`: each cut at zero, joined along the columns,
    times the fusion weight [256, 128], plus the fusion bias laid down the rows, cut at zero. -/
def refFused (A B : FVec Ideal S50000x128 .f32) (x14 : FVec Ideal S256x128 .f32) (x15 : FVec Ideal S128 .f32) :
    FVec Ideal S50000x128 .f32 :=
  maximumf (F := Ideal)
    (addf (F := Ideal)
      (Host.dotGeneral (F := Ideal) dot_S50000x256_S256x128_S50000x128_1_0_0_1_n_n none
        (concatenate S50000x256 1 [⟨S50000x128, maximumf A (val_main_call1_v0 (F := Ideal))⟩,
          ⟨S50000x128, maximumf B (val_main_call3_v0 (F := Ideal))⟩] Facts₀.concatenates_S50000x128_S50000x128_S50000x256_d1)
        x14)
      (val_main_v112 (F := Ideal) x15))
    (val_main_call4_v0 (F := Ideal))

/-- The reference's fused stage is `refFused` of its two branches. -/
theorem v114_eq_refFused (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x1, .f32⟩ : BufTy).Contents (Elt Ideal)) (x13 : (⟨S1, .f32⟩ : BufTy).Contents (Elt Ideal)) (x14 : (⟨S256x128, .f32⟩ : BufTy).Contents (Elt Ideal)) (x15 : (⟨S128, .f32⟩ : BufTy).Contents (Elt Ideal)) :
    val_main_v114 (F := Ideal) x0 x1 x2 x4 x5 x6 x7 x8 x9 x10 x11 x12 x13 x14 x15
      = refFused (val_main_v47 (F := Ideal) x0 x2 x4 x5) (val_main_v107 (F := Ideal) x0 x1 x2 x6 x7 x8 x9 x10 x11 x12 x13) x14 x15 := rfl

/-- The reference's local branch: the gated edge messages added up per target node. -/
theorem v107_eq (x0 : (⟨S50000x128, .f32⟩ : BufTy).Contents (Elt Ideal)) (x1 : (⟨S50000x3, .f32⟩ : BufTy).Contents (Elt Ideal)) (x2 : (⟨S2x800000, .i32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x1, .f32⟩ : BufTy).Contents (Elt Ideal)) (x13 : (⟨S1, .f32⟩ : BufTy).Contents (Elt Ideal)) :
    val_main_v107 (F := Ideal) x0 x1 x2 x6 x7 x8 x9 x10 x11 x12 x13
      = Host.scatterAdd (F := Ideal) (φ := .f32) scatter_S50000x128_S800000x1_S800000x128_1_0_0_1 (val_main_v105 (F := Ideal)) (val_main_v106 (F := Ideal) x2)
          (val_main_v104 (F := Ideal) x0 x1 x2 x6 x7 x8 x9 x10 x11 x12 x13) := rfl

/-- A vector laid as a row and then down the rows is, at `(n, j)`, the vector reshaped to a row at `(0, j)`. -/
theorem downRows_eq_reshape {a b : ℕ} (x : (⟨1, ![b]⟩ : Shape).Idx → EReal)
    (h0 : (⟨1, ![b]⟩ : Shape).BroadcastsInDim ⟨2, ![1, b]⟩ ![1])
    (h1 : (⟨2, ![1, b]⟩ : Shape).BroadcastsInDim ⟨2, ![a, b]⟩ ![0, 1])
    (hs : (⟨1, ![b]⟩ : Shape).ShapeCasts ⟨2, ![1, b]⟩) (n : Fin a) (j : Fin b) :
    broadcastInDim ⟨2, ![a, b]⟩ ![0, 1] h1 (broadcastInDim ⟨2, ![1, b]⟩ ![1] h0 x) (ix2 n j)
      = shapeCast ⟨2, ![1, b]⟩ x hs (ix2 (0 : Fin 1) j) := by
  refine (Cert.Broadcasts.downRows_apply x h0 h1 n j).trans ?_
  refine ((Cert.RowVector.reshape_apply x hs (ix2 (0 : Fin 1) j)).trans (congrArg x ?_)).symm
  funext q
  match q with
  | ⟨0, _⟩ => rfl

/-- The zero splat of a cut at zero reads `0`. -/
theorem zeroSplat_apply {t : Shape} (dims : Fin (⟨0, ![]⟩ : Shape).rank → Fin t.rank)
    (h : (⟨0, ![]⟩ : Shape).BroadcastsInDim t dims) (j : t.Idx) :
    broadcastInDim t dims h (constant (F := Ideal) ⟨0, ![]⟩ .f32 0x00000000#32) j = (0 : EReal) := by
  refine (Cert.Broadcasts.splat_apply dims h _ j).trans ?_
  exact Ideal.ofBits_zero_f32

/-- The two branches cut at zero and joined along the columns, read in the left half … -/
theorem joined_left (A B : FVec Ideal S50000x128 .f32) (h : Shape.Concatenates [S50000x128, S50000x128] S50000x256 1)
    (r : Fin 50000) (k : Fin 128) :
    concatenate S50000x256 1 [⟨S50000x128, maximumf A (val_main_call1_v0 (F := Ideal))⟩,
        ⟨S50000x128, maximumf B (val_main_call3_v0 (F := Ideal))⟩] h (ix2 r (Fin.castAdd 128 k : Fin 256))
      = max (A (ix2 r k)) 0 := by
  refine (concatenate_pair_apply_left (1 : Fin S50000x256.rank) _ _ h (ix2 r (Fin.castAdd 128 k : Fin 256)) rfl (ix2 r k) (fun b => ?_)).trans ?_
  · match b with
    | ⟨0, _⟩ => rfl
    | ⟨1, _⟩ => rfl
  · refine (maximumf_apply _ _ _).trans (congrArg (max (A (ix2 r k))) ?_)
    unfold val_main_call1_v0 val_main_call1_cst
    exact zeroSplat_apply _ _ (ix2 r k)

/-- … and in the right half. -/
theorem joined_right (A B : FVec Ideal S50000x128 .f32) (h : Shape.Concatenates [S50000x128, S50000x128] S50000x256 1)
    (r : Fin 50000) (k : Fin 128) :
    concatenate S50000x256 1 [⟨S50000x128, maximumf A (val_main_call1_v0 (F := Ideal))⟩,
        ⟨S50000x128, maximumf B (val_main_call3_v0 (F := Ideal))⟩] h (ix2 r (Fin.natAdd 128 k : Fin 256))
      = max (B (ix2 r k)) 0 := by
  refine (concatenate_pair_apply_right (1 : Fin S50000x256.rank) _ _ h (ix2 r (Fin.natAdd 128 k : Fin 256)) rfl rfl (ix2 r k) (fun b hb => ?_) ?_).trans ?_
  · match b with
    | ⟨0, _⟩ => rfl
    | ⟨1, _⟩ => exact absurd rfl hb
  · show k.val + 128 = 128 + k.val
    omega
  · refine (maximumf_apply _ _ _).trans (congrArg (max (B (ix2 r k))) ?_)
    unfold val_main_call3_v0 val_main_call3_cst
    exact zeroSplat_apply _ _ (ix2 r k)

/-- The kernel's fusion formula — the graph branch with its bias added as a reshaped row, the two halves of the fusion
    weight summed separately, the fusion bias reshaped to a row — is the reference's fusion, entry by entry. -/
theorem fused_pure (A B : FVec Ideal S50000x128 .f32) (x14 : FVec Ideal S256x128 .f32) (x15 : FVec Ideal S128 .f32)
    (Gr Lr : S50000x128.Idx → EReal) (x5 : S128.Idx → EReal) (h5 : S128.ShapeCasts S1x128) (h15 : S128.ShapeCasts S1x128)
    (r : Fin 50000) (j : Fin 128)
    (hA : ∀ r k, Gr (ix2 r k) + x5 (ix1 k) = A (ix2 r k)) (hB : Lr = B) :
    max (((∑ k : Fin 128, max (Gr (ix2 r k) + (shapeCast S1x128 x5 h5 : S1x128.Idx → EReal) (ix2 (0 : Fin 1) k)) 0
              * x14 (ix2 (Fin.castAdd 128 k : Fin 256) j))
          + (∑ k : Fin 128, max (Lr (ix2 r k)) 0 * x14 (ix2 (Fin.natAdd 128 k : Fin 256) j)))
        + (shapeCast S1x128 x15 h15 : S1x128.Idx → EReal) (ix2 (0 : Fin 1) j)) 0
      = (refFused A B x14 x15 : S50000x128.Idx → EReal) (ix2 r j) := by
  subst hB
  symm
  unfold refFused
  refine (maximumf_apply _ _ _).trans (congrArg₂ max ?_ ?_)
  · refine (addf_apply _ _ _).trans (congrArg₂ (· + ·) ?_ ?_)
    · refine (Cert.PlainDot.dotGeneral_apply dot_S50000x256_S256x128_S50000x128_1_0_0_1_n_n rfl none .single _ x14 r j).trans ?_
      refine (Fin.sum_univ_add (a := 128) (b := 128) _).trans (congrArg₂ (· + ·) ?_ ?_)
      · refine Finset.sum_congr rfl fun k _ => congrArg (· * x14 (ix2 (Fin.castAdd 128 k : Fin 256) j)) ?_
        refine (joined_left A Lr _ r k).trans (congrArg (max · 0) ?_)
        rw [← hA r k]
        refine congrArg (Gr (ix2 r k) + ·) ?_
        refine ((Cert.RowVector.reshape_apply x5 h5 (ix2 (0 : Fin 1) k)).trans (congrArg x5 ?_)).symm
        funext q
        match q with
        | ⟨0, _⟩ => rfl
      · refine Finset.sum_congr rfl fun k _ => congrArg (· * x14 (ix2 (Fin.natAdd 128 k : Fin 256) j)) ?_
        exact joined_right A Lr _ r k
    · unfold val_main_v112 val_main_v111
      exact downRows_eq_reshape x15 _ _ h15 r j
  · unfold val_main_call4_v0 val_main_call4_cst
    exact zeroSplat_apply _ _ (ix2 r j)

end Cert.Bridge.FusionPure

end
-- ==== Proof.Proj.lean ====
/-
  The projection region, read entry by entry over the extended reals. The region walks ten row blocks of 5000 node
  rows; at each it forms the block of node features times the combined weight [128, 256] plus the bias row, writes
  columns 0 … 127 to the first output and columns 128 … 255 to the second, and writes the second's block times the
  attention weight [128, 2] plus its bias row to the third. Here: each input window's block read at coordinates (the
  feature block's row `p` at point `t` is row `5000 t + p` of the array, the weights and biases are whole), the
  body's arithmetic at coordinates over arbitrary blocks, what each point writes back as a block of one whole-array
  function, the cover of each output array by the ten row blocks, and the three arrays after the region at `(r, j)`.
-/
import proofs.«126740_j33818572488720_2_alg».proof.Proof.Gen.KernelIdeal.Frame
import Idealize.ShloMosaic.Lib.Pipeline.Value
import Idealize.ShloMosaic.Lib.ValueIdx
import Idealize.ShloMosaic.PureOps.Ideal.Laws
import proofs.«126740_j33818572488720_2_alg».proof.Proof.LibPlainDot

noncomputable section

open Idealize.ShloMosaic Idealize.ShloMosaic.TcCoe Idealize.ShloMosaic.ValueIdx
open Idealize.ShloMosaic.Pipeline (Dat)
open Cert.KernelIdeal Cert.KernelIdeal.Gen

namespace Cert.Bridge.Proj

variable (V : (c : Dev nD) → (b : Ref sig .tc) → Buf (Elt Ideal) ((c : Thread nD τ).loc b))

/-- The node features on core `c`, as the region finds them. -/
abbrev X (c : Dev nD) : S50000x128.Idx → EReal := V c main_arg0
abbrev Wc (c : Dev nD) : S128x256.Idx → EReal := V c main_v4
abbrev Bc (c : Dev nD) : S1x256.Idx → EReal := V c main_v7
abbrev Aw (c : Dev nD) : S128x2.Idx → EReal := V c main_v10
abbrev Ab (c : Dev nD) : S1x2.Idx → EReal := V c main_v13

abbrev lo (j : Fin 128) : Fin 256 := ⟨j.val, by omega⟩
abbrev hi (j : Fin 128) : Fin 256 := ⟨128 + j.val, by omega⟩

/-! ## The grid: ten row blocks of 5000 rows -/

theorem hz : (![0, 0] : Fin 2 → Nat) = fun _ => 0 := funext fun a => by fin_cases a <;> rfl

theorem t_lt (t : Fin cfg0.N) : t.val < 10 := by
  have h := t.isLt
  have hN : cfg0.N = 10 := Gen.N_0
  omega

/-- Row `p` of row block `t`. -/
def row (t : Fin cfg0.N) (p : Fin 5000) : Fin 50000 := ⟨t.val * 5000 + p.val, by have := t_lt t; omega⟩

/-- The index maps, decided over the grid: the node-feature window and the three output windows sit at row block
    `t`, the weight and bias windows at their whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input windows' blocks, read at coordinates -/

theorem x_blk (c : Dev nD) (t : Fin cfg0.N) (p : Fin 5000) (k : Fin 128) :
    (Gen.iblk0 (F := Ideal) V c 0 t : S5000x128.Idx → EReal) (ix2 p k) = X V c (ix2 (row t p) k) := by
  obtain ⟨e0, e1, -⟩ := idx_facts t
  unfold Gen.iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem wc_blk (c : Dev nD) (t : Fin cfg0.N) (k : Fin 128) (q : Fin 256) :
    (Gen.iblk0 (F := Ideal) V c 1 t : S128x256.Idx → EReal) (ix2 k q) = Wc V c (ix2 k q) := by
  obtain ⟨-, -, e0, e1, -⟩ := idx_facts t
  unfold Gen.iblk0
  rw [View.read_apply]
  show V c main_v4 _ = V c main_v4 _
  refine congrArg (V c main_v4) ?_
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

theorem bc_blk (c : Dev nD) (t : Fin cfg0.N) (z : Fin 1) (q : Fin 256) :
    (Gen.iblk0 (F := Ideal) V c 2 t : S1x256.Idx → EReal) (ix2 z q) = Bc V c (ix2 z q) := by
  obtain ⟨-, -, -, -, e0, e1, -⟩ := idx_facts t
  unfold Gen.iblk0
  rw [View.read_apply]
  show V c main_v7 _ = V c main_v7 _
  refine congrArg (V c main_v7) ?_
  funext a
  apply Fin.ext
  match a with
  | ⟨0, _⟩ => show win0_2.index t (0 : Fin 2) * 1 + 1 * z.val = z.val; omega
  | ⟨1, _⟩ => show win0_2.index t (1 : Fin 2) * 256 + 1 * q.val = q.val; omega

theorem aw_blk (c : Dev nD) (t : Fin cfg0.N) (k : Fin 128) (u : Fin 2) :
    (Gen.iblk0 (F := Ideal) V c 3 t : S128x2.Idx → EReal) (ix2 k u) = Aw V c (ix2 k u) := by
  obtain ⟨-, -, -, -, -, -, e0, e1, -⟩ := idx_facts t
  unfold Gen.iblk0
  rw [View.read_apply]
  show V c main_v10 _ = V c main_v10 _
  refine congrArg (V c main_v10) ?_
  funext a
  apply Fin.ext
  match a with
  | ⟨0, _⟩ => show win0_3.index t (0 : Fin 2) * 128 + 1 * k.val = k.val; omega
  | ⟨1, _⟩ => show win0_3.index t (1 : Fin 2) * 2 + 1 * u.val = u.val; omega

theorem ab_blk (c : Dev nD) (t : Fin cfg0.N) (z : Fin 1) (u : Fin 2) :
    (Gen.iblk0 (F := Ideal) V c 4 t : S1x2.Idx → EReal) (ix2 z u) = Ab V c (ix2 z u) := by
  obtain ⟨-, -, -, -, -, -, -, -, e0, e1, -⟩ := idx_facts t
  unfold Gen.iblk0
  rw [View.read_apply]
  show V c main_v13 _ = V c main_v13 _
  refine congrArg (V c main_v13) ?_
  funext a
  apply Fin.ext
  match a with
  | ⟨0, _⟩ => show win0_4.index t (0 : Fin 2) * 1 + 1 * z.val = z.val; omega
  | ⟨1, _⟩ => show win0_4.index t (1 : Fin 2) * 2 + 1 * u.val = u.val; omega

/-! ## The body's arithmetic at coordinates, over arbitrary blocks -/

/-- The accumulator of the first product: a block of node features times the combined weight, plus the bias row. -/
theorem acc_apply (x0 : Vec Ideal S5000x128 .f32) (x1 : Vec Ideal S128x256 .f32) (x2 : Vec Ideal S1x256 .f32)
    (p : Fin 5000) (q : Fin 256) :
    Gen.k0_pay1 (F := Ideal) x0 x1 x2 (ix2 p q) = (∑ k : Fin 128, x0 (ix2 p k) * x1 (ix2 k q)) + x2 (ix2 0 q) := by
  unfold Gen.k0_pay1
  simp only [shapeCast_self]
  refine (addf_apply _ _ _).trans (congrArg₂ (· + ·) ?_ ?_)
  · exact Cert.PlainDot.matmul_zero_apply dot_S5000x128_S128x256_S5000x256_1_0_0_1_n_n rfl none _ _ p q
  · exact broadcastTo_apply x2 _ (ix2 p q) (ix2 0 q) (fun a => by match a with | ⟨0, _⟩ => rfl | ⟨1, _⟩ => rfl)

/-- Its columns 0 … 127. -/
theorem lowHalf_apply (x0 : Vec Ideal S5000x128 .f32) (x1 : Vec Ideal S128x256 .f32) (x2 : Vec Ideal S1x256 .f32)
    (p : Fin 5000) (j : Fin 128) :
    Gen.k0_pay2 (F := Ideal) x0 x1 x2 (ix2 p j) = (∑ k : Fin 128, x0 (ix2 p k) * x1 (ix2 k (lo j))) + x2 (ix2 0 (lo j)) := by
  unfold Gen.k0_pay2
  refine (extractStridedSlice_apply (s := S5000x256) (t := S5000x128) ![0, 0] (Gen.k0_pay1 (F := Ideal) x0 x1 x2) _
    (ix2 p j) (ix2 p (lo j)) ?_).trans (acc_apply x0 x1 x2 p (lo j))
  intro a
  match a with
  | ⟨0, _⟩ => exact (Nat.zero_add p.val).symm
  | ⟨1, _⟩ => exact (Nat.zero_add j.val).symm

/-- Its columns 128 … 255. -/
theorem highHalf_apply (x0 : Vec Ideal S5000x128 .f32) (x1 : Vec Ideal S128x256 .f32) (x2 : Vec Ideal S1x256 .f32)
    (p : Fin 5000) (j : Fin 128) :
    Gen.k0_pay3 (F := Ideal) x0 x1 x2 (ix2 p j) = (∑ k : Fin 128, x0 (ix2 p k) * x1 (ix2 k (hi j))) + x2 (ix2 0 (hi j)) := by
  unfold Gen.k0_pay3
  refine (extractStridedSlice_apply (s := S5000x256) (t := S5000x128) ![0, 128] (Gen.k0_pay1 (F := Ideal) x0 x1 x2) _
    (ix2 p j) (ix2 p (hi j)) ?_).trans (acc_apply x0 x1 x2 p (hi j))
  intro a
  match a with
  | ⟨0, _⟩ => exact (Nat.zero_add p.val).symm
  | ⟨1, _⟩ => rfl

/-- The second product: the high half times the attention weight, plus its bias row. -/
theorem score_apply (x0 : Vec Ideal S5000x128 .f32) (x1 : Vec Ideal S128x256 .f32) (x2 : Vec Ideal S1x256 .f32)
    (x3 : Vec Ideal S128x2 .f32) (x4 : Vec Ideal S1x2 .f32) (p : Fin 5000) (u : Fin 2) :
    Gen.k0_pay4 (F := Ideal) x0 x1 x2 x3 x4 (ix2 p u)
      = (∑ k : Fin 128, ((∑ q : Fin 128, x0 (ix2 p q) * x1 (ix2 q (hi k))) + x2 (ix2 0 (hi k))) * x3 (ix2 k u)) + x4 (ix2 0 u) := by
  unfold Gen.k0_pay4
  simp only [shapeCast_self]
  refine (addf_apply _ _ _).trans (congrArg₂ (· + ·) ?_ ?_)
  · refine (Cert.PlainDot.matmul_zero_apply dot_S5000x128_S128x2_S5000x2_1_0_0_1_n_n rfl none _ _ p u).trans ?_
    refine Finset.sum_congr rfl fun k _ => ?_
    exact congrArg (· * x3 (ix2 k u)) (highHalf_apply x0 x1 x2 p k)
  · exact broadcastTo_apply x4 _ (ix2 p u) (ix2 0 u) (fun a => by match a with | ⟨0, _⟩ => rfl | ⟨1, _⟩ => rfl)

/-! ## The three output arrays as functions of the input arrays -/

/-- Entry `(r, q)` of the node features times the combined weight, plus the bias. -/
def xwAt (c : Dev nD) (r : Fin 50000) (q : Fin 256) : EReal :=
  (∑ k : Fin 128, X V c (ix2 r k) * Wc V c (ix2 k q)) + Bc V c (ix2 0 q)

/-- Entry `(r, u)` of the high half times the attention weight, plus its bias. -/
def abAt (c : Dev nD) (r : Fin 50000) (u : Fin 2) : EReal :=
  (∑ k : Fin 128, xwAt V c r (hi k) * Aw V c (ix2 k u)) + Ab V c (ix2 0 u)

abbrev G5 (c : Dev nD) : S50000x128.Idx → EReal := fun i => xwAt V c (i 0) (lo (i 1))
abbrev G6 (c : Dev nD) : S50000x128.Idx → EReal := fun i => xwAt V c (i 0) (hi (i 1))
abbrev G7 (c : Dev nD) : S50000x2.Idx → EReal := fun i => abAt V c (i 0) (i 1)

/-- Blocks that read the input arrays — the node features at row `r` where the block has row `p` — give entry `(r, q)` of the
    whole product at `(p, q)`. -/
theorem acc_blk (c : Dev nD) (x0 : S5000x128.Idx → EReal) (x1 : S128x256.Idx → EReal) (x2 : S1x256.Idx → EReal)
    (r : Fin 50000) (p : Fin 5000) (q : Fin 256)
    (h0 : ∀ k, x0 (ix2 p k) = X V c (ix2 r k)) (h1 : ∀ k, x1 (ix2 k q) = Wc V c (ix2 k q))
    (h2 : x2 (ix2 0 q) = Bc V c (ix2 0 q)) :
    (∑ k : Fin 128, x0 (ix2 p k) * x1 (ix2 k q)) + x2 (ix2 0 q) = xwAt V c r q := by
  unfold xwAt
  rw [h2]
  refine congrArg (· + Bc V c (ix2 0 q)) (Finset.sum_congr rfl fun k _ => ?_)
  rw [h0, h1]

/-- The same for the scores. -/
theorem score_blk (c : Dev nD) (x0 : S5000x128.Idx → EReal) (x1 : S128x256.Idx → EReal) (x2 : S1x256.Idx → EReal)
    (x3 : S128x2.Idx → EReal) (x4 : S1x2.Idx → EReal) (r : Fin 50000) (p : Fin 5000) (u : Fin 2)
    (h0 : ∀ k, x0 (ix2 p k) = X V c (ix2 r k)) (h1 : ∀ k q, x1 (ix2 k q) = Wc V c (ix2 k q))
    (h2 : ∀ q, x2 (ix2 0 q) = Bc V c (ix2 0 q)) (h3 : ∀ k, x3 (ix2 k u) = Aw V c (ix2 k u))
    (h4 : x4 (ix2 0 u) = Ab V c (ix2 0 u)) :
    (∑ k : Fin 128, ((∑ q : Fin 128, x0 (ix2 p q) * x1 (ix2 q (hi k))) + x2 (ix2 0 (hi k))) * x3 (ix2 k u)) + x4 (ix2 0 u)
      = abAt V c r u := by
  unfold abAt
  rw [h4]
  refine congrArg (· + Ab V c (ix2 0 u)) (Finset.sum_congr rfl fun k _ => ?_)
  rw [h3, acc_blk V c x0 x1 x2 r p (hi k) h0 (fun k' => h1 k' (hi k)) (h2 (hi k))]

/-! ## What each point writes back -/

theorem flushed5_eq (c : Dev nD) (t : Fin cfg0.N) :
    (Gen.dat0 (F := Ideal) V c).flushed 5 t = ((cfg0.win 5).blk t).view.read (Elt Ideal) (G5 V c) := by
  obtain ⟨-, -, -, -, -, -, -, -, -, -, e0, e1, -⟩ := idx_facts t
  show (cfg0.win 5).cut (grid0.coords t) ((Gen.dat0 (F := Ideal) V c).after 5 t) = _
  rw [Gen.after0_5]
  unfold Gen.out0_5
  rw [View.canon_unit_zero hz]
  simp only [View.ld_unit_zero (S := S5000x128) hz, View.ld_unit_zero (S := S128x256) hz, View.ld_unit_zero (S := S1x256) hz]
  funext y
  obtain ⟨p, j, rfl⟩ : ∃ (p : Fin 5000) (j : Fin 128), y = ix2 p j := ⟨y 0, y 1, eq_ix2 y⟩
  show Gen.k0_pay2 (F := Ideal) (Gen.iblk0 V c 0 t) (Gen.iblk0 V c 1 t) (Gen.iblk0 V c 2 t) (ix2 p j)
    = G5 V c (((cfg0.win 5).blk t).view.emb (ix2 p j))
  have hemb : ((cfg0.win 5).blk t).view.emb (ix2 p j) = ix2 (row t p) j := by
    funext a
    apply Fin.ext
    match a with
    | ⟨0, _⟩ => show win0_5.index t (0 : Fin 2) * 5000 + 1 * p.val = t.val * 5000 + p.val; omega
    | ⟨1, _⟩ => show win0_5.index t (1 : Fin 2) * 128 + 1 * j.val = j.val; omega
  rw [hemb]
  exact (lowHalf_apply (Gen.iblk0 V c 0 t) (Gen.iblk0 V c 1 t) (Gen.iblk0 V c 2 t) p j).trans (acc_blk V c _ _ _ (row t p) p (lo j) (fun k => x_blk V c t p k) (fun k => wc_blk V c t k (lo j)) (bc_blk V c t 0 (lo j)))

theorem flushed6_eq (c : Dev nD) (t : Fin cfg0.N) :
    (Gen.dat0 (F := Ideal) V c).flushed 6 t = ((cfg0.win 6).blk t).view.read (Elt Ideal) (G6 V c) := by
  obtain ⟨-, -, -, -, -, -, -, -, -, -, -, -, e0, e1, -⟩ := idx_facts t
  show (cfg0.win 6).cut (grid0.coords t) ((Gen.dat0 (F := Ideal) V c).after 6 t) = _
  rw [Gen.after0_6]
  unfold Gen.out0_6
  rw [View.canon_unit_zero hz]
  simp only [View.ld_unit_zero (S := S5000x128) hz, View.ld_unit_zero (S := S128x256) hz, View.ld_unit_zero (S := S1x256) hz]
  funext y
  obtain ⟨p, j, rfl⟩ : ∃ (p : Fin 5000) (j : Fin 128), y = ix2 p j := ⟨y 0, y 1, eq_ix2 y⟩
  show Gen.k0_pay3 (F := Ideal) (Gen.iblk0 V c 0 t) (Gen.iblk0 V c 1 t) (Gen.iblk0 V c 2 t) (ix2 p j)
    = G6 V c (((cfg0.win 6).blk t).view.emb (ix2 p j))
  have hemb : ((cfg0.win 6).blk t).view.emb (ix2 p j) = ix2 (row t p) j := by
    funext a
    apply Fin.ext
    match a with
    | ⟨0, _⟩ => show win0_6.index t (0 : Fin 2) * 5000 + 1 * p.val = t.val * 5000 + p.val; omega
    | ⟨1, _⟩ => show win0_6.index t (1 : Fin 2) * 128 + 1 * j.val = j.val; omega
  rw [hemb]
  exact (highHalf_apply (Gen.iblk0 V c 0 t) (Gen.iblk0 V c 1 t) (Gen.iblk0 V c 2 t) p j).trans (acc_blk V c _ _ _ (row t p) p (hi j) (fun k => x_blk V c t p k) (fun k => wc_blk V c t k (hi j)) (bc_blk V c t 0 (hi j)))

theorem flushed7_eq (c : Dev nD) (t : Fin cfg0.N) :
    (Gen.dat0 (F := Ideal) V c).flushed 7 t = ((cfg0.win 7).blk t).view.read (Elt Ideal) (G7 V c) := by
  obtain ⟨-, -, -, -, -, -, -, -, -, -, -, -, -, -, e0, e1⟩ := idx_facts t
  show (cfg0.win 7).cut (grid0.coords t) ((Gen.dat0 (F := Ideal) V c).after 7 t) = _
  rw [Gen.after0_7]
  unfold Gen.out0_7
  rw [View.canon_unit_zero hz]
  simp only [View.ld_unit_zero (S := S5000x128) hz, View.ld_unit_zero (S := S128x256) hz, View.ld_unit_zero (S := S1x256) hz,
    View.ld_unit_zero (S := S128x2) hz, View.ld_unit_zero (S := S1x2) hz]
  funext y
  obtain ⟨p, u, rfl⟩ : ∃ (p : Fin 5000) (u : Fin 2), y = ix2 p u := ⟨y 0, y 1, eq_ix2 y⟩
  show Gen.k0_pay4 (F := Ideal) (Gen.iblk0 V c 0 t) (Gen.iblk0 V c 1 t) (Gen.iblk0 V c 2 t) (Gen.iblk0 V c 3 t) (Gen.iblk0 V c 4 t) (ix2 p u)
    = G7 V c (((cfg0.win 7).blk t).view.emb (ix2 p u))
  have hemb : ((cfg0.win 7).blk t).view.emb (ix2 p u) = ix2 (row t p) u := by
    funext a
    apply Fin.ext
    match a with
    | ⟨0, _⟩ => show win0_7.index t (0 : Fin 2) * 5000 + 1 * p.val = t.val * 5000 + p.val; omega
    | ⟨1, _⟩ => show win0_7.index t (1 : Fin 2) * 2 + 1 * u.val = u.val; omega
  rw [hemb]
  exact (score_apply (Gen.iblk0 V c 0 t) (Gen.iblk0 V c 1 t) (Gen.iblk0 V c 2 t) (Gen.iblk0 V c 3 t) (Gen.iblk0 V c 4 t) p u).trans
    (score_blk V c _ _ _ _ _ (row t p) p u (fun k => x_blk V c t p k) (fun k q => wc_blk V c t k q) (fun q => bc_blk V c t 0 q)
      (fun k => aw_blk V c t k u) (ab_blk V c t 0 u))

/-! ## The row blocks cover the arrays -/

theorem mem_blk5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v14_0).slice (win0_5.rect t)).set ↔ _
  rw [View.set_slice_whole, Rect.mem_set_unit]
  exact Iff.rfl

theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v14_1).slice (win0_6.rect t)).set ↔ _
  rw [View.set_slice_whole, Rect.mem_set_unit]
  exact Iff.rfl

theorem mem_blk7 (t : Fin cfg0.N) (i : S50000x2.Idx) :
    i ∈ ((cfg0.win 7).blk t).view.set ↔ ∀ a : Fin 2, win0_7.index t a * S5000x2.size a ≤ (i a).val
      ∧ (i a).val < win0_7.index t a * S5000x2.size a + S5000x2.size a := by
  show i ∈ ((View.whole main_v14_2).slice (win0_7.rect t)).set ↔ _
  rw [View.set_slice_whole, Rect.mem_set_unit]
  exact Iff.rfl

/-- The point whose row block holds row `n`. -/
theorem point_of_row (n : Nat) (hn : n < 50000) : ∃ t : Fin cfg0.N, t.val = n / 5000 := by
  have hN : cfg0.N = 10 := Gen.N_0
  exact ⟨⟨n / 5000, by omega⟩, rfl⟩

theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, e0, e1, -⟩ := idx_facts t
  refine ⟨t, Gen.flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, -, -, e0, e1, -⟩ := idx_facts t
  refine ⟨t, Gen.flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

theorem cover7 (i : S50000x2.Idx) :
    ∃ t : Fin cfg0.N, (cfg0.win 7).flush t = true ∧ i ∈ ((cfg0.win 7).blk t).view.set := by
  have hi0 : (i 0).val < 50000 := (i 0).isLt
  have hi1 : (i 1).val < 2 := (i 1).isLt
  obtain ⟨t, ht⟩ := point_of_row (i 0).val hi0
  obtain ⟨-, -, -, -, -, -, -, -, -, -, -, -, -, -, e0, e1⟩ := idx_facts t
  refine ⟨t, Gen.flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 2 ≤ (i 1).val ∧ (i 1).val < win0_7.index t (1 : Fin 2) * 2 + 2; omega

/-! ## The arrays after the region -/

theorem final5 (c : Dev nD) : (Gen.dat0 (F := Ideal) V c).arrAt 5 cfg0.N = G5 V c :=
  (Gen.dat0 (F := Ideal) V c).arrAt_eq_of_cover 5 (G5 V c) (fun t _ => flushed5_eq V c t) cover5

theorem final6 (c : Dev nD) : (Gen.dat0 (F := Ideal) V c).arrAt 6 cfg0.N = G6 V c :=
  (Gen.dat0 (F := Ideal) V c).arrAt_eq_of_cover 6 (G6 V c) (fun t _ => flushed6_eq V c t) cover6

theorem final7 (c : Dev nD) : (Gen.dat0 (F := Ideal) V c).arrAt 7 cfg0.N = G7 V c :=
  (Gen.dat0 (F := Ideal) V c).arrAt_eq_of_cover 7 (G7 V c) (fun t _ => flushed7_eq V c t) cover7

/-- The low half of the projection, entry by entry. -/
theorem xw_apply (c : Dev nD) (r : Fin 50000) (j : Fin 128) :
    ((Gen.dat0 (F := Ideal) V c).arrAt 5 cfg0.N : S50000x128.Idx → EReal) (ix2 r j)
      = (∑ k : Fin 128, X V c (ix2 r k) * Wc V c (ix2 k (lo j))) + Bc V c (ix2 0 (lo j)) :=
  congrFun (final5 V c) (ix2 r j)

/-- The high half of the projection, entry by entry. -/
theorem xl_apply (c : Dev nD) (r : Fin 50000) (j : Fin 128) :
    ((Gen.dat0 (F := Ideal) V c).arrAt 6 cfg0.N : S50000x128.Idx → EReal) (ix2 r j)
      = (∑ k : Fin 128, X V c (ix2 r k) * Wc V c (ix2 k (hi j))) + Bc V c (ix2 0 (hi j)) :=
  congrFun (final6 V c) (ix2 r j)

/-- The attention scores, entry by entry. -/
theorem ab_apply (c : Dev nD) (r : Fin 50000) (u : Fin 2) :
    ((Gen.dat0 (F := Ideal) V c).arrAt 7 cfg0.N : S50000x2.Idx → EReal) (ix2 r u)
      = (∑ k : Fin 128, ((∑ q : Fin 128, X V c (ix2 r q) * Wc V c (ix2 q (hi k))) + Bc V c (ix2 0 (hi k))) * Aw V c (ix2 k u))
        + Ab V c (ix2 0 u) :=
  congrFun (final7 V c) (ix2 r u)

end Cert.Bridge.Proj

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibCountScatter.lean ====
/-
  Counting through an accumulating scatter.

  A scatter whose body adds, over a commutative monoid, does not depend on the order of its updates: read at an
  element it is the operand there plus the sum of the updates that land on it.  Scattering a one for every entry
  of an index column into a vector of zeros therefore COUNTS, per row, the entries that name the row.  Done in
  32-bit integers (the count is far below 2^31, so it does not wrap) and then converted to a float, or done directly
  in floats over the extended reals, the result is the same real number: the number of entries landing on the row.
-/
import Mathlib.Data.BitVec
import Idealize.ShloMosaic.Lib.ValueIdx
import Idealize.ShloMosaic.PureOps.Ideal
import Idealize.ShloMosaic.PureOps.Ideal.Laws
import proofs.«126740_j33818572488720_2_alg».proof.Proof.LibEdgeIndex

noncomputable section

namespace Cert.CountScatter

open Idealize.ShloMosaic Idealize.ShloMosaic.ValueIdx Cert.EdgeIndex

section fold

variable {ι κ α : Type} [DecidableEq κ] [AddCommMonoid α]

/-- A left fold of steps each of which adds a value at (at most) one point, read at a point: the start value there plus
    the added values of the steps that hit the point. -/
theorem foldl_add_apply (step : (κ → α) → ι → κ → α) (ρ : ι → Option κ) (v : ι → α)
    (hstep : ∀ r n i, step r n i = r i + if ρ n = some i then v n else 0) (i : κ) :
    ∀ (l : List ι) (x : κ → α), l.foldl step x i = x i + (l.map fun n => if ρ n = some i then v n else 0).sum
  | [], x => by simp
  | n :: l, x => by
    rw [List.foldl_cons, foldl_add_apply step ρ v hstep i l, hstep, List.map_cons, List.sum_cons, add_assoc]

end fold

/-- A scatter whose body adds over a commutative monoid, at an element: the operand there plus the updates whose
    result index is that element. -/
theorem scatter_add_apply {s si u : Shape} {w : Nat} {α : Type} [AddCommMonoid α] (d : ScatterDims s si u)
    (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply _ (fun n => d.resultIdx? (u.rowMajor.symm n) idx) (fun n => upd (u.rowMajor.symm n)) ?_ i
    (List.finRange u.numel) x).trans ?_
  · intro r n i'
    dsimp only
    by_cases hj : d.resultIdx? (u.rowMajor.symm n) idx = some i'
    · rw [if_pos hj, hj]; simp
    · rw [if_neg hj, add_zero]
      revert hj
      cases d.resultIdx? (u.rowMajor.symm n) idx with
      | none => intro _; rfl
      | some j =>
        intro hj
        have hne : i' ≠ j := fun e => hj (e ▸ rfl)
        show (if i' = j then _ else r i') = r i'
        rw [if_neg hne]
  congr 1
  rw [← Fin.sum_univ_def]
  exact Equiv.sum_comp u.rowMajor.symm (fun j => if d.resultIdx? j idx = some i then upd j else 0)

variable {N E : ℕ}

/-- The number of entries of the index column that name row `n`. -/
def landing (idx : IVec ⟨2, ![E, 1]⟩ 32) (n : Fin N) : ℕ := (Finset.univ.filter fun e : Fin E => lands idx e n).card

theorem landing_le (idx : IVec ⟨2, ![E, 1]⟩ 32) (n : Fin N) : landing idx n ≤ E := by
  unfold landing
  exact (Finset.card_filter_le _ _).trans (by simp)

/-- Ones scattered with integer addition into zeros count the landing entries, as a 32-bit word. -/
theorem int_count (wf : ScatterDims.WF ⟨1, ![N]⟩ ⟨2, ![E, 1]⟩ ⟨1, ![E]⟩ [] [0] [0] 1)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    Host.scatter (vecScatter N E wf) IntOp.addi x idx upd (ix1 n) = BitVec.ofNat 32 (landing idx n) := by
  refine (scatter_add_apply (α := BitVec 32) (vecScatter N E wf) x idx upd (ix1 n)).trans ?_
  rw [hx, sum_idx1]
  rw [Finset.sum_congr rfl fun e _ => if_congr (vecScatter_lands wf idx e n) (hu (ix1 e)) rfl]
  show (0 : BitVec 32) + ∑ e : Fin E, (if lands idx e n then (1 : BitVec 32) else 0) = _
  rw [zero_add, Finset.sum_boole]
  unfold landing
  exact BitVec.natCast_eq_ofNat _ _

/-- A count below 2^31 read back signed from its 32-bit word is itself. -/
theorem toInt_ofNat_of_lt (k : ℕ) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The integer count converted to a float, over the extended reals: the number of landing entries. -/
theorem int_count_real (wf : ScatterDims.WF ⟨1, ![N]⟩ ⟨2, ![E, 1]⟩ ⟨1, ![E]⟩ [] [0] [0] 1) (hE : E < 2 ^ 31)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    (((Host.scatter (vecScatter N E wf) IntOp.addi x idx upd (ix1 n)).toInt : ℝ) : EReal)
      = ((landing idx n : ℝ) : EReal) := by
  rw [int_count wf idx x upd hx hu n, toInt_ofNat_of_lt _ (lt_of_le_of_lt (landing_le idx n) hE)]
  norm_cast

/-- Ones scattered with float addition into zeros, over the extended reals: the number of landing entries. -/
theorem float_count_real (wf : ScatterDims.WF ⟨1, ![N]⟩ ⟨2, ![E, 1]⟩ ⟨1, ![E]⟩ [] [0] [0] 1)
    (idx : IVec ⟨2, ![E, 1]⟩ 32) (x : FVec Ideal ⟨1, ![N]⟩ .f32) (upd : FVec Ideal ⟨1, ![E]⟩ .f32)
    (hx : ∀ i, x i = 0) (hu : ∀ j, upd j = 1) (n : Fin N) :
    Host.scatterAdd (F := Ideal) (vecScatter N E wf) x idx upd (ix1 n) = ((landing idx n : ℝ) : EReal) := by
  rw [vecScatterAdd_apply, hx, zero_add]
  have h : ∀ e : Fin E, (if lands idx e n then upd (ix1 e) else 0) = (((if lands idx e n then 1 else 0 : ℝ)) : EReal) := fun e => by
    rw [hu]; split <;> rfl
  rw [Finset.sum_congr rfl fun e _ => h e]
  have hs : ∀ (s : Finset (Fin E)) (f : Fin E → ℝ), ∑ e ∈ s, ((f e : ℝ) : EReal) = ((∑ e ∈ s, f e : ℝ) : EReal) := fun s f => by
    classical
    induction s using Finset.induction_on with
    | empty => simp
    | insert a s ha ih => rw [Finset.sum_insert ha, Finset.sum_insert ha, EReal.coe_add, ih]
  rw [hs, Finset.sum_boole]
  rfl

end Cert.CountScatter

end
-- ==== Proof.ProjPure.lean ====
import proofs.«126740_j33818572488720_2_alg».proof.Proof.RefRead
import proofs.«126740_j33818572488720_2_alg».proof.Proof.LibColumn
import proofs.«126740_j33818572488720_2_alg».proof.Proof.LibRowVector
import proofs.«126740_j33818572488720_2_alg».proof.Proof.LibRealLaw
import proofs.«126740_j33818572488720_2_alg».proof.Proof.LibEdgeIndex
import proofs.«126740_j33818572488720_2_alg».proof.Proof.LibCountScatter
import Idealize.ShloMosaic.Lib.Pipeline.Value
import Idealize.ShloMosaic.Lib.ValueIdx
import Idealize.ShloMosaic.Lib.IdealHost

/-!
# The packed projection operands, read entry by entry

One program multiplies the node features by two weight matrices laid side by side (a `[128, 256]` array), adds a
packed bias row whose first half is zero, and keeps the two attention vectors as the two columns of a `[128, 2]`
array; the other program multiplies by each weight matrix separately. Here each packed array is read at an entry,
the two halves of the packed product are identified with the two separate products, and the values that later
enter a rescaling (the product with the first weight matrix, and the inverse square root of the degree) are
shown to be real numbers.
-/

noncomputable section

namespace Cert.Bridge.ProjPure

open Cert.ReferenceIdeal Cert.ReferenceIdeal.ReadP Idealize.ShloMosaic Idealize.ShloMosaic.ValueIdx Cert.Scores

/-- The shapes of the packed arrays. -/
abbrev T128x256 : Shape := ⟨2, ![128, 256]⟩
abbrev T1x256 : Shape := ⟨2, ![1, 256]⟩
abbrev T128x1 : Shape := ⟨2, ![128, 1]⟩
abbrev T128x2 : Shape := ⟨2, ![128, 2]⟩
abbrev T1x2 : Shape := ⟨2, ![1, 2]⟩

/-! ## The two weight matrices side by side -/

/-- Column `j` of the packed weights is column `j` of the first matrix. -/
theorem Wc_lo (hW : Shape.Concatenates [S128x128, S128x128] T128x256 1) (x4 x6 : S128x128.Idx → EReal) (k j : Fin 128) :
    concatenate T128x256 1 [⟨S128x128, x4⟩, ⟨S128x128, x6⟩] hW (ix2 k (⟨j.val, by have := j.isLt; omega⟩ : Fin 256)) = x4 (ix2 k j) :=
  concatenate_pair_apply_left 1 x4 x6 hW _ rfl (ix2 k j) (fun b => by
    match b with
    | ⟨0, _⟩ => rfl
    | ⟨1, _⟩ => rfl)

/-- Column `128 + j` of the packed weights is column `j` of the second matrix. -/
theorem Wc_hi (hW : Shape.Concatenates [S128x128, S128x128] T128x256 1) (x4 x6 : S128x128.Idx → EReal) (k j : Fin 128) :
    concatenate T128x256 1 [⟨S128x128, x4⟩, ⟨S128x128, x6⟩] hW (ix2 k (⟨128 + j.val, by have := j.isLt; omega⟩ : Fin 256)) = x6 (ix2 k j) :=
  concatenate_pair_apply_right 1 x4 x6 hW _ rfl rfl (ix2 k j) (fun b hb => by
    match b, hb with
    | ⟨0, _⟩, _ => rfl
    | ⟨1, _⟩, hb => exact absurd (Fin.ext rfl) hb) (by show j.val + 128 = 128 + j.val; omega)

/-! ## The packed bias row: zeros, then the second bias -/

/-- The first half of the packed bias row is zero. -/
theorem Bc_lo (hB0 : S_.BroadcastsInDim S128 (![] : Fin 0 → Fin S128.rank)) (hB2 : Shape.Concatenates [S128, S128] S256 0) (hB1 : S256.BroadcastsInDim T1x256 (![1] : Fin 1 → Fin T1x256.rank)) (x7 : S128.Idx → EReal) (j : Fin 128) :
    broadcastInDim T1x256 ![1] hB1 (concatenate S256 0 [⟨S128, broadcastInDim S128 ![] hB0 (constant (F := Ideal) S_ .f32 0x00000000#32)⟩, ⟨S128, x7⟩] hB2) (ix2 (0 : Fin 1) (⟨j.val, by have := j.isLt; omega⟩ : Fin 256)) = 0 := by
  refine (Cert.RowVector.broadcast_apply _ hB1 _).trans ?_
  refine (concatenate_pair_apply_left 0 _ x7 hB2 _ rfl (ix1 j) (fun b => by
    match b with
    | ⟨0, _⟩ => rfl)).trans ?_
  refine (broadcastInDim_scalar_apply hB0 _ _).trans ?_
  exact Ideal.ofBits_zero_f32

/-- The second half of the packed bias row is the second bias. -/
theorem Bc_hi (hB0 : S_.BroadcastsInDim S128 (![] : Fin 0 → Fin S128.rank)) (hB2 : Shape.Concatenates [S128, S128] S256 0) (hB1 : S256.BroadcastsInDim T1x256 (![1] : Fin 1 → Fin T1x256.rank)) (x7 : S128.Idx → EReal) (j : Fin 128) :
    broadcastInDim T1x256 ![1] hB1 (concatenate S256 0 [⟨S128, broadcastInDim S128 ![] hB0 (constant (F := Ideal) S_ .f32 0x00000000#32)⟩, ⟨S128, x7⟩] hB2) (ix2 (0 : Fin 1) (⟨128 + j.val, by have := j.isLt; omega⟩ : Fin 256)) = x7 (ix1 j) := by
  refine (Cert.RowVector.broadcast_apply _ hB1 _).trans ?_
  exact concatenate_pair_apply_right 0 _ x7 hB2 _ rfl rfl (ix1 j) (fun b hb => by
    match b, hb with
    | ⟨0, _⟩, hb => exact absurd (Fin.ext rfl) hb) (by show j.val + 128 = 128 + j.val; omega)

/-! ## The two attention vectors as two columns, and their packed bias -/

theorem P3a (hA0 : S256x1.Slices ![0, 0] T128x1) (hA1 : S256x1.Slices ![128, 0] T128x1) (hA : Shape.Concatenates [T128x1, T128x1] T128x2 1) (x12 : S256x1.Idx → EReal) (k : Fin 128) :
    concatenate T128x2 1 [⟨T128x1, extractStridedSlice T128x1 ![0, 0] x12 hA0⟩, ⟨T128x1, extractStridedSlice T128x1 ![128, 0] x12 hA1⟩] hA (ix2 k (0 : Fin 2)) = x12 (ix2 (⟨k.val, by have := k.isLt; omega⟩ : Fin 256) (0 : Fin 1)) := by
  refine (concatenate_pair_apply_left 1 _ _ hA _ rfl (ix2 k (0 : Fin 1)) (fun b => by
    match b with
    | ⟨0, _⟩ => rfl
    | ⟨1, _⟩ => rfl)).trans ?_
  exact extractStridedSlice_apply _ x12 hA0 _ _ (fun a => by
    match a with
    | ⟨0, _⟩ => show k.val = 0 + k.val; omega
    | ⟨1, _⟩ => rfl)

theorem P3b (hA0 : S256x1.Slices ![0, 0] T128x1) (hA1 : S256x1.Slices ![128, 0] T128x1) (hA : Shape.Concatenates [T128x1, T128x1] T128x2 1) (x12 : S256x1.Idx → EReal) (k : Fin 128) :
    concatenate T128x2 1 [⟨T128x1, extractStridedSlice T128x1 ![0, 0] x12 hA0⟩, ⟨T128x1, extractStridedSlice T128x1 ![128, 0] x12 hA1⟩] hA (ix2 k (1 : Fin 2)) = x12 (ix2 (⟨128 + k.val, by have := k.isLt; omega⟩ : Fin 256) (0 : Fin 1)) := by
  refine (concatenate_pair_apply_right 1 _ _ hA _ rfl rfl (ix2 k (0 : Fin 1)) (fun b hb => by
    match b, hb with
    | ⟨0, _⟩, _ => rfl
    | ⟨1, _⟩, hb => exact absurd (Fin.ext rfl) hb) rfl).trans ?_
  exact extractStridedSlice_apply _ x12 hA1 _ _ (fun a => by
    match a with
    | ⟨0, _⟩ => rfl
    | ⟨1, _⟩ => rfl)

theorem P3c (hC0 : S1.ShapeCasts S1x1) (hC1 : S_.BroadcastsInDim S1x1 (![] : Fin 0 → Fin S1x1.rank)) (hC : Shape.Concatenates [S1x1, S1x1] T1x2 1) (x13 : S1.Idx → EReal) :
    concatenate T1x2 1 [⟨S1x1, shapeCast S1x1 x13 hC0⟩, ⟨S1x1, broadcastInDim S1x1 ![] hC1 (constant (F := Ideal) S_ .f32 0x00000000#32)⟩] hC (ix2 (0 : Fin 1) (0 : Fin 2)) = x13 (ix1 (0 : Fin 1)) := by
  refine (concatenate_pair_apply_left 1 _ _ hC _ rfl (ix2 (0 : Fin 1) (0 : Fin 1)) (fun b => by
    match b with
    | ⟨0, _⟩ => rfl
    | ⟨1, _⟩ => rfl)).trans ?_
  exact Cert.GraphConv.Column.shapeCast_a_a1_apply x13 hC0 0 0

theorem P3d (hC0 : S1.ShapeCasts S1x1) (hC1 : S_.BroadcastsInDim S1x1 (![] : Fin 0 → Fin S1x1.rank)) (hC : Shape.Concatenates [S1x1, S1x1] T1x2 1) (x13 : S1.Idx → EReal) :
    concatenate T1x2 1 [⟨S1x1, shapeCast S1x1 x13 hC0⟩, ⟨S1x1, broadcastInDim S1x1 ![] hC1 (constant (F := Ideal) S_ .f32 0x00000000#32)⟩] hC (ix2 (0 : Fin 1) (1 : Fin 2)) = 0 := by
  refine (concatenate_pair_apply_right 1 _ _ hC _ rfl rfl (ix2 (0 : Fin 1) (0 : Fin 1)) (fun b hb => by
    match b, hb with
    | ⟨0, _⟩, _ => rfl
    | ⟨1, _⟩, hb => exact absurd (Fin.ext rfl) hb) rfl).trans ?_
  refine (broadcastInDim_scalar_apply hC1 _ _).trans ?_
  exact Ideal.ofBits_zero_f32

/-! ## The two halves of the packed product are the two separate products -/

theorem P1 (hW : Shape.Concatenates [S128x128, S128x128] T128x256 1) (hB0 : S_.BroadcastsInDim S128 (![] : Fin 0 → Fin S128.rank)) (hB2 : Shape.Concatenates [S128, S128] S256 0) (hB1 : S256.BroadcastsInDim T1x256 (![1] : Fin 1 → Fin T1x256.rank)) (x0 : S50000x128.Idx → EReal) (x4 x6 : S128x128.Idx → EReal) (x7 : S128.Idx → EReal)
    (r : Fin 50000) (j : Fin 128) :
    (∑ k : Fin 128, x0 (ix2 r k) * concatenate T128x256 1 [⟨S128x128, x4⟩, ⟨S128x128, x6⟩] hW (ix2 k (⟨j.val, by have := j.isLt; omega⟩ : Fin 256)))
        + broadcastInDim T1x256 ![1] hB1 (concatenate S256 0 [⟨S128, broadcastInDim S128 ![] hB0 (constant (F := Ideal) S_ .f32 0x00000000#32)⟩, ⟨S128, x7⟩] hB2) (ix2 (0 : Fin 1) (⟨j.val, by have := j.isLt; omega⟩ : Fin 256))
      = (val_main_v4 (F := Ideal) x0 x4 : S50000x128.Idx → EReal) (ix2 r j) := by
  rw [Bc_lo hB0 hB2 hB1 x7 j, add_zero, val_main_v4_apply]
  refine Finset.sum_congr rfl fun k _ => ?_
  have el : lidx_main_v4 (ix2 r j) k = ix2 r k := funext fun a => by
    match a with
    | ⟨0, _⟩ => rfl
    | ⟨1, _⟩ => rfl
  have er : ridx_main_v4 (ix2 r j) k = ix2 k j := funext fun a => by
    match a with
    | ⟨0, _⟩ => rfl
    | ⟨1, _⟩ => rfl
  rw [Wc_lo hW x4 x6 k j, el, er]

theorem P2 (hW : Shape.Concatenates [S128x128, S128x128] T128x256 1) (hB0 : S_.BroadcastsInDim S128 (![] : Fin 0 → Fin S128.rank)) (hB2 : Shape.Concatenates [S128, S128] S256 0) (hB1 : S256.BroadcastsInDim T1x256 (![1] : Fin 1 → Fin T1x256.rank)) (x0 : S50000x128.Idx → EReal) (x4 x6 : S128x128.Idx → EReal) (x7 : S128.Idx → EReal)
    (r : Fin 50000) (j : Fin 128) :
    (∑ k : Fin 128, x0 (ix2 r k) * concatenate T128x256 1 [⟨S128x128, x4⟩, ⟨S128x128, x6⟩] hW (ix2 k (⟨128 + j.val, by have := j.isLt; omega⟩ : Fin 256)))
        + broadcastInDim T1x256 ![1] hB1 (concatenate S256 0 [⟨S128, broadcastInDim S128 ![] hB0 (constant (F := Ideal) S_ .f32 0x00000000#32)⟩, ⟨S128, x7⟩] hB2) (ix2 (0 : Fin 1) (⟨128 + j.val, by have := j.isLt; omega⟩ : Fin 256))
      = (val_main_v52 (F := Ideal) x0 x6 x7 : S50000x128.Idx → EReal) (ix2 r j) := by
  rw [Bc_hi hB0 hB2 hB1 x7 j]
  show _ = val_main_v49 (F := Ideal) x0 x6 (ix2 r j) + val_main_v51 (F := Ideal) x7 (ix2 r j)
  rw [val_main_v49_apply, val_main_v51_apply, val_main_v50_apply]
  have eb : idx_main_v50 (idx_main_v51 (ix2 r j)) = ix1 j := funext fun a => by
    match a with
    | ⟨0, _⟩ => rfl
  rw [eb]
  refine congrArg (· + x7 (ix1 j)) (Finset.sum_congr rfl fun k _ => ?_)
  have el : lidx_main_v49 (ix2 r j) k = ix2 r k := funext fun a => by
    match a with
    | ⟨0, _⟩ => rfl
    | ⟨1, _⟩ => rfl
  have er : ridx_main_v49 (ix2 r j) k = ix2 k j := funext fun a => by
    match a with
    | ⟨0, _⟩ => rfl
    | ⟨1, _⟩ => rfl
  rw [Wc_hi hW x4 x6 k j, el, er]

/-! ## Real values -/

/-- The product of the features with the first weight matrix is real when both factors are. -/
theorem xw_real (x0 : S50000x128.Idx → EReal) (x4 : S128x128.Idx → EReal) (h0 : ∀ i, IsReal (x0 i)) (h4 : ∀ i, IsReal (x4 i))
    (i : S50000x128.Idx) : IsReal ((val_main_v4 (F := Ideal) x0 x4 : S50000x128.Idx → EReal) i) := by
  rw [val_main_v4_apply]
  exact IsReal.sum _ fun k => (h0 _).mul (h4 _)

/-- The bit pattern of minus one half. -/
theorem ofBits_neg_half : Ideal.ofBits .f32 0xBF000000#32 = ((-(1 / 2 : ℝ) : ℝ) : EReal) := by
  simp [Ideal.ofBits, Ideal.ieee, -EReal.coe_mul, -EReal.coe_neg]; norm_num

/-- The degree of a node — ones added at the target of every edge and of every self loop — is the number of
    those entries, a real number. -/
theorem deg_real (x2 : IVec S2x800000 32) (n : Fin 50000) :
    (val_main_v11 (F := Ideal) x2 : S50000.Idx → EReal) (ix1 n)
      = ((Cert.CountScatter.landing (val_main_v10 (F := Ideal) x2) n : ℝ) : EReal) :=
  Cert.CountScatter.float_count_real (N := 50000) (E := 850000) _ (val_main_v10 (F := Ideal) x2)
    (val_main_v9 (F := Ideal)) (val_main_v8 (F := Ideal))
    (fun i => (val_main_v9_apply i).trans Ideal.ofBits_zero_f32)
    (fun i => (val_main_v8_apply i).trans Ideal.ofBits_one_f32) n

/-- The inverse square root of the degree (zero where the degree is not positive) is a real number. -/
theorem dinv_real (x2 : IVec S2x800000 32) (i : S50000.Idx) :
    IsReal ((val_main_v16 (F := Ideal) x2 : S50000.Idx → EReal) i) := by
  obtain ⟨n, rfl⟩ : ∃ n : Fin 50000, i = ix1 n := ⟨i 0, eq_ix1 i⟩
  show IsReal (Scalar.select (val_main_v13 (F := Ideal) x2 (ix1 n)) (val_main_v15 (F := Ideal) x2 (ix1 n)) (val_main_call0_v1 (F := Ideal) (ix1 n)))
  unfold Scalar.select
  split
  · rw [val_main_v15_apply, Ideal.hostPowf_def, deg_real, val_main_v14_apply, val_main_cst_2_apply, Ideal.ofBits_def,
      ofBits_neg_half, Ideal.pow_coe_coe]
    exact isReal_coe _
  · rw [val_main_call0_v1_apply, val_main_call0_v0_apply, val_main_cst_3_apply, Ideal.ofBits_def, Ideal.ofBits_zero_f32]
    exact isReal_zero

end Cert.Bridge.ProjPure
-- ==== Proof.StageProj.lean ====
/-
  The first kernel's three outputs are the reference's stages.

  The projection kernel multiplies the node features by the two projection weights laid side by side and adds the
  stacked bias (a zero half beside the second bias); its first output is the first projection, its second the second
  projection with its bias, and its third the two attention scalars per node: the second output against the two
  halves of the attention weight column, the attention bias added to the first.
-/
import proofs.«126740_j33818572488720_2_alg».proof.Proof.KHost
import proofs.«126740_j33818572488720_2_alg».proof.Proof.Proj
import proofs.«126740_j33818572488720_2_alg».proof.Proof.ProjPure

set_option maxRecDepth 16384

noncomputable section

namespace Cert.Bridge.StageProj

open Cert.KernelIdeal Cert.KernelIdeal.Gen Cert.ReferenceIdeal.ReadP Cert.Bridge.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second projection, the attention scalars, the attention weight column and the attention bias, as functions
    to the extended reals. -/
abbrev xlF (c : Dev nD) : S50000x128.Idx → EReal := xlK m ρ c
abbrev abF (c : Dev nD) : S50000x2.Idx → EReal := abK m ρ c
abbrev attW (c : Dev nD) : S256x1.Idx → EReal := arg m c main_arg12
abbrev attB (c : Dev nD) : S1.Idx → EReal := arg m c main_arg13

/-- The first output is the reference's first projection. -/
theorem xw_eq (c : Dev nD) :
    (xwK m ρ c : S50000x128.Idx → EReal) = (val_main_v4 (F := Ideal) (arg m c main_arg0) (arg m c main_arg4) : S50000x128.Idx → EReal) := by
  funext i
  obtain ⟨r, j, rfl⟩ : ∃ (r : Fin 50000) (j : Fin 128), i = ix2 r j := ⟨i 0, i 1, eq_ix2 i⟩
  have h1 : (xwK m ρ c : S50000x128.Idx → EReal) = ((dat0 (F := Ideal) (V1 m ρ) c).arrAt 5 cfg0.N : S50000x128.Idx → EReal) := W2_arr m ρ c 5
  rw [h1, Cert.Bridge.Proj.xw_apply (V1 m ρ) c r j]
  have hX : Cert.Bridge.Proj.X (V1 m ρ) c = (arg m c main_arg0 : S50000x128.Idx → EReal) := W1_arg0 m ρ c
  have hW := W1_v4 m ρ c
  have hB := W1_v7 m ρ c
  rw [hX, show Cert.Bridge.Proj.Wc (V1 m ρ) c = _ from hW, show Cert.Bridge.Proj.Bc (V1 m ρ) c = _ from hB]
  exact Cert.Bridge.ProjPure.P1 _ _ _ _ _ _ _ _ r j

/-- The second output is the reference's second projection with its bias. -/
theorem xl_eq (c : Dev nD) :
    (xlK m ρ c : S50000x128.Idx → EReal) = (val_main_v52 (F := Ideal) (arg m c main_arg0) (arg m c main_arg6) (arg m c main_arg7) : S50000x128.Idx → EReal) := by
  funext i
  obtain ⟨r, j, rfl⟩ : ∃ (r : Fin 50000) (j : Fin 128), i = ix2 r j := ⟨i 0, i 1, eq_ix2 i⟩
  have h1 : (xlK m ρ c : S50000x128.Idx → EReal) = ((dat0 (F := Ideal) (V1 m ρ) c).arrAt 6 cfg0.N : S50000x128.Idx → EReal) := W2_arr m ρ c 6
  rw [h1, Cert.Bridge.Proj.xl_apply (V1 m ρ) c r j]
  have hX : Cert.Bridge.Proj.X (V1 m ρ) c = (arg m c main_arg0 : S50000x128.Idx → EReal) := W1_arg0 m ρ c
  have hW := W1_v4 m ρ c
  have hB := W1_v7 m ρ c
  rw [hX, show Cert.Bridge.Proj.Wc (V1 m ρ) c = _ from hW, show Cert.Bridge.Proj.Bc (V1 m ρ) c = _ from hB]
  exact Cert.Bridge.ProjPure.P2 _ _ _ _ _ _ _ _ r j

/-- The third output at `(r, u)`: the second output's row against column `u` of the split attention weight, plus
    entry `u` of the attention bias row. -/
theorem ab_eq (c : Dev nD) (r : Fin 50000) (u : Fin 2) :
    abF m ρ c (ix2 r u)
      = (∑ k : Fin 128, xlF m ρ c (ix2 r k) * Cert.Bridge.Proj.Aw (V1 m ρ) c (ix2 k u))
        + Cert.Bridge.Proj.Ab (V1 m ρ) c (ix2 (0 : Fin 1) u) := by
  have h7 : abF m ρ c = ((dat0 (F := Ideal) (V1 m ρ) c).arrAt 7 cfg0.N : S50000x2.Idx → EReal) := W2_arr m ρ c 7
  have h6 : xlF m ρ c = ((dat0 (F := Ideal) (V1 m ρ) c).arrAt 6 cfg0.N : S50000x128.Idx → EReal) := W2_arr m ρ c 6
  rw [h7, h6, Cert.Bridge.Proj.ab_apply (V1 m ρ) c r u]
  simp only [Cert.Bridge.Proj.xl_apply (V1 m ρ) c r]

/-- The target's attention scalar: the second projection's row against the first half of the attention weight, plus
    the attention bias. -/
theorem ab0_eq (c : Dev nD) (r : Fin 50000) :
    abF m ρ c (ix2 r (0 : Fin 2))
      = (∑ k : Fin 128, xlF m ρ c (ix2 r k)
            * attW m c (ix2 (⟨k.val, by have := k.isLt; omega⟩ : Fin 256) (0 : Fin 1)))
        + attB m c (ix1 (0 : Fin 1)) := by
  rw [ab_eq m ρ c r 0]
  have hA := W1_v10 m ρ c
  have hb := W1_v13 m ρ c
  rw [show Cert.Bridge.Proj.Aw (V1 m ρ) c = _ from hA, show Cert.Bridge.Proj.Ab (V1 m ρ) c = _ from hb]
  refine congrArg₂ (· + ·) (Finset.sum_congr rfl fun k _ => congrArg _ ?_) ?_
  · exact Cert.Bridge.ProjPure.P3a _ _ _ _ k
  · exact Cert.Bridge.ProjPure.P3c _ _ _ _

/-- The source's attention scalar: the second projection's row against the second half of the attention weight. -/
theorem ab1_eq (c : Dev nD) (r : Fin 50000) :
    abF m ρ c (ix2 r (1 : Fin 2))
      = (∑ k : Fin 128, xlF m ρ c (ix2 r k)
            * attW m c (ix2 (⟨128 + k.val, by have := k.isLt; omega⟩ : Fin 256) (0 : Fin 1)))
        + 0 := by
  rw [ab_eq m ρ c r 1]
  have hA := W1_v10 m ρ c
  have hb := W1_v13 m ρ c
  rw [show Cert.Bridge.Proj.Aw (V1 m ρ) c = _ from hA, show Cert.Bridge.Proj.Ab (V1 m ρ) c = _ from hb]
  refine congrArg₂ (· + ·) (Finset.sum_congr rfl fun k _ => congrArg _ ?_) ?_
  · exact Cert.Bridge.ProjPure.P3b _ _ _ _ k
  · exact Cert.Bridge.ProjPure.P3d _ _ _ _

end Cert.Bridge.StageProj

end
-- ==== Proof.Gcn.lean ====
/-
  The graph-convolution normalisation, moved across the aggregation.

  Node `n` aggregates over the edges `e` that land on it.  One program weights every message by the product of
  the two endpoints' normalisers, `(a e * d e) * x e`, and then sums; the other weights each message by the
  source's normaliser only, sums, and multiplies the sum by the target's normaliser `t`.  On an edge that lands on
  `n` the target's normaliser is the node's own, `d e = t`.  On the extended reals a factor moves across a sum only
  when no term is infinite, so the law is stated for entries that are real numbers.
-/
import proofs.«126740_j33818572488720_2_alg».proof.Proof.LibRealLaw

noncomputable section

namespace Cert.Bridge.Gcn

open Cert.Scores

/-- The aggregation with both normalisers inside is the target's normaliser times the aggregation with the
    source's normaliser inside: `0 + ∑ e lands, (a e * d e) * x e = t * (0 + ∑ e lands, a e * x e)`. -/
theorem scale_out {E : ℕ} (L : Fin E → Prop) [DecidablePred L] (a d x : Fin E → EReal) (t : EReal)
    (hd : ∀ e, L e → d e = t) (ha : ∀ e, IsReal (a e)) (hx : ∀ e, IsReal (x e)) (ht : IsReal t) :
    (0 + ∑ e : Fin E, if L e then (a e * d e) * x e else 0)
      = t * (0 + ∑ e : Fin E, if L e then a e * x e else 0) := by
  rw [zero_add, zero_add]
  have h1 : ∀ e, (if L e then (a e * d e) * x e else 0) = ((if L e then a e else 0) * t) * x e := fun e => by
    by_cases h : L e
    · rw [if_pos h, if_pos h, hd e h]
    · rw [if_neg h, if_neg h, zero_mul, zero_mul]
  have h2 : ∀ e, (if L e then a e * x e else 0) = (if L e then a e else 0) * x e := fun e => by
    by_cases h : L e
    · rw [if_pos h, if_pos h]
    · rw [if_neg h, if_neg h, zero_mul]
  simp only [h1, h2]
  exact scaled_inner _ _ _ (fun e => by
    by_cases h : L e
    · rw [if_pos h]; exact ha e
    · rw [if_neg h]; exact isReal_zero) hx ht

end Cert.Bridge.Gcn

end
-- ==== Proof.IndexNorm.lean ====
/-
  Index columns: an entry that names a node.

  An edge's endpoint is a 32-bit word.  A gather first wraps a negative word by adding the number of nodes and then
  clamps into range; a scatter uses the word as it is and drops the update when it is out of range.  When the word
  names node `n` exactly (as a signed integer, `0 ≤ n < N`), it is not negative, so the wrap leaves it alone, and
  the clamp leaves it alone: the gather reads row `n`, the row the scatter adds into.
-/
import proofs.«126740_j33818572488720_2_alg».proof.Proof.LibEdgeIndex

noncomputable section

namespace Cert.Bridge.IndexNorm

open Idealize.ShloMosaic Idealize.ShloMosaic.ValueIdx Cert.EdgeIndex

/-- A word that names a natural number is not negative: the wrap of negative words returns it unchanged. -/
theorem wrap_eq_self (v k : BitVec 32) (n : ℕ) (h : v.toInt = (n : Int)) :
    Scalar.select (IntOp.cmpi .slt v 0#32) (IntOp.addi v k) v = v := by
  have hs : v.slt 0#32 = false := by
    rw [BitVec.slt_eq_decide, h]
    simp
  unfold Scalar.select IntOp.cmpi
  simp only [hs]
  rfl

/-- The clamped row of an entry that names node `n` is `n`. -/
theorem rowOf_of_lands {N E w : ℕ} (hN : 0 < N) (idx : IVec ⟨2, ![E, 1]⟩ w) (e : Fin E) (n : Fin N)
    (h : lands idx e n) : rowOf hN idx e = n := by
  apply Fin.ext
  unfold rowOf lands at *
  simp only [h, Int.toNat_natCast]
  have := n.isLt
  omega

end Cert.Bridge.IndexNorm

end
-- ==== Proof.GcnPure.lean ====
/-
  The graph convolution: normalisation inside the aggregation against normalisation around it.

  With `d` the inverse square root of the degree (zero on an isolated node), `xw` the projected features, and, for
  every edge `e` (the self loops included), `s e` its source row and `L e` the fact that it lands on node `n`:
  the reference's aggregate at `(n, j)` is `0 + ∑ e, L e, (d (s e) * d (t e)) * xw (s e, j)` with `t e` the edge's
  wrapped and clamped target row, which is `n` on a landing edge; the other program's is
  `d n * (0 + ∑ e, L e, d (s e) * xw (s e, j))`.  All entries are real numbers, so the factor `d n` moves across the sum.
-/
import proofs.«126740_j33818572488720_2_alg».proof.Proof.RefRead
import proofs.«126740_j33818572488720_2_alg».proof.Proof.LibEdgeIndex
import proofs.«126740_j33818572488720_2_alg».proof.Proof.LibBroadcasts
import proofs.«126740_j33818572488720_2_alg».proof.Proof.Gcn
import proofs.«126740_j33818572488720_2_alg».proof.Proof.IndexNorm

set_option maxRecDepth 16384

noncomputable section

namespace Cert.Bridge.GcnPure

open Cert.ReferenceIdeal Cert.ReferenceIdeal.ReadP
open Idealize.ShloMosaic Idealize.ShloMosaic.ValueIdx Cert.Scores Cert.EdgeIndex Cert.Broadcasts

variable (x0 : (⟨S50000x128, .f32⟩ : BufTy).Contents (Elt Ideal)) (x2 : (⟨S2x800000, .i32⟩ : BufTy).Contents (Elt Ideal))
  (x4 : (⟨S128x128, .f32⟩ : BufTy).Contents (Elt Ideal)) (x5 : (⟨S128, .f32⟩ : BufTy).Contents (Elt Ideal))

/-- The normaliser per node. -/
abbrev dinv : S50000.Idx → EReal := val_main_v16 (F := Ideal) x2
/-- The projected features. -/
abbrev xw : S50000x128.Idx → EReal := val_main_v4 (F := Ideal) x0 x4
/-- The edges' targets as words (self loops appended), in a column: what the aggregation scatters through. -/
abbrev tcol : IVec S850000x1 32 := val_main_v43 (F := Ideal) x2
/-- The edges' sources, wrapped, in a column: what the features are gathered through. -/
abbrev scol : IVec S850000x1 32 := val_main_v38 (F := Ideal) x2
/-- The edges' targets, wrapped, in a column: what the reference gathers the target's normaliser through. -/
abbrev tcolW : IVec S850000x1 32 := val_main_v29 (F := Ideal) x2

theorem h50000 : 0 < 50000 := by decide

/-- The literal zero word splat over the edges reads zero. -/
theorem v24_apply (i : S850000.Idx) : val_main_v24 (F := Ideal) i = 0#32 := by
  unfold val_main_v24
  rw [splat_apply]
  rfl

/-- On an edge that lands on node `n` the wrapped, clamped target row is `n`. -/
theorem target_row (e : Fin 850000) (n : Fin 50000) (h : lands (tcol x2) e n) : rowOf h50000 (tcolW x2) e = n := by
  apply Cert.Bridge.IndexNorm.rowOf_of_lands
  unfold lands at h ⊢
  have h7 : val_main_v43 (F := Ideal) x2 (at0 e) = val_main_v7 (F := Ideal) x2 (ix1 e) := by
    unfold val_main_v43; exact column_apply _ _ e 0
  have h29 : val_main_v29 (F := Ideal) x2 (at0 e) = val_main_v28 (F := Ideal) x2 (ix1 e) := by
    unfold val_main_v29; exact column_apply _ _ e 0
  have hw : val_main_v28 (F := Ideal) x2 (ix1 e) = val_main_v7 (F := Ideal) x2 (ix1 e) := by
    rw [val_main_v28_apply, val_main_v25_apply, val_main_v27_apply, v24_apply]
    exact Cert.Bridge.IndexNorm.wrap_eq_self _ _ n.val (h7 ▸ h)
  show (val_main_v29 (F := Ideal) x2 (at0 e)).toInt = _
  rw [h29, hw, ← h7]
  exact h

/-- A product of two arrays at an index. -/
theorem mulf_at {s : Shape} (x y : FVec Ideal s .f32) (i : s.Idx) :
    (mulf (F := Ideal) x y : s.Idx → EReal) i = (x : s.Idx → EReal) i * (y : s.Idx → EReal) i := rfl

/-- The per-node scalar laid along the channels, at `(n, j)`. -/
theorem perNode_apply (hp0 : S50000.BroadcastsInDim S50000x1 ![0]) (hp1 : S50000x1.BroadcastsInDim S50000x128 ![0, 1])
    (d : S50000.Idx → EReal) (n : Fin 50000) (j : Fin 128) :
    (broadcastInDim S50000x128 ![0, 1] hp1 (broadcastInDim S50000x1 ![0] hp0 d) : S50000x128.Idx → EReal) (ix2 n j) = d (ix1 n) :=
  alongColumns_apply d hp0 hp1 n j

/-- The zero operand of the aggregation reads zero. -/
theorem v42_apply (n : Fin 50000) (j : Fin 128) : (val_main_v42 (F := Ideal) : S50000x128.Idx → EReal) (ix2 n j) = 0 := by
  unfold val_main_v42 val_main_cst_9
  rw [splat_apply]
  exact Ideal.ofBits_zero_f32

/-- One message of the reference, at `(e, j)`: both normalisers times the source's projected feature. -/
theorem v41_apply (e : Fin 850000) (j : Fin 128) :
    (val_main_v41 (F := Ideal) x0 x2 x4 : S850000x128.Idx → EReal) (ix2 e j)
      = (dinv x2 (ix1 (rowOf h50000 (scol x2) e)) * dinv x2 (ix1 (rowOf h50000 (tcolW x2) e)))
          * xw x0 x4 (ix2 (rowOf h50000 (scol x2) e) j) := by
  have a40 : (val_main_v40 (F := Ideal) x2 : S850000x128.Idx → EReal) (ix2 e j) = (val_main_v31 (F := Ideal) x2 : S850000.Idx → EReal) (ix1 e) := by
    unfold val_main_v40 val_main_v32
    exact alongColumns_apply _ _ _ e j
  have a23 : (val_main_v23 (F := Ideal) x2 : S850000.Idx → EReal) (ix1 e) = dinv x2 (ix1 (rowOf h50000 (scol x2) e)) := by
    unfold val_main_v23
    exact vecGather_apply h50000 gather_S50000_S850000x1_S850000_n_0_n_n_0_1_1.wf (val_main_v16 (F := Ideal) x2) (val_main_v22 (F := Ideal) x2) e
  have a30 : (val_main_v30 (F := Ideal) x2 : S850000.Idx → EReal) (ix1 e) = dinv x2 (ix1 (rowOf h50000 (tcolW x2) e)) := by
    unfold val_main_v30
    exact vecGather_apply h50000 gather_S50000_S850000x1_S850000_n_0_n_n_0_1_1.wf (val_main_v16 (F := Ideal) x2) (val_main_v29 (F := Ideal) x2) e
  have a39 : (val_main_v39 (F := Ideal) x0 x2 x4 : S850000x128.Idx → EReal) (ix2 e j) = xw x0 x4 (ix2 (rowOf h50000 (scol x2) e) j) := by
    unfold val_main_v39
    exact rowGather_apply h50000 gather_S50000x128_S850000x1_S850000x128_1_0_n_n_0_1_1128.wf (val_main_v4 (F := Ideal) x0 x4) (val_main_v38 (F := Ideal) x2) e j
  rw [val_main_v41_apply, Ideal.mulf_def, a40, a39, val_main_v31_apply, Ideal.mulf_def, a23, a30]

/-- The reference's aggregate plus bias at `(n, j)`: the sum over the landing edges, both normalisers inside. -/
theorem reference_side (n : Fin 50000) (j : Fin 128) :
    (val_main_v47 (F := Ideal) x0 x2 x4 x5 : S50000x128.Idx → EReal) (ix2 n j)
      = (0 + ∑ e : Fin 850000, if lands (tcol x2) e n then
            (dinv x2 (ix1 (rowOf h50000 (scol x2) e)) * dinv x2 (ix1 (rowOf h50000 (tcolW x2) e)))
              * xw x0 x4 (ix2 (rowOf h50000 (scol x2) e) j) else 0)
        + (x5 : S128.Idx → EReal) (ix1 j) := by
  have e46 : (val_main_v46 (F := Ideal) x5 : S50000x128.Idx → EReal) (ix2 n j) = (x5 : S128.Idx → EReal) (ix1 j) := by
    unfold val_main_v46 val_main_v45
    exact downRows_apply _ _ _ n j
  have e44 : (val_main_v44 (F := Ideal) x0 x2 x4 : S50000x128.Idx → EReal) (ix2 n j)
      = (val_main_v42 (F := Ideal) : S50000x128.Idx → EReal) (ix2 n j)
        + ∑ e : Fin 850000, if lands (val_main_v43 (F := Ideal) x2) e n then (val_main_v41 (F := Ideal) x0 x2 x4 : S850000x128.Idx → EReal) (ix2 e j) else 0 := by
    unfold val_main_v44
    exact rowScatterAdd_apply scatter_S50000x128_S850000x1_S850000x128_1_0_0_1.wf (val_main_v42 (F := Ideal)) (val_main_v43 (F := Ideal) x2) (val_main_v41 (F := Ideal) x0 x2 x4) n j
  rw [val_main_v47_apply, Ideal.addf_def, e46, e44, v42_apply]
  refine congrArg (· + (x5 : S128.Idx → EReal) (ix1 j)) (congrArg (0 + ·) (Finset.sum_congr rfl fun e _ => ?_))
  by_cases hl : lands (val_main_v43 (F := Ideal) x2) e n
  · rw [if_pos hl, if_pos hl]; exact v41_apply x0 x2 x4 e j
  · rw [if_neg hl, if_neg hl]

/-- THE BRIDGE of the graph-convolution branch, at `(n, j)`: the normaliser times the aggregate of the pre-scaled
    source rows, plus the bias, is the reference's aggregate plus bias. -/
theorem gcn_pure (hxw : ∀ i, IsReal (xw x0 x4 i)) (hd : ∀ i, IsReal (dinv x2 i))
    (hp0 : S50000.BroadcastsInDim S50000x1 ![0]) (hp1 : S50000x1.BroadcastsInDim S50000x128 ![0, 1])
    (n : Fin 50000) (j : Fin 128) :
    (mulf (F := Ideal) (φ := .f32) (broadcastInDim S50000x128 ![0, 1] hp1 (broadcastInDim S50000x1 ![0] hp0 (val_main_v16 (F := Ideal) x2)))
        (Host.scatterAdd (F := Ideal) (φ := .f32) scatter_S50000x128_S850000x1_S850000x128_1_0_0_1 (val_main_v42 (F := Ideal)) (val_main_v43 (F := Ideal) x2)
          (Host.gather gather_S50000x128_S850000x1_S850000x128_1_0_n_n_0_1_1128
            (mulf (F := Ideal) (φ := .f32) (broadcastInDim S50000x128 ![0, 1] hp1 (broadcastInDim S50000x1 ![0] hp0 (val_main_v16 (F := Ideal) x2))) (val_main_v4 (F := Ideal) x0 x4))
            (val_main_v38 (F := Ideal) x2))) : S50000x128.Idx → EReal) (ix2 n j)
      + (x5 : S128.Idx → EReal) (ix1 j)
    = (val_main_v47 (F := Ideal) x0 x2 x4 x5 : S50000x128.Idx → EReal) (ix2 n j) := by
  rw [reference_side x0 x2 x4 x5 n j]
  refine congrArg (· + (x5 : S128.Idx → EReal) (ix1 j)) ?_
  -- the other program's side
  have hs := rowScatterAdd_apply scatter_S50000x128_S850000x1_S850000x128_1_0_0_1.wf (val_main_v42 (F := Ideal)) (val_main_v43 (F := Ideal) x2)
    (Host.gather gather_S50000x128_S850000x1_S850000x128_1_0_n_n_0_1_1128
      (mulf (F := Ideal) (φ := .f32) (broadcastInDim S50000x128 ![0, 1] hp1 (broadcastInDim S50000x1 ![0] hp0 (val_main_v16 (F := Ideal) x2))) (val_main_v4 (F := Ideal) x0 x4))
      (val_main_v38 (F := Ideal) x2)) n j
  have eg : ∀ e : Fin 850000,
      (Host.gather gather_S50000x128_S850000x1_S850000x128_1_0_n_n_0_1_1128
        (mulf (F := Ideal) (φ := .f32) (broadcastInDim S50000x128 ![0, 1] hp1 (broadcastInDim S50000x1 ![0] hp0 (val_main_v16 (F := Ideal) x2))) (val_main_v4 (F := Ideal) x0 x4))
        (val_main_v38 (F := Ideal) x2) : S850000x128.Idx → EReal) (ix2 e j)
      = dinv x2 (ix1 (rowOf h50000 (scol x2) e)) * xw x0 x4 (ix2 (rowOf h50000 (scol x2) e) j) := fun e => by
    refine (rowGather_apply h50000 gather_S50000x128_S850000x1_S850000x128_1_0_n_n_0_1_1128.wf _ (val_main_v38 (F := Ideal) x2) e j).trans ?_
    rw [mulf_at, perNode_apply hp0 hp1 (val_main_v16 (F := Ideal) x2) _ j]
  rw [mulf_at, perNode_apply hp0 hp1 (val_main_v16 (F := Ideal) x2) n j]
  have hk : (Host.scatterAdd (F := Ideal) (φ := .f32) scatter_S50000x128_S850000x1_S850000x128_1_0_0_1 (val_main_v42 (F := Ideal)) (val_main_v43 (F := Ideal) x2)
          (Host.gather gather_S50000x128_S850000x1_S850000x128_1_0_n_n_0_1_1128
            (mulf (F := Ideal) (φ := .f32) (broadcastInDim S50000x128 ![0, 1] hp1 (broadcastInDim S50000x1 ![0] hp0 (val_main_v16 (F := Ideal) x2))) (val_main_v4 (F := Ideal) x0 x4))
            (val_main_v38 (F := Ideal) x2)) : S50000x128.Idx → EReal) (ix2 n j)
      = 0 + ∑ e : Fin 850000, if lands (tcol x2) e n then dinv x2 (ix1 (rowOf h50000 (scol x2) e)) * xw x0 x4 (ix2 (rowOf h50000 (scol x2) e) j) else 0 := by
    refine hs.trans ?_
    rw [v42_apply]
    refine congrArg (0 + ·) (Finset.sum_congr rfl fun e _ => ?_)
    by_cases hl : lands (val_main_v43 (F := Ideal) x2) e n
    · rw [if_pos hl, if_pos hl]; exact eg e
    · rw [if_neg hl, if_neg hl]
  rw [hk]
  exact (Cert.Bridge.Gcn.scale_out (fun e => lands (tcol x2) e n)
    (fun e => dinv x2 (ix1 (rowOf h50000 (scol x2) e))) (fun e => dinv x2 (ix1 (rowOf h50000 (tcolW x2) e)))
    (fun e => xw x0 x4 (ix2 (rowOf h50000 (scol x2) e) j)) (dinv x2 (ix1 n))
    (fun e hl => by show dinv x2 (ix1 (rowOf h50000 (tcolW x2) e)) = dinv x2 (ix1 n); rw [target_row x2 e n hl])
    (fun e => hd _) (fun e => hxw _) (hd _)).symm

end Cert.Bridge.GcnPure

end
-- ==== Proof.Finite.lean ====
import proofs.«126740_j33818572488720_2_alg».proof.Defs
import proofs.«126740_j33818572488720_2_alg».proof.Proof.Gen.Pre_finite_inputs
import Idealize.ShloMosaic.Lib.ReduceAll
import Idealize.ShloMosaic.Lib.IdealHost

/-!
# Finiteness of the float inputs, entry by entry

The precondition states, for each float argument array, that every entry has absolute value below
`+∞`; the sixteen statements are joined by a left-nested chain of conjunctions. Here the chain is
split and two of its conjuncts are read back at an index: every entry of argument 0 and every entry
of argument 4 is a real number.
-/

noncomputable section

namespace Cert.Bridge.Finite

open Idealize.ShloMosaic Idealize.SL.Sem
open Cert.Pre_finite_inputs

local instance : Subsingleton S_.Idx := ⟨fun a b => funext fun d => d.elim0⟩

/-- An extended real whose absolute value `max x (-x)` is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- A conjunction of two one-bit scalars that is 1 has both sides 1. -/
theorem andi_ix0 {a b : IVec S_ 1} (h : andi a b ValueIdx.ix0 = 1#1) :
    a ValueIdx.ix0 = 1#1 ∧ b ValueIdx.ix0 = 1#1 := IntOp.andi_eq_one.1 h

/-- `all (|x| < +∞)` over an array, as the precondition prints it. -/
def AllFinite [Facts] {F : FTy → Type} [FloatOps F] {s : Shape} {axes : List (Fin s.rank)}
    (hb : S_.BroadcastsInDim s (![] : Fin 0 → Fin s.rank)) (hr : s.ReducesTo axes S_) (x : FVec F s .f32) : IVec S_ 1 :=
  Host.reduce IntOp.andi (cmpf .olt (Host.absf x) (broadcastInDim s ![] hb (constant S_ .f32 0x7F800000#32)))
    (constantI S_ 1 1#1) hr Facts.h_S_

/-- If `all (|x| < +∞)` holds of an array of extended reals then each of its entries is a real number. -/
theorem real_of_allFinite [Facts] {s : Shape} {axes : List (Fin s.rank)}
    (hb : S_.BroadcastsInDim s (![] : Fin 0 → Fin s.rank)) (hr : s.ReducesTo axes S_) (x : FVec Ideal s .f32)
    (e : AllFinite hb hr x ValueIdx.ix0 = 1#1) (i : s.Idx) : ∃ r : ℝ, (x i : EReal) = (r : EReal) := by
  have hi := Host.reduce_andi_all _ _ hr Facts.h_S_ ValueIdx.ix0 e i
  refine real_of_abs_lt_top (x i) ?_
  rw [← hi]
  show _ = Ideal.cmp .olt (max (x i) (-(x i))) (broadcastInDim s ![] hb (constant (F := Ideal) S_ .f32 0x7F800000#32) i)
  rw [ValueIdx.broadcastInDim_scalar_apply]
  rfl

variable [Facts]

/-- The chain of conjunctions, split: the conjuncts of argument 0 and of argument 4. -/
theorem fn_conj {F : FTy → Type} [FloatOps F] (main_arg0 : FVec F S50000x128 .f32) (main_arg1 : FVec F S50000x3 .f32) (main_arg2 : IVec S2x800000 32) (main_arg3 : IVec S50000 32) (main_arg4 : FVec F S128x128 .f32) (main_arg5 : FVec F S128 .f32) (main_arg6 : FVec F S128x128 .f32) (main_arg7 : FVec F S128 .f32) (main_arg8 : FVec F S3x128 .f32) (main_arg9 : FVec F S128 .f32) (main_arg10 : FVec F S128x128 .f32) (main_arg11 : FVec F S128 .f32) (main_arg12 : FVec F S256x1 .f32) (main_arg13 : FVec F S1 .f32) (main_arg14 : FVec F S256x128 .f32) (main_arg15 : FVec F S128 .f32) (main_arg16 : FVec F S128x64 .f32) (main_arg17 : FVec F S64 .f32) (main_arg18 : FVec F S64x1 .f32) (main_arg19 : FVec F S1 .f32)
    (h : fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 ValueIdx.ix0 = 1#1) :
    AllFinite Facts.bcast_S_S50000x128 Facts.reducesTo_S50000x128_S_d0_1 main_arg0 ValueIdx.ix0 = 1#1
      ∧ AllFinite Facts.bcast_S_S128x128 Facts.reducesTo_S128x128_S_d0_1 main_arg4 ValueIdx.ix0 = 1#1 := by
  dsimp only [fn, fn_part1, fn_part2, fn_part3, fn_part4, fn_part5] at h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h, -⟩ := andi_ix0 h
  obtain ⟨h8, h12⟩ := andi_ix0 h
  obtain ⟨h3, -⟩ := andi_ix0 h8
  exact ⟨h3, h12⟩

/-- Every entry of argument 0 is a real number. -/
theorem x_real (m : (ℓ : Loc Cert.KernelIdeal.nD Cert.KernelIdeal.τ Cert.KernelIdeal.sig) → Buf (Elt Ideal) ℓ)
    (h : Cert.Pre_KernelIdeal m) (c : Dev Cert.KernelIdeal.nD) (i : S50000x128.Idx) :
    ∃ r : ℝ, (m ((c.tc : Thread Cert.KernelIdeal.nD Cert.KernelIdeal.τ).loc Cert.KernelIdeal.main_arg0) : S50000x128.Idx → EReal) i = (r : EReal) :=
  real_of_allFinite _ _ _ (fn_conj _ _ _ _ _ _ _ _ _ _ _ _ _ _ _ _ _ _ _ _ (congrFun (h c) ValueIdx.ix0)).1 i

/-- Every entry of argument 4 is a real number. -/
theorem gcn_w_real (m : (ℓ : Loc Cert.KernelIdeal.nD Cert.KernelIdeal.τ Cert.KernelIdeal.sig) → Buf (Elt Ideal) ℓ)
    (h : Cert.Pre_KernelIdeal m) (c : Dev Cert.KernelIdeal.nD) (i : S128x128.Idx) :
    ∃ r : ℝ, (m ((c.tc : Thread Cert.KernelIdeal.nD Cert.KernelIdeal.τ).loc Cert.KernelIdeal.main_arg4) : S128x128.Idx → EReal) i = (r : EReal) :=
  real_of_allFinite _ _ _ (fn_conj _ _ _ _ _ _ _ _ _ _ _ _ _ _ _ _ _ _ _ _ (congrFun (h c) ValueIdx.ix0)).2 i

end Cert.Bridge.Finite
-- ==== Proof.StageGcn.lean ====
/-
  The graph-convolution branch: the normalised aggregate plus its bias is the reference's.

  The kernel program scales the projected features by the normaliser, gathers the source rows, sums them into their
  target nodes and scales again; the reference multiplies every message by both endpoints' normalisers before summing.
  Under the precondition the node features and the projection weight are finite, so every projected feature is a real
  number; the normaliser is one always (a real power of a count, or zero).  Then the factor moves across the sum.
-/
import proofs.«126740_j33818572488720_2_alg».proof.Proof.KHost
import proofs.«126740_j33818572488720_2_alg».proof.Proof.StageProj
import proofs.«126740_j33818572488720_2_alg».proof.Proof.GcnPure
import proofs.«126740_j33818572488720_2_alg».proof.Proof.ProjPure
import proofs.«126740_j33818572488720_2_alg».proof.Proof.Finite

set_option maxRecDepth 16384

noncomputable section

namespace Cert.Bridge.StageGcn

open Cert.KernelIdeal Cert.KernelIdeal.Gen Cert.ReferenceIdeal.ReadP Cert.Bridge.KHost
open Idealize.ShloMosaic Idealize.ShloMosaic.TcCoe Idealize.SL.Sem Idealize.ShloMosaic.ValueIdx Cert.Scores

variable (m : (ℓ : Loc nD τ sig) → Buf (Elt Ideal) ℓ) (ρ : Dev nD → PrngReg)

/-- The normalised aggregate and the convolution bias, as functions to the extended reals. -/
abbrev aggF (c : Dev nD) : S50000x128.Idx → EReal := W5 m ρ c (Proc.devRef .tc main_v42)
abbrev gcnB (c : Dev nD) : S128.Idx → EReal := arg m c main_arg5

/-- Under the precondition every projected feature is a real number. -/
theorem xw_real [Cert.Pre_finite_inputs.Facts] (hpre : Cert.Pre_KernelIdeal m) (c : Dev nD) (i : S50000x128.Idx) :
    IsReal ((val_main_v4 (F := Ideal) (arg m c main_arg0) (arg m c main_arg4) : S50000x128.Idx → EReal) i) :=
  Cert.Bridge.ProjPure.xw_real (arg m c main_arg0) (arg m c main_arg4)
    (fun i => Cert.Bridge.Finite.x_real m hpre c i) (fun i => Cert.Bridge.Finite.gcn_w_real m hpre c i) i

/-- The normalised aggregate plus the bias, at `(n, j)`, is the reference's aggregate plus the bias. -/
theorem gcn_eq [Cert.Pre_finite_inputs.Facts] (hpre : Cert.Pre_KernelIdeal m) (c : Dev nD) (n : Fin 50000) (j : Fin 128) :
    aggF m ρ c (ix2 n j) + gcnB m c (ix1 j)
      = (val_main_v47 (F := Ideal) (arg m c main_arg0) (arg m c main_arg2) (arg m c main_arg4) (arg m c main_arg5) : S50000x128.Idx → EReal) (ix2 n j) := by
  have h42 := W5_v42 m ρ c
  have hxw := Cert.Bridge.StageProj.xw_eq m ρ c
  unfold aggF gcnB
  rw [h42]
  unfold perNode
  rw [show xwK m ρ c = _ from hxw]
  exact Cert.Bridge.GcnPure.gcn_pure (arg m c main_arg0) (arg m c main_arg2) (arg m c main_arg4) (arg m c main_arg5)
    (fun i => xw_real m hpre c i) (fun i => Cert.Bridge.ProjPure.dinv_real (arg m c main_arg2) i) _ _ n j

end Cert.Bridge.StageGcn

end
-- ==== Proof.EdgeMlp.lean ====
/-
  The edge messages, region by region of the grid, as one function of the arrays the region reads.

  For each of the 800000 edges the kernel takes the sender's 128 features `Xj`, the edge's displacement `Dl` (three
  numbers) and a logit `Lg`. A two-layer network maps the displacement to 128 numbers: a 3-by-128 weight and a bias
  row, rectified, then a 128-by-128 weight and a bias row. The message is the logistic of the logit times the sum of
  the sender's features and the network's output.

  The grid has 200 points; point `t` computes edges `4000 t … 4000 t + 3999`. The file reads the body's value at an
  entry of a block, identifies each operand block with the rows of its array, and concludes that the array the
  region leaves is the messages of the arrays it found, entry by entry.
-/
import proofs.«126740_j33818572488720_2_alg».proof.Proof.Gen.KernelIdeal.Frame
import proofs.«126740_j33818572488720_2_alg».proof.Proof.LibPlainDot
import proofs.«126740_j33818572488720_2_alg».proof.Proof.LibColumn
import Idealize.ShloMosaic.Lib.Pipeline.Value
import Idealize.ShloMosaic.Lib.ValueIdx
import Idealize.ShloMosaic.Lib.ValueLayout

noncomputable section

namespace Cert.Bridge.EdgeMlp

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The message of edge `e` at feature `j`: the gate, the logistic of the edge's logit, times the sender's feature
    plus the two-layer edge network of the edge's displacement (three inputs, a rectified hidden layer, a linear
    output layer). -/
def msgAt (Xj : S800000x128.Idx → EReal) (Dl : S800000x3.Idx → EReal) (Lg : S800000x1.Idx → EReal)
    (W1 : S3x128.Idx → EReal) (B1 : S1x128.Idx → EReal) (W2 : S128x128.Idx → EReal) (B2 : S1x128.Idx → EReal)
    (e : Fin 800000) (j : Fin 128) : EReal :=
  Ideal.logistic (Lg (ix2 e (0 : Fin 1)))
    * (Xj (ix2 e j)
        + ((∑ k : Fin 128, max ((∑ q : Fin 3, Dl (ix2 e q) * W1 (ix2 q k)) + B1 (ix2 (0 : Fin 1) k)) 0 * W2 (ix2 k j))
            + B2 (ix2 (0 : Fin 1) j)))

theorem msgAt_def (Xj : S800000x128.Idx → EReal) (Dl : S800000x3.Idx → EReal) (Lg : S800000x1.Idx → EReal)
    (W1 : S3x128.Idx → EReal) (B1 : S1x128.Idx → EReal) (W2 : S128x128.Idx → EReal) (B2 : S1x128.Idx → EReal)
    (e : Fin 800000) (j : Fin 128) :
    msgAt Xj Dl Lg W1 B1 W2 B2 e j
      = Ideal.logistic (Lg (ix2 e (0 : Fin 1)))
          * (Xj (ix2 e j)
              + ((∑ k : Fin 128, max ((∑ q : Fin 3, Dl (ix2 e q) * W1 (ix2 q k)) + B1 (ix2 (0 : Fin 1) k)) 0 * W2 (ix2 k j))
                  + B2 (ix2 (0 : Fin 1) j))) := rfl

/-- The messages as one function of the whole arrays. -/
def msgArr (Xj : S800000x128.Idx → EReal) (Dl : S800000x3.Idx → EReal) (Lg : S800000x1.Idx → EReal)
    (W1 : S3x128.Idx → EReal) (B1 : S1x128.Idx → EReal) (W2 : S128x128.Idx → EReal) (B2 : S1x128.Idx → EReal) :
    S800000x128.Idx → EReal := fun i => msgAt Xj Dl Lg W1 B1 W2 B2 (i 0) (i 1)

theorem hz2 : (![0, 0] : Fin 2 → Nat) = fun _ => 0 := funext fun a => by fin_cases a <;> rfl

/-- The body's value at entry `(p, q)` of its block, over any seven operand blocks. -/
theorem payload_apply (x0 : Vec Ideal S4000x128 .bf16) (x1 : Vec Ideal S4000x3 .f32) (x2 : Vec Ideal S4000x1 .f32)
    (x3 : Vec Ideal S3x128 .f32) (x4 : Vec Ideal S1x128 .f32) (x5 : Vec Ideal S128x128 .f32) (x6 : Vec Ideal S1x128 .f32)
    (p : Fin 4000) (q : Fin 128) :
    Gen.k1_pay1 x0 x1 x3 x4 x5 x6 x2 (ix2 p q)
      = Ideal.logistic (x2 (ix2 p (0 : Fin 1)))
          * (x0 (ix2 p q)
              + ((∑ k : Fin 128, max ((∑ r : Fin 3, x1 (ix2 p r) * x3 (ix2 r k)) + x4 (ix2 (0 : Fin 1) k)) 0 * x5 (ix2 k q))
                  + x6 (ix2 (0 : Fin 1) q))) := by
  unfold Gen.k1_pay1
  simp only [shapeCast_self]
  rw [mulf_apply, addf_apply, addf_apply, extf_apply, broadcastTo_1b_ab_apply,
    Cert.GraphConv.Column.broadcastTo_a1_ab_apply]
  refine congrArg₂ (· * ·) rfl (congrArg₂ (· + ·) rfl (congrArg₂ (· + ·) ?_ rfl))
  refine (Cert.PlainDot.matmul_zero_apply (M := 4000) (K := 128) (N := 128) _ rfl none _ _ p q).trans ?_
  refine Finset.sum_congr rfl fun k _ => congrArg₂ (· * ·) ?_ rfl
  rw [truncf_apply, maximumf_apply, addf_apply, broadcast_apply, broadcastTo_1b_ab_apply]
  refine congrArg₂ max (congrArg₂ (· + ·) ?_ rfl) Ideal.ofBits_zero_f32
  exact Cert.PlainDot.matmul_zero_apply (M := 4000) (K := 3) (N := 128) _ rfl none _ _ p k

/-- The windows' block indices at a grid point: the edge-row windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- An edge-row window's block at point `t` holds rows `4000 t … 4000 t + 3999` of its array; a whole window's
    block is its array. -/
theorem blk0_apply (c : Dev nD) (t : Fin cfg1.N) (p : Fin 4000) (k : Fin 128) (R : Fin 800000)
    (hR : R.val = t.val * 4000 + p.val) :
    (Gen.iblk1 V c 0 t : Vec Ideal S4000x128 _) (ix2 p k) = (V c (Pipeline.arrRef spec1 0) : S800000x128.Idx → EReal) (ix2 R k) := by
  obtain ⟨e0, e1, -⟩ := idx_facts t
  unfold Gen.iblk1
  rw [View.read_apply]
  show V c (Pipeline.arrRef spec1 0) _ = V c (Pipeline.arrRef spec1 0) _
  congr 1
  funext a
  apply Fin.ext
  match a with
  | ⟨0, _⟩ => show win1_0.index t (0 : Fin 2) * 4000 + 1 * p.val = R.val; omega
  | ⟨1, _⟩ => show win1_0.index t (1 : Fin 2) * 128 + 1 * k.val = k.val; omega

theorem blk1_apply (c : Dev nD) (t : Fin cfg1.N) (p : Fin 4000) (k : Fin 3) (R : Fin 800000)
    (hR : R.val = t.val * 4000 + p.val) :
    (Gen.iblk1 V c 1 t : Vec Ideal S4000x3 _) (ix2 p k) = (V c (Pipeline.arrRef spec1 1) : S800000x3.Idx → EReal) (ix2 R k) := by
  obtain ⟨-, -, e0, e1, -⟩ := idx_facts t
  unfold Gen.iblk1
  rw [View.read_apply]
  show V c (Pipeline.arrRef spec1 1) _ = V c (Pipeline.arrRef spec1 1) _
  congr 1
  funext a
  apply Fin.ext
  match a with
  | ⟨0, _⟩ => show win1_1.index t (0 : Fin 2) * 4000 + 1 * p.val = R.val; omega
  | ⟨1, _⟩ => show win1_1.index t (1 : Fin 2) * 3 + 1 * k.val = k.val; omega

theorem blk2_apply (c : Dev nD) (t : Fin cfg1.N) (p : Fin 4000) (k : Fin 1) (R : Fin 800000)
    (hR : R.val = t.val * 4000 + p.val) :
    (Gen.iblk1 V c 2 t : Vec Ideal S4000x1 _) (ix2 p k) = (V c (Pipeline.arrRef spec1 2) : S800000x1.Idx → EReal) (ix2 R k) := by
  obtain ⟨-, -, -, -, e0, e1, -⟩ := idx_facts t
  unfold Gen.iblk1
  rw [View.read_apply]
  show V c (Pipeline.arrRef spec1 2) _ = V c (Pipeline.arrRef spec1 2) _
  congr 1
  funext a
  apply Fin.ext
  match a with
  | ⟨0, _⟩ => show win1_2.index t (0 : Fin 2) * 4000 + 1 * p.val = R.val; omega
  | ⟨1, _⟩ => show win1_2.index t (1 : Fin 2) * 1 + 1 * k.val = k.val; omega

theorem blk3_apply (c : Dev nD) (t : Fin cfg1.N) (p : Fin 3) (k : Fin 128) :
    (Gen.iblk1 V c 3 t : Vec Ideal S3x128 _) (ix2 p k) = (V c (Pipeline.arrRef spec1 3) : S3x128.Idx → EReal) (ix2 p k) := by
  obtain ⟨-, -, -, -, -, -, e0, e1, -⟩ := idx_facts t
  unfold Gen.iblk1
  rw [View.read_apply]
  show V c (Pipeline.arrRef spec1 3) _ = V c (Pipeline.arrRef spec1 3) _
  congr 1
  funext a
  apply Fin.ext
  match a with
  | ⟨0, _⟩ => show win1_3.index t (0 : Fin 2) * 3 + 1 * p.val = p.val; omega
  | ⟨1, _⟩ => show win1_3.index t (1 : Fin 2) * 128 + 1 * k.val = k.val; omega

theorem blk4_apply (c : Dev nD) (t : Fin cfg1.N) (p : Fin 1) (k : Fin 128) :
    (Gen.iblk1 V c 4 t : Vec Ideal S1x128 _) (ix2 p k) = (V c (Pipeline.arrRef spec1 4) : S1x128.Idx → EReal) (ix2 p k) := by
  obtain ⟨-, -, -, -, -, -, -, -, e0, e1, -⟩ := idx_facts t
  unfold Gen.iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * p.val = p.val; omega
  | ⟨1, _⟩ => show win1_4.index t (1 : Fin 2) * 128 + 1 * k.val = k.val; omega

theorem blk5_apply (c : Dev nD) (t : Fin cfg1.N) (p : Fin 128) (k : Fin 128) :
    (Gen.iblk1 V c 5 t : Vec Ideal S128x128 _) (ix2 p k) = (V c (Pipeline.arrRef spec1 5) : S128x128.Idx → EReal) (ix2 p k) := by
  obtain ⟨-, -, -, -, -, -, -, -, -, -, e0, e1, -⟩ := idx_facts t
  unfold Gen.iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * p.val = p.val; omega
  | ⟨1, _⟩ => show win1_5.index t (1 : Fin 2) * 128 + 1 * k.val = k.val; omega

theorem blk6_apply (c : Dev nD) (t : Fin cfg1.N) (p : Fin 1) (k : Fin 128) :
    (Gen.iblk1 V c 6 t : Vec Ideal S1x128 _) (ix2 p k) = (V c (Pipeline.arrRef spec1 6) : S1x128.Idx → EReal) (ix2 p k) := by
  obtain ⟨-, -, -, -, -, -, -, -, -, -, -, -, e0, e1, -⟩ := idx_facts t
  unfold Gen.iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * p.val = p.val; omega
  | ⟨1, _⟩ => show win1_6.index t (1 : Fin 2) * 128 + 1 * k.val = k.val; omega

/-- What point `t` writes back is block `t` of the messages of the arrays as the region finds them. -/
theorem flushed_eq (c : Dev nD) (t : Fin cfg1.N) :
    (Gen.dat1 (F := Ideal) V c).flushed 7 t = ((cfg1.win 7).blk t).view.read (Elt Ideal)
      (msgArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6))) := by
  show (cfg1.win 7).cut (grid1.coords t) ((Gen.dat1 V c).after 7 t) = _
  rw [Gen.after1_7]
  unfold Gen.out1_7
  rw [View.canon_unit_zero hz2]
  simp only [View.ld_unit_zero (S := S4000x128) hz2, View.ld_unit_zero (S := S4000x3) hz2, View.ld_unit_zero (S := S4000x1) hz2,
    View.ld_unit_zero (S := S3x128) hz2, View.ld_unit_zero (S := S1x128) hz2, View.ld_unit_zero (S := S128x128) hz2]
  obtain ⟨-, -, -, -, -, -, -, -, -, -, -, -, -, -, e0, e1⟩ := idx_facts t
  have hN : cfg1.N = 200 := Gen.N_1
  have ht : t.val < 200 := hN ▸ t.isLt
  funext y
  have hy0 : (y 0).val < 4000 := (y 0).isLt
  have hy1 : (y 1).val < 128 := (y 1).isLt
  have hR : t.val * 4000 + (y 0).val < 800000 := by omega
  have hx : (cfg1.win 7).xinj (grid1.coords t) y = ix2 (⟨(y 0).val, hy0⟩ : Fin 4000) (⟨(y 1).val, hy1⟩ : Fin 128) := by
    funext a; apply Fin.ext
    match a with
    | ⟨0, _⟩ => rfl
    | ⟨1, _⟩ => rfl
  have he : ((cfg1.win 7).blk t).view.emb y
      = ix2 (⟨t.val * 4000 + (y 0).val, hR⟩ : Fin 800000) (⟨(y 1).val, hy1⟩ : Fin 128) := by
    funext a; apply Fin.ext
    match a with
    | ⟨0, _⟩ => show win1_7.index t (0 : Fin 2) * 4000 + 1 * (y 0).val = t.val * 4000 + (y 0).val; omega
    | ⟨1, _⟩ => show win1_7.index t (1 : Fin 2) * 128 + 1 * (y 1).val = (y 1).val; omega
  show Gen.k1_pay1 (F := Ideal) _ _ _ _ _ _ _ ((cfg1.win 7).xinj (grid1.coords t) y) = msgArr _ _ _ _ _ _ _ (((cfg1.win 7).blk t).view.emb y)
  rw [hx, he]
  refine (payload_apply _ _ _ _ _ _ _ _ _).trans ?_
  show _ = msgAt _ _ _ _ _ _ _ (⟨t.val * 4000 + (y 0).val, hR⟩ : Fin 800000) (⟨(y 1).val, hy1⟩ : Fin 128)
  unfold msgAt
  refine congrArg₂ (· * ·) (congrArg Ideal.logistic ?_) (congrArg₂ (· + ·) ?_ (congrArg₂ (· + ·)
    (Finset.sum_congr rfl fun k _ => congrArg₂ (· * ·) (congrArg₂ max (congrArg₂ (· + ·)
      (Finset.sum_congr rfl fun r _ => congrArg₂ (· * ·) ?_ ?_) ?_) rfl) ?_) ?_))
  · exact blk2_apply V c t ⟨(y 0).val, hy0⟩ 0 ⟨t.val * 4000 + (y 0).val, hR⟩ rfl
  · exact blk0_apply V c t ⟨(y 0).val, hy0⟩ _ ⟨t.val * 4000 + (y 0).val, hR⟩ rfl
  · exact blk1_apply V c t ⟨(y 0).val, hy0⟩ r ⟨t.val * 4000 + (y 0).val, hR⟩ rfl
  · exact blk3_apply V c t r k
  · exact blk4_apply V c t 0 k
  · exact blk5_apply V c t k _
  · exact blk6_apply V c t 0 _

/-- An index of the array is in point `t`'s block iff each coordinate is in the block's range on its axis. -/
theorem mem_blk (t : Fin cfg1.N) (i : S800000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v85).slice (win1_7.rect t)).set ↔ _
  rw [View.set_slice_whole, Rect.mem_set_unit]
  exact Iff.rfl

/-- Edge `e` lies in the block of point `e / 4000`. -/
theorem cover (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  have hN : cfg1.N = 200 := Gen.N_1
  have hlt : (i 0).val / 4000 < cfg1.N := by rw [hN]; omega
  obtain ⟨-, -, -, -, -, -, -, -, -, -, -, -, -, -, e0, e1⟩ := idx_facts ⟨(i 0).val / 4000, hlt⟩
  refine ⟨⟨(i 0).val / 4000, hlt⟩, Gen.flush1_7 _, ?_⟩
  rw [mem_blk]
  intro a
  match a with
  | ⟨0, _⟩ =>
    show win1_7.index ⟨(i 0).val / 4000, hlt⟩ (0 : Fin 2) * 4000 ≤ (i 0).val
      ∧ (i 0).val < win1_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, hlt⟩ (1 : Fin 2) * 128 ≤ (i 1).val
      ∧ (i 1).val < win1_7.index ⟨(i 0).val / 4000, hlt⟩ (1 : Fin 2) * 128 + 128
    rw [e1]; omega

/-- The array after the region is the messages of the arrays as the region finds them. -/
theorem msg_array (c : Dev nD) :
    (Gen.dat1 (F := Ideal) V c).arrAt 7 cfg1.N
      = msgArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) :=
  (Gen.dat1 (F := Ideal) V c).arrAt_eq_of_cover 7 _ (fun t _ => flushed_eq V c t) cover

theorem msg_apply (c : Dev nD) (e : Fin 800000) (j : Fin 128) :
    (Gen.dat1 (F := Ideal) V c).arrAt 7 cfg1.N (ix2 e j)
      = msgAt (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) e j :=
  congrFun (msg_array V c) (ix2 e j)

end Cert.Bridge.EdgeMlp

end
-- ==== Proof.EdgePure.lean ====
/-
  The edge message written with sums, against the reference program's own term for it.

  For edge `e` and feature `j` the reference computes the gate, one over one plus the exponential of minus the edge's
  logit, times the sum of the sender's feature and the edge network of the edge's displacement. One over one plus the
  exponential of minus `x` is the logistic function of `x` by definition, the literal the reference divides is one, the
  network's two products are the sums over their shared axis, a bias vector laid as a row is read at its column, and a
  narrowing of the sender's features is the identity on extended reals. The edge's logit enters as a hypothesis:
  any column that agrees with the reference's logit at every edge.
-/
import proofs.«126740_j33818572488720_2_alg».proof.Proof.RefRead
import proofs.«126740_j33818572488720_2_alg».proof.Proof.LibRowVector
import Idealize.ShloMosaic.Lib.Pipeline.Value
import Idealize.ShloMosaic.Lib.ValueIdx
import Idealize.ShloMosaic.Lib.IdealHost
import Idealize.ShloMosaic.PureOps.Ideal.Laws

noncomputable section

namespace Cert.Bridge.EdgePure

open Cert.ReferenceIdeal Cert.ReferenceIdeal.ReadP Idealize.ShloMosaic Idealize.ShloMosaic.ValueIdx

theorem msg_pure
    (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x6 : (⟨S128x128, .f32⟩ : BufTy).Contents (Elt Ideal))
    (x7 : (⟨S128, .f32⟩ : BufTy).Contents (Elt Ideal)) (x8 : (⟨S3x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S256x1, .f32⟩ : BufTy).Contents (Elt Ideal))
    (x13 : (⟨S1, .f32⟩ : BufTy).Contents (Elt Ideal))
    (XL : S50000x128.Idx → EReal) (hXL : XL = val_main_v52 (F := Ideal) x0 x6 x7)
    (g : GatherDims S50000x128 S800000x1 S800000x128) (hg : g = gather_S50000x128_S800000x1_S800000x128_1_0_n_n_0_1_1128)
    (hb : FTy.bf16.bits < FTy.f32.bits) (h9 : S128.ShapeCasts S1x128) (h11 : S128.ShapeCasts S1x128)
    (Lg : S800000x1.Idx → EReal)
    (hLg : ∀ e : Fin 800000, Lg (ix2 e (0 : Fin 1))
      = (val_main_v95 (F := Ideal) x0 x2 x6 x7 x12 x13 : S800000x1.Idx → EReal) (ix2 e (0 : Fin 1)))
    (e : Fin 800000) (j : Fin 128) :
    Ideal.logistic (Lg (ix2 e (0 : Fin 1)))
        * ((Host.gather g (truncf (F := Ideal) .bf16 XL hb) (val_main_v65 (F := Ideal) x2) : S800000x128.Idx → EReal) (ix2 e j)
            + ((∑ k : Fin 128, max ((∑ q : Fin 3, (val_main_v81 (F := Ideal) x1 x2 : S800000x3.Idx → EReal) (ix2 e q) * x8 (ix2 q k))
                    + (shapeCast S1x128 x9 h9 : S1x128.Idx → EReal) (ix2 (0 : Fin 1) k)) 0 * x10 (ix2 k j))
                + (shapeCast S1x128 x11 h11 : S1x128.Idx → EReal) (ix2 (0 : Fin 1) j)))
      = (val_main_v104 (F := Ideal) x0 x1 x2 x6 x7 x8 x9 x10 x11 x12 x13 : S800000x128.Idx → EReal) (ix2 e j) := by
  subst hXL hg
  have i0 : idx_main_v103 (ix2 e j) = ix2 e (0 : Fin 1) := by
    funext a
    match a with
    | ⟨0, _⟩ => rfl
    | ⟨1, _⟩ => rfl
  rw [val_main_v104_apply, val_main_v102_apply, val_main_v103_apply, i0]
  simp only [Ideal.mulf_def, Ideal.addf_def]
  refine congrArg₂ (· * ·) ?_ (congrArg₂ (· + ·) rfl ?_)
  · -- the gate: one over one plus the exponential of minus the logit
    rw [hLg e, val_main_v101_apply, val_main_v100_apply, val_main_cst_19_apply, val_main_v99_apply, val_main_v98_apply,
      val_main_cst_18_apply, val_main_v97_apply, val_main_v96_apply]
    show Ideal.div 1 (1 + Ideal.exp (-_))
      = Ideal.div (Ideal.ofBits .f32 0x3F800000#32) (Ideal.ofBits .f32 0x3F800000#32 + Ideal.exp (-_))
    rw [Ideal.ofBits_one_f32]
  · -- the edge network
    rw [val_main_v90_apply, val_main_v87_apply, val_main_v89_apply, val_main_v88_apply]
    simp only [Ideal.addf_def]
    refine congrArg₂ (· + ·) (Finset.sum_congr rfl fun k _ => ?_) ?_
    · have hl : lidx_main_v87 (ix2 e j) k = ix2 e k := by
        funext a
        match a with
        | ⟨0, _⟩ => rfl
        | ⟨1, _⟩ => rfl
      have hr : ridx_main_v87 (ix2 e j) k = ix2 k j := by
        funext a
        match a with
        | ⟨0, _⟩ => rfl
        | ⟨1, _⟩ => rfl
      rw [hl, hr, val_main_v86_apply, val_main_v85_apply, val_main_v82_apply, val_main_v84_apply, val_main_v83_apply,
        val_main_call2_v0_apply, val_main_call2_cst_apply]
      simp only [Ideal.addf_def, Ideal.maximumf_def]
      refine congrArg₂ (· * ·) (congrArg₂ max (congrArg₂ (· + ·) (Finset.sum_congr rfl fun q _ => ?_) ?_) ?_) rfl
      · have hl2 : lidx_main_v82 (ix2 e k) q = ix2 e q := by
          funext a
          match a with
          | ⟨0, _⟩ => rfl
          | ⟨1, _⟩ => rfl
        have hr2 : ridx_main_v82 (ix2 e k) q = ix2 q k := by
          funext a
          match a with
          | ⟨0, _⟩ => rfl
          | ⟨1, _⟩ => rfl
        rw [hl2, hr2]
      · refine (Cert.RowVector.reshape_apply x9 h9 _).trans (congrArg x9 ?_)
        funext a
        match a with
        | ⟨0, _⟩ => rfl
      · exact Ideal.ofBits_zero_f32.symm
    · refine (Cert.RowVector.reshape_apply x11 h11 _).trans (congrArg x11 ?_)
      funext a
      match a with
      | ⟨0, _⟩ => rfl

end Cert.Bridge.EdgePure

end
-- ==== Proof.LogitPure.lean ====
import proofs.«126740_j33818572488720_2_alg».proof.Proof.RefRead
import proofs.«126740_j33818572488720_2_alg».proof.Proof.LibEdgeIndex
import Idealize.ShloMosaic.Lib.Pipeline.Value
import Idealize.ShloMosaic.Lib.ValueIdx

/-!
# The attention logit of an edge, two ways

For an edge `e` from `src` to `dst` one program takes the logit as the inner product of the joined rows
`xl dst`, `xl src` (256 entries) with one weight column, plus a bias. The other keeps two scalars per node —
the inner product of `xl n` with the first half of the column plus the bias, and with the second half — and adds
the first scalar of `dst` to the second scalar of `src`. The two agree: a sum over 256 indices is the sum over its
two halves, and addition on the extended reals is commutative and associative, so
`(A + b) + (B + 0) = (A + B) + b`; nothing needs to be finite.
-/

noncomputable section

namespace Cert.Bridge.LogitPure

open Cert.ReferenceIdeal Cert.ReferenceIdeal.ReadP Idealize.ShloMosaic Idealize.ShloMosaic.ValueIdx

/-- The shape of the array of the two per-node scalars. -/
abbrev T50000x2 : Shape := ⟨2, ![50000, 2]⟩

theorem pos50000 : 0 < 50000 := by decide

/-- The node the target column names for edge `e` (read signed and clamped into range). -/
abbrev dst (x2 : IVec S2x800000 32) (e : Fin 800000) : Fin 50000 :=
  Cert.EdgeIndex.rowOf pos50000 (val_main_v58 (F := Ideal) x2) e
/-- The node the source column names for edge `e`. -/
abbrev src (x2 : IVec S2x800000 32) (e : Fin 800000) : Fin 50000 :=
  Cert.EdgeIndex.rowOf pos50000 (val_main_v65 (F := Ideal) x2) e

/-- A gather of whole rows of a `[50000, 128]` array through an index column, at entry `(e, j)`. -/
theorem gather128_apply {α : Type} (x : S50000x128.Idx → α) (idx : IVec S800000x1 32) (e : Fin 800000) (j : Fin 128) :
    Host.gather gather_S50000x128_S800000x1_S800000x128_1_0_n_n_0_1_1128 x idx (ix2 e j) = x (ix2 (Cert.EdgeIndex.rowOf pos50000 idx e) j) :=
  Cert.EdgeIndex.rowGather_apply pos50000 _ x idx e j

/-- The logit over the joined rows: the sum over the 256 joined entries splits into the two halves. -/
theorem ref_logit (x0 : S50000x128.Idx → EReal) (x2 : IVec S2x800000 32) (x6 : S128x128.Idx → EReal) (x7 : S128.Idx → EReal) (x12 : S256x1.Idx → EReal) (x13 : S1.Idx → EReal) (e : Fin 800000) :
    (val_main_v95 (F := Ideal) x0 x2 x6 x7 x12 x13 : S800000x1.Idx → EReal) (ix2 e (0 : Fin 1))
      = ((∑ k : Fin 128, (val_main_v52 (F := Ideal) x0 x6 x7 : S50000x128.Idx → EReal) (ix2 (dst x2 e) k) * x12 (ix2 (⟨k.val, by have := k.isLt; omega⟩ : Fin 256) (0 : Fin 1)))
          + (∑ k : Fin 128, (val_main_v52 (F := Ideal) x0 x6 x7 : S50000x128.Idx → EReal) (ix2 (src x2 e) k) * x12 (ix2 (⟨128 + k.val, by have := k.isLt; omega⟩ : Fin 256) (0 : Fin 1))))
        + x13 (ix1 (0 : Fin 1)) := by
  show val_main_v92 (F := Ideal) x0 x2 x6 x7 x12 (ix2 e (0 : Fin 1)) + val_main_v94 (F := Ideal) x13 (ix2 e (0 : Fin 1)) = _
  refine congrArg₂ (· + ·) ?_ ?_
  · rw [val_main_v92_apply]
    refine (Fin.sum_univ_add (a := 128) (b := 128) _).trans ?_
    refine congrArg₂ (· + ·) (Finset.sum_congr rfl fun k _ => ?_) (Finset.sum_congr rfl fun k _ => ?_)
    · refine congrArg₂ (· * ·) ?_ (congrArg x12 (funext (fun a => by
      match a with
      | ⟨0, _⟩ => rfl
      | ⟨1, _⟩ => rfl)))
      unfold val_main_v91
      refine Eq.trans (b := val_main_v59 (F := Ideal) x0 x2 x6 x7 (ix2 e k)) ?_ (gather128_apply _ _ e k)
      exact concatenate_pair_apply_left (t := S800000x256) (s₁ := S800000x128) (s₂ := S800000x128) 1 _ _ _ (lidx_main_v92 (ix2 e (0 : Fin 1)) (Fin.castAdd 128 k)) rfl (ix2 e k) (fun a => by
      match a with
      | ⟨0, _⟩ => rfl
      | ⟨1, _⟩ => rfl)
    · refine congrArg₂ (· * ·) ?_ (congrArg x12 (funext (fun a => by
      match a with
      | ⟨0, _⟩ => rfl
      | ⟨1, _⟩ => rfl)))
      unfold val_main_v91
      refine Eq.trans (b := val_main_v66 (F := Ideal) x0 x2 x6 x7 (ix2 e k)) ?_ (gather128_apply _ _ e k)
      exact concatenate_pair_apply_right (t := S800000x256) (s₁ := S800000x128) (s₂ := S800000x128) 1 _ _ _ (lidx_main_v92 (ix2 e (0 : Fin 1)) (Fin.natAdd 128 k)) rfl rfl (ix2 e k) (fun b hb => by
        match b, hb with
        | ⟨0, _⟩, _ => rfl
        | ⟨1, _⟩, hb => exact absurd (Fin.ext rfl) hb) (by show k.val + 128 = 128 + k.val; omega)
  · rw [val_main_v94_apply, val_main_v93_apply]
    exact congrArg x13 (funext (fun a => by
      match a with
      | ⟨0, _⟩ => rfl))

/-- The sum of the target's first scalar and the source's second scalar is the logit over the joined rows. -/
theorem logit_pure (x0 : S50000x128.Idx → EReal) (x2 : IVec S2x800000 32) (x6 : S128x128.Idx → EReal) (x7 : S128.Idx → EReal) (x12 : S256x1.Idx → EReal) (x13 : S1.Idx → EReal)
    (XL : S50000x128.Idx → EReal) (hXL : XL = (val_main_v52 (F := Ideal) x0 x6 x7 : S50000x128.Idx → EReal))
    (AB : T50000x2.Idx → EReal)
    (hab0 : ∀ r : Fin 50000, AB (ix2 r (0 : Fin 2))
      = (∑ k : Fin 128, XL (ix2 r k) * x12 (ix2 (⟨k.val, by have := k.isLt; omega⟩ : Fin 256) (0 : Fin 1))) + x13 (ix1 (0 : Fin 1)))
    (hab1 : ∀ r : Fin 50000, AB (ix2 r (1 : Fin 2))
      = (∑ k : Fin 128, XL (ix2 r k) * x12 (ix2 (⟨128 + k.val, by have := k.isLt; omega⟩ : Fin 256) (0 : Fin 1))) + 0)
    (g1 : GatherDims S50000x1 S800000x1 S800000x1)
    (wf1 : GatherDims.WF S50000x1 S800000x1 S800000x1 [1] [0] [] [0] [] 1 ![1, 1])
    (hg1 : g1 = Cert.EdgeIndex.rowGather 50000 1 800000 wf1)
    (hs0 : T50000x2.Slices ![0, 0] S50000x1) (hs1 : T50000x2.Slices ![0, 1] S50000x1)
    (e : Fin 800000) :
    (addf (F := Ideal) (s := S800000x1) (φ := .f32) (Host.gather g1 (extractStridedSlice S50000x1 ![0, 0] AB hs0) (val_main_v58 (F := Ideal) x2)) (Host.gather g1 (extractStridedSlice S50000x1 ![0, 1] AB hs1) (val_main_v65 (F := Ideal) x2)) : S800000x1.Idx → EReal) (ix2 e (0 : Fin 1))
      = (val_main_v95 (F := Ideal) x0 x2 x6 x7 x12 x13 : S800000x1.Idx → EReal) (ix2 e (0 : Fin 1)) := by
  subst hXL hg1
  rw [ref_logit]
  show Host.gather (Cert.EdgeIndex.rowGather 50000 1 800000 wf1) (extractStridedSlice S50000x1 ![0, 0] AB hs0) (val_main_v58 (F := Ideal) x2) (ix2 e (0 : Fin 1))
    + Host.gather (Cert.EdgeIndex.rowGather 50000 1 800000 wf1) (extractStridedSlice S50000x1 ![0, 1] AB hs1) (val_main_v65 (F := Ideal) x2) (ix2 e (0 : Fin 1)) = _
  rw [Cert.EdgeIndex.rowGather_apply pos50000, Cert.EdgeIndex.rowGather_apply pos50000,
    extractStridedSlice_apply _ AB hs0 _ (ix2 (dst x2 e) (0 : Fin 2)) (fun a => by
      match a with
      | ⟨0, _⟩ => show (dst x2 e).val = 0 + (dst x2 e).val; omega
      | ⟨1, _⟩ => rfl),
    extractStridedSlice_apply _ AB hs1 _ (ix2 (src x2 e) (1 : Fin 2)) (fun a => by
      match a with
      | ⟨0, _⟩ => show (src x2 e).val = 0 + (src x2 e).val; omega
      | ⟨1, _⟩ => rfl),
    hab0, hab1, add_zero]
  exact add_right_comm _ _ _

end Cert.Bridge.LogitPure
-- ==== Proof.StageEdge.lean ====
/-
  The edge kernel's output is the reference's message.

  Every edge's message is its attention gate times the sum of the source's projected features and an edge embedding
  of the coordinate difference.  The kernel takes the gate's logit as the target's first attention scalar plus the
  source's second (gathered per node), the reference as one inner product of the concatenated endpoint features: the
  same sum regrouped.  The rest is the same arithmetic on the same gathered rows.
-/
import proofs.«126740_j33818572488720_2_alg».proof.Proof.KHost
import proofs.«126740_j33818572488720_2_alg».proof.Proof.KHostB
import proofs.«126740_j33818572488720_2_alg».proof.Proof.EdgeMlp
import proofs.«126740_j33818572488720_2_alg».proof.Proof.EdgePure
import proofs.«126740_j33818572488720_2_alg».proof.Proof.LogitPure
import proofs.«126740_j33818572488720_2_alg».proof.Proof.StageProj

set_option maxRecDepth 16384

noncomputable section

namespace Cert.Bridge.StageEdge

open Cert.KernelIdeal Cert.KernelIdeal.Gen Cert.ReferenceIdeal.ReadP Cert.Bridge.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The logit the edge kernel is entered with is the reference's, edge by edge. -/
theorem logit_eq (c : Dev nD) (e : Fin 800000) :
    (W5 m ρ c (Proc.devRef .tc main_v82) : S800000x1.Idx → EReal) (ix2 e (0 : Fin 1))
      = (val_main_v95 (F := Ideal) (arg m c main_arg0) (arg m c main_arg2) (arg m c main_arg6) (arg m c main_arg7) (arg m c main_arg12) (arg m c main_arg13) : S800000x1.Idx → EReal) (ix2 e (0 : Fin 1)) := by
  rw [W5_v82 m ρ c]
  exact Cert.Bridge.LogitPure.logit_pure (arg m c main_arg0) (arg m c main_arg2) (arg m c main_arg6) (arg m c main_arg7) (arg m c main_arg12) (arg m c main_arg13)
    (xlK m ρ c) (Cert.Bridge.StageProj.xl_eq m ρ c) (abK m ρ c)
    (fun r => Cert.Bridge.StageProj.ab0_eq m ρ c r) (fun r => Cert.Bridge.StageProj.ab1_eq m ρ c r)
    gather_S50000x1_S800000x1_S800000x1_1_0_n_n_0_1_11 gather_S50000x1_S800000x1_S800000x1_1_0_n_n_0_1_11_wf rfl _ _ e

/-- The edge kernel's output is the reference's message. -/
theorem msg_eq (c : Dev nD) :
    (msgK m ρ c : S800000x128.Idx → EReal) = (val_main_v104 (F := Ideal) (arg m c main_arg0) (arg m c main_arg1) (arg m c main_arg2) (arg m c main_arg6) (arg m c main_arg7) (arg m c main_arg8) (arg m c main_arg9) (arg m c main_arg10) (arg m c main_arg11) (arg m c main_arg12) (arg m c main_arg13) : S800000x128.Idx → EReal) := by
  funext i
  obtain ⟨e, j, rfl⟩ : ∃ (e : Fin 800000) (j : Fin 128), i = ix2 e j := ⟨i 0, i 1, eq_ix2 i⟩
  have h1 : (msgK m ρ c : S800000x128.Idx → EReal) = ((dat1 (F := Ideal) (V5 m ρ) c).arrAt 7 cfg1.N : S800000x128.Idx → EReal) := W6_arr m ρ c 7
  rw [h1, Cert.Bridge.EdgeMlp.msg_apply (V5 m ρ) c e j, Cert.Bridge.EdgeMlp.msgAt_def]
  have e0 := W5_v50 m ρ c
  have e1 := W5_v65 m ρ c
  have e3 := W5_arg8 m ρ c
  have e4 := W5_v83 m ρ c
  have e5 := W5_arg10 m ρ c
  have e6 := W5_v84 m ρ c
  rw [show V5 m ρ c (Pipeline.arrRef spec1 0) = _ from e0, show V5 m ρ c (Pipeline.arrRef spec1 1) = _ from e1,
    show V5 m ρ c (Pipeline.arrRef spec1 3) = _ from e3, show V5 m ρ c (Pipeline.arrRef spec1 4) = _ from e4,
    show V5 m ρ c (Pipeline.arrRef spec1 5) = _ from e5, show V5 m ρ c (Pipeline.arrRef spec1 6) = _ from e6]
  exact Cert.Bridge.EdgePure.msg_pure (arg m c main_arg0) (arg m c main_arg1) (arg m c main_arg2) (arg m c main_arg6) (arg m c main_arg7) (arg m c main_arg8) (arg m c main_arg9) (arg m c main_arg10) (arg m c main_arg11) (arg m c main_arg12) (arg m c main_arg13)
    (xlK m ρ c) (Cert.Bridge.StageProj.xl_eq m ρ c) gather_S50000x128_S800000x1_S800000x128_1_0_n_n_0_1_1128 rfl _ _ _
    (W5 m ρ c (Proc.devRef .tc main_v82)) (fun e => logit_eq m ρ c e) e j

end Cert.Bridge.StageEdge

end
-- ==== Proof.StageFuse.lean ====
/-
  The fusion kernel's output is the reference's fused features.

  The kernel adds the convolution bias to the normalised aggregate, rectifies both branches, lays them side by side,
  multiplies by the fusion weight, adds the fusion bias and rectifies.  The reference does the same to its own two
  branches; the first branches agree after the bias (the graph-convolution bridge), the second are the same sum of
  the same messages.
-/
import proofs.«126740_j33818572488720_2_alg».proof.Proof.KHost
import proofs.«126740_j33818572488720_2_alg».proof.Proof.KHostB
import proofs.«126740_j33818572488720_2_alg».proof.Proof.Fusion
import proofs.«126740_j33818572488720_2_alg».proof.Proof.FusionPure
import proofs.«126740_j33818572488720_2_alg».proof.Proof.StageGcn
import proofs.«126740_j33818572488720_2_alg».proof.Proof.StageEdge

set_option maxRecDepth 16384

noncomputable section

namespace Cert.Bridge.StageFuse

open Cert.KernelIdeal Cert.KernelIdeal.Gen Cert.ReferenceIdeal.ReadP Cert.Bridge.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The messages summed into their targets are the reference's. -/
theorem local_eq (c : Dev nD) :
    (Host.scatterAdd scatter_S50000x128_S800000x1_S800000x128_1_0_0_1 (val_main_v105 (F := Ideal)) (val_main_v106 (F := Ideal) (arg m c main_arg2)) (msgK m ρ c)
      : S50000x128.Idx → EReal)
      = (val_main_v107 (F := Ideal) (arg m c main_arg0) (arg m c main_arg1) (arg m c main_arg2) (arg m c main_arg6) (arg m c main_arg7) (arg m c main_arg8) (arg m c main_arg9) (arg m c main_arg10) (arg m c main_arg11) (arg m c main_arg12) (arg m c main_arg13) : S50000x128.Idx → EReal) := by
  rw [show msgK m ρ c = _ from Cert.Bridge.StageEdge.msg_eq m ρ c]
  exact (Cert.Bridge.FusionPure.v107_eq (arg m c main_arg0) (arg m c main_arg1) (arg m c main_arg2) (arg m c main_arg6) (arg m c main_arg7) (arg m c main_arg8) (arg m c main_arg9) (arg m c main_arg10) (arg m c main_arg11) (arg m c main_arg12) (arg m c main_arg13)).symm

/-- The fusion kernel's output is the reference's fused features. -/
theorem fused_eq [Cert.Pre_finite_inputs.Facts] (hpre : Cert.Pre_KernelIdeal m) (c : Dev nD) :
    (fusedK m ρ c : S50000x128.Idx → EReal) = (val_main_v114 (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) : S50000x128.Idx → EReal) := by
  funext i
  obtain ⟨r, j, rfl⟩ : ∃ (r : Fin 50000) (j : Fin 128), i = ix2 r j := ⟨i 0, i 1, eq_ix2 i⟩
  have h1 : (fusedK m ρ c : S50000x128.Idx → EReal) = ((dat2 (F := Ideal) (V7 m ρ) c).arrAt 5 cfg2.N : S50000x128.Idx → EReal) := W8_arr m ρ c 5
  rw [h1, Cert.Bridge.Fusion.fused_apply (V7 m ρ) c r j]
  unfold Cert.Bridge.Fusion.fusedAt
  have e0 : V7 m ρ c (Pipeline.arrRef spec2 0) = W5 m ρ c (Proc.devRef .tc main_v42) := W7_v42 m ρ c
  have e1 := W7_v88 m ρ c
  have e2 := W7_v89 m ρ c
  have e3 := W7_arg14 m ρ c
  have e4 := W7_v90 m ρ c
  rw [e0, show V7 m ρ c (Pipeline.arrRef spec2 1) = _ from e1, show V7 m ρ c (Pipeline.arrRef spec2 2) = _ from e2,
    show V7 m ρ c (Pipeline.arrRef spec2 3) = _ from e3, show V7 m ρ c (Pipeline.arrRef spec2 4) = _ from e4]
  rw [Cert.Bridge.FusionPure.v114_eq_refFused]
  exact Cert.Bridge.FusionPure.fused_pure _ _ (arg m c main_arg14) (arg m c main_arg15) _ _ (arg m c main_arg5) _ _ r j
    (fun r k => Cert.Bridge.StageGcn.gcn_eq m ρ hpre c r k) (local_eq m ρ c)

end Cert.Bridge.StageFuse

end
-- ==== Proof.StageOut.lean ====
/-
  The last kernel's output is the reference's result.

  The fused features are summed per graph and divided by the graph's node count clipped at one, in both programs by
  the same operations on the same array; the read-out kernel then applies the two-layer perceptron the reference
  applies on the host.
-/
import proofs.«126740_j33818572488720_2_alg».proof.Proof.KHost
import proofs.«126740_j33818572488720_2_alg».proof.Proof.KHostB
import proofs.«126740_j33818572488720_2_alg».proof.Proof.Readout
import proofs.«126740_j33818572488720_2_alg».proof.Proof.ReadoutPure
import proofs.«126740_j33818572488720_2_alg».proof.Proof.StageFuse

set_option maxRecDepth 16384

noncomputable section

namespace Cert.Bridge.StageOut

open Cert.KernelIdeal Cert.KernelIdeal.Gen Cert.ReferenceIdeal.ReadP Cert.Bridge.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The per-graph mean the read-out kernel is entered with is the reference's. -/
theorem pooled_eq [Cert.Pre_finite_inputs.Facts] (hpre : Cert.Pre_KernelIdeal m) (c : Dev nD) :
    W11 m ρ c (Proc.devRef .tc main_v102) = val_main_v125 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [W11_v102 m ρ c, show fusedK m ρ c = _ from Cert.Bridge.StageFuse.fused_eq m ρ hpre c]
  exact (Cert.Bridge.ReadoutPure.v125_eq (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15)).symm

/-- THE RESULT: what the last kernel leaves in the result buffer is the reference's last stage of the arguments. -/
theorem out_eq [Cert.Pre_finite_inputs.Facts] (hpre : Cert.Pre_KernelIdeal m) (c : Dev nD) :
    W12 m ρ c (Proc.devRef .tc main_v105) = val_main_v134 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) := by
  show (W12 m ρ c (Proc.devRef .tc main_v105) : S256x1.Idx → EReal) = (val_main_v134 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) : S256x1.Idx → EReal)
  funext i
  obtain ⟨g, u, rfl⟩ : ∃ (g : Fin 256) (u : Fin 1), i = ix2 g u := ⟨i 0, i 1, eq_ix2 i⟩
  have h1 : (W12 m ρ c (Proc.devRef .tc main_v105) : S256x1.Idx → EReal) = ((dat3 (F := Ideal) (V11 m ρ) c).arrAt 5 cfg3.N : S256x1.Idx → EReal) := W12_arr m ρ c 5
  rw [h1, Cert.Bridge.Readout.out_apply (V11 m ρ) c g u]
  have hP : Cert.Bridge.Readout.P (V11 m ρ) c = _ := pooled_eq m ρ hpre c
  have hW1 : Cert.Bridge.Readout.W1 (V11 m ρ) c = _ := W11_arg16 m ρ c
  have hB1 : Cert.Bridge.Readout.B1 (V11 m ρ) c = _ := W11_v103 m ρ c
  have hW2 : Cert.Bridge.Readout.W2 (V11 m ρ) c = _ := W11_arg18 m ρ c
  have hB2 : Cert.Bridge.Readout.B2 (V11 m ρ) c = _ := W11_v104 m ρ c
  rw [hP, hW1, hB1, hW2, hB2, Cert.Bridge.ReadoutPure.v134_eq_refOut]
  exact Cert.Bridge.ReadoutPure.out_pure _ (arg m c main_arg16) (arg m c main_arg17) (arg m c main_arg18) (arg m c main_arg19) _ _ g u

end Cert.Bridge.StageOut

end
-- ==== Proof.lean ====
/-
  The certificate of a graph network's forward pass: a message-passing layer with a normalised graph convolution
  (global branch) and an attention-gated edge network (local branch), a fusion layer, mean pooling per graph and a
  two-layer read-out, computed by four kernels among host gathers and scatters, against the plain reference.

  On the extended reals the two programs compute one function of the arguments.  They differ in two rearrangements
  only.  The attention logit of an edge, the inner product of the concatenated endpoint features with the attention
  weight plus a bias, is taken by the kernel program as the sum of two per-node scalars (each endpoint's features
  against its half of the weight, the bias added to the first): a regrouping of one sum.  The graph convolution's
  symmetric normalisation, a product of both endpoints' normalisers on every message, is taken by the kernel program
  as a scaling of the features before the aggregation and a scaling of the aggregate after it: a factor moved across
  a sum, which holds because the precondition makes every feature and weight finite and the normaliser is a real
  number always.  Everything else is the same arithmetic, with the kernels' matrix products read as sums and their
  narrowing to sixteen bits the identity.

  The three frames: the two kernel programs' by their frame certificates; the reference's is its run with the result
  dropped.  The idealization rewrote nothing, so there is nothing to preserve.
-/
import proofs.«126740_j33818572488720_2_alg».proof.Defs
import proofs.«126740_j33818572488720_2_alg».proof.Proof.Gen.Kernel
import proofs.«126740_j33818572488720_2_alg».proof.Proof.Gen.Kernel.Frame
import proofs.«126740_j33818572488720_2_alg».proof.Proof.Gen.KernelIdeal
import proofs.«126740_j33818572488720_2_alg».proof.Proof.Gen.KernelIdeal.Frame
import proofs.«126740_j33818572488720_2_alg».proof.Proof.Gen.ReferenceIdeal
import proofs.«126740_j33818572488720_2_alg».proof.Proof.Gen.Pre_finite_inputs
import proofs.«126740_j33818572488720_2_alg».proof.Proof.KRun
import proofs.«126740_j33818572488720_2_alg».proof.Proof.RefRun
import proofs.«126740_j33818572488720_2_alg».proof.Proof.RefRead
import proofs.«126740_j33818572488720_2_alg».proof.Proof.StageOut
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with one result: the kernel program's last kernel leaves the read-out of the pooled fusion
    (its run, with the result named), and that array is the reference's last stage of the same arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v105), Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v134_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
  exact (Cert.Bridge.StageOut.out_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
